-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 256, 128]⟩ ⟨3, ![4, 256, 1024]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 128]⟩ ⟨2, ![128, 1024]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 128]⟩ ⟨2, ![128, 1024]⟩ 1 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 256, 128]⟩ ⟨3, ![4, 256, 1024]⟩ 2 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x256x128 : Shape := ⟨3, ![4, 256, 128]⟩
abbrev S4x128 : Shape := ⟨2, ![4, 128]⟩
abbrev S128x128 : Shape := ⟨2, ![128, 128]⟩
abbrev S_ : Shape := ⟨0, ![]⟩

class Facts : Prop where
  bcast_S_S4x256x128 : S_.BroadcastsInDim S4x256x128 (![] : Fin 0 → Fin S4x256x128.rank)
  reducesTo_S4x256x128_S_d0_1_2 : S4x256x128.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S4x256x128 .f32) (main_arg1 : FVec F S4x128 .f32) (main_arg2 : FVec F S128x128 .f32) (main_arg3 : FVec F S128x128 .f32) : IVec S_ 1 :=
  let main_v0 : FVec F S4x256x128 .f32 := Host.absf main_arg0
  let main_cst : FVec F S_ .f32 := constant S_ .f32 0x7F800000#32
  let main_v1 : FVec F S4x256x128 .f32 := broadcastInDim S4x256x128 ![] bcast_S_S4x256x128 main_cst
  let main_v2 : IVec S4x256x128 1 := cmpf .olt main_v0 main_v1
  let main_c : IVec S_ 1 := constantI S_ 1 1#1
  let main_v3 : IVec S_ 1 := (fun x v => Host.reduce IntOp.andi x v reducesTo_S4x256x128_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Pre_finite_inputs_ReferenceIdeal.lean ====
abbrev S4x256x1024 : Shape := ⟨3, ![4, 256, 1024]⟩
abbrev S4x128 : Shape := ⟨2, ![4, 128]⟩
abbrev S128x1024 : Shape := ⟨2, ![128, 1024]⟩
abbrev S_ : Shape := ⟨0, ![]⟩

class Facts : Prop where
  bcast_S_S4x256x1024 : S_.BroadcastsInDim S4x256x1024 (![] : Fin 0 → Fin S4x256x1024.rank)
  reducesTo_S4x256x1024_S_d0_1_2 : S4x256x1024.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S128x1024 : S_.BroadcastsInDim S128x1024 (![] : Fin 0 → Fin S128x1024.rank)
  reducesTo_S128x1024_S_d0_1 : S128x1024.ReducesTo [0, 1] S_

variable [Facts]

def fn_part1 {F : FTy → Type} [FloatOps F] (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  main_v18

def fn {F : FTy → Type} [FloatOps F] (main_arg0 : FVec F S4x256x1024 .f32) (main_arg1 : FVec F S4x128 .f32) (main_arg2 : FVec F S128x1024 .f32) (main_arg3 : FVec F S128x1024 .f32) : IVec S_ 1 :=
  let main_v0 : FVec F S4x256x1024 .f32 := Host.absf main_arg0
  let main_cst : FVec F S_ .f32 := constant S_ .f32 0x7F800000#32
  let main_v1 : FVec F S4x256x1024 .f32 := broadcastInDim S4x256x1024 ![] bcast_S_S4x256x1024 main_cst
  let main_v2 : IVec S4x256x1024 1 := cmpf .olt main_v0 main_v1
  let main_c : IVec S_ 1 := constantI S_ 1 1#1
  let main_v3 : IVec S_ 1 := (fun x v => Host.reduce IntOp.andi x v reducesTo_S4x256x1024_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_v13 main_v16
-- ==== Kernel.lean ====
abbrev S4x256x128 : Shape := ⟨3, ![4, 256, 128]⟩
abbrev S4x128 : Shape := ⟨2, ![4, 128]⟩
abbrev S128x128 : Shape := ⟨2, ![128, 128]⟩
abbrev S2x4x256 : Shape := ⟨3, ![2, 4, 256]⟩
abbrev S7x2x4x256 : Shape := ⟨4, ![7, 2, 4, 256]⟩
abbrev S7 : Shape := ⟨1, ![7]⟩
abbrev S_ : Shape := ⟨0, ![]⟩
abbrev S4x256 : Shape := ⟨2, ![4, 256]⟩
abbrev S1x4x256 : Shape := ⟨3, ![1, 4, 256]⟩
abbrev S1 : Shape := ⟨1, ![1]⟩
abbrev S1x2x4x256 : Shape := ⟨4, ![1, 2, 4, 256]⟩
abbrev S7x1x4x256 : Shape := ⟨4, ![7, 1, 4, 256]⟩
abbrev S7x4x256 : Shape := ⟨3, ![7, 4, 256]⟩
abbrev S4x256x1 : Shape := ⟨3, ![4, 256, 1]⟩
abbrev S4x1x128 : Shape := ⟨3, ![4, 1, 128]⟩

abbrev nBuf : Space → Nat
  | .hbm => 5
  | .vmem => 7
  | .smem => 0
  | _ => 0

abbrev bufTy : (tb : Table) → Fin (tcTables nBuf tb) → BufTy
  | .hbm, ⟨0, _⟩ => ⟨S4x256x128, .f32⟩
  | .hbm, ⟨1, _⟩ => ⟨S4x128, .f32⟩
  | .hbm, ⟨2, _⟩ => ⟨S128x128, .f32⟩
  | .hbm, ⟨3, _⟩ => ⟨S128x128, .f32⟩
  | .hbm, ⟨4, _⟩ => ⟨S4x256x128, .f32⟩
  | .local _ .vmem, ⟨0, _⟩ => ⟨S4x256x128, .f32⟩
  | .local _ .vmem, ⟨1, _⟩ => ⟨S4x128, .f32⟩
  | .local _ .vmem, ⟨2, _⟩ => ⟨S128x128, .f32⟩
  | .local _ .vmem, ⟨3, _⟩ => ⟨S128x128, .f32⟩
  | .local _ .vmem, ⟨4, _⟩ => ⟨S4x256x128, .f32⟩
  | .local _ .vmem, ⟨5, _⟩ => ⟨S2x4x256, .f32⟩
  | .local _ .vmem, ⟨6, _⟩ => ⟨S7x2x4x256, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  { ofTc nBuf bufTy 1 19 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_72 : BitVec 32 := 1#32
  let v106 : BitVec 32 := Scalar.addi v2 c1_i32_72
  let c8_i32_73 : BitVec 32 := 8#32
  let c0_i32_74 : BitVec 32 := 0#32
  let v107 : BitVec 1 := Scalar.cmpi .eq c8_i32_73 c0_i32_74
  let c1_i32_75 : BitVec 32 := 1#32
  let v108 : BitVec 32 := Scalar.select v107 c1_i32_75 c8_i32_73
  let v109 : BitVec 32 := Scalar.remsi v106 v108
  let c0_i32_77 : BitVec 32 := 0#32
  let v111 : BitVec 1 := Scalar.cmpi .slt v109 c0_i32_77
  let c0_i32_78 : BitVec 32 := 0#32
  let v112 : BitVec 1 := Scalar.cmpi .slt v108 c0_i32_78
  let v113 : BitVec 1 := Scalar.xori v111 v112
  let c0_i32_76 : BitVec 32 := 0#32
  let v110 : BitVec 1 := Scalar.cmpi .ne v109 c0_i32_76
  let v114 : BitVec 1 := Scalar.andi v113 v110
  let v115 : BitVec 32 := Scalar.addi v109 v108
  let v116 : BitVec 32 := Scalar.select v114 v115 v109
  let c1_i32_82 : BitVec 32 := 1#32
  let v117 : BitVec 32 := Scalar.muli v116 c1_i32_82
  let v118 : BitVec 32 := Scalar.addi c0_i32_83 v117
  v118.toNat
def k0_dev9 (d0 : Dev nD) : Nat :=
  let c0_i32_98 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_87 : BitVec 32 := 2#32
  let v125 : BitVec 32 := Scalar.addi v2 c2_i32_87
  let c8_i32_88 : BitVec 32 := 8#32
  let c0_i32_89 : BitVec 32 := 0#32
  let v126 : BitVec 1 := Scalar.cmpi .eq c8_i32_88 c0_i32_89
  let c1_i32_90 : BitVec 32 := 1#32
  let v127 : BitVec 32 := Scalar.select v126 c1_i32_90 c8_i32_88
  let v128 : BitVec 32 := Scalar.remsi v125 v127
  let c0_i32_92 : BitVec 32 := 0#32
  let v130 : BitVec 1 := Scalar.cmpi .slt v128 c0_i32_92
  let c0_i32_93 : BitVec 32 := 0#32
  let v131 : BitVec 1 := Scalar.cmpi .slt v127 c0_i32_93
  let v132 : BitVec 1 := Scalar.xori v130 v131
  let c0_i32_91 : BitVec 32 := 0#32
  let v129 : BitVec 1 := Scalar.cmpi .ne v128 c0_i32_91
  let v133 : BitVec 1 := Scalar.andi v132 v129
  let v134 : BitVec 32 := Scalar.addi v128 v127
  let v135 : BitVec 32 := Scalar.select v133 v134 v128
  let c1_i32_97 : BitVec 32 := 1#32
  let v136 : BitVec 32 := Scalar.muli v135 c1_i32_97
  let v137 : BitVec 32 := Scalar.addi c0_i32_98 v136
  v137.toNat
def k0_dev10 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_102 : BitVec 32 := 3#32
  let v144 : BitVec 32 := Scalar.addi v2 c3_i32_102
  let c8_i32_103 : BitVec 32 := 8#32
  let c0_i32_104 : BitVec 32 := 0#32
  let v145 : BitVec 1 := Scalar.cmpi .eq c8_i32_103 c0_i32_104
  let c1_i32_105 : BitVec 32 := 1#32
  let v146 : BitVec 32 := Scalar.select v145 c1_i32_105 c8_i32_103
  let v147 : BitVec 32 := Scalar.remsi v144 v146
  let c0_i32_107 : BitVec 32 := 0#32
  let v149 : BitVec 1 := Scalar.cmpi .slt v147 c0_i32_107
  let c0_i32_108 : BitVec 32 := 0#32
  let v150 : BitVec 1 := Scalar.cmpi .slt v146 c0_i32_108
  let v151 : BitVec 1 := Scalar.xori v149 v150
  let c0_i32_106 : BitVec 32 := 0#32
  let v148 : BitVec 1 := Scalar.cmpi .ne v147 c0_i32_106
  let v152 : BitVec 1 := Scalar.andi v151 v148
  let v153 : BitVec 32 := Scalar.addi v147 v146
  let v154 : BitVec 32 := Scalar.select v152 v153 v147
  let c1_i32_112 : BitVec 32 := 1#32
  let v155 : BitVec 32 := Scalar.muli v154 c1_i32_112
  let v156 : BitVec 32 := Scalar.addi c0_i32_113 v155
  v156.toNat
def k0_dev11 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_117 : BitVec 32 := 4#32
  let v163 : BitVec 32 := Scalar.addi v2 c4_i32_117
  let c8_i32_118 : BitVec 32 := 8#32
  let c0_i32_119 : BitVec 32 := 0#32
  let v164 : BitVec 1 := Scalar.cmpi .eq c8_i32_118 c0_i32_119
  let c1_i32_120 : BitVec 32 := 1#32
  let v165 : BitVec 32 := Scalar.select v164 c1_i32_120 c8_i32_118
  let v166 : BitVec 32 := Scalar.remsi v163 v165
  let c0_i32_122 : BitVec 32 := 0#32
  let v168 : BitVec 1 := Scalar.cmpi .slt v166 c0_i32_122
  let c0_i32_123 : BitVec 32 := 0#32
  let v169 : BitVec 1 := Scalar.cmpi .slt v165 c0_i32_123
  let v170 : BitVec 1 := Scalar.xori v168 v169
  let c0_i32_121 : BitVec 32 := 0#32
  let v167 : BitVec 1 := Scalar.cmpi .ne v166 c0_i32_121
  let v171 : BitVec 1 := Scalar.andi v170 v167
  let v172 : BitVec 32 := Scalar.addi v166 v165
  let v173 : BitVec 32 := Scalar.select v171 v172 v166
  let c1_i32_127 : BitVec 32 := 1#32
  let v174 : BitVec 32 := Scalar.muli v173 c1_i32_127
  let v175 : BitVec 32 := Scalar.addi c0_i32_128 v174
  v175.toNat
def k0_dev12 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_132 : BitVec 32 := 5#32
  let v182 : BitVec 32 := Scalar.addi v2 c5_i32_132
  let c8_i32_133 : BitVec 32 := 8#32
  let c0_i32_134 : BitVec 32 := 0#32
  let v183 : BitVec 1 := Scalar.cmpi .eq c8_i32_133 c0_i32_134
  let c1_i32_135 : BitVec 32 := 1#32
  let v184 : BitVec 32 := Scalar.select v183 c1_i32_135 c8_i32_133
  let v185 : BitVec 32 := Scalar.remsi v182 v184
  let c0_i32_137 : BitVec 32 := 0#32
  let v187 : BitVec 1 := Scalar.cmpi .slt v185 c0_i32_137
  let c0_i32_138 : BitVec 32 := 0#32
  let v188 : BitVec 1 := Scalar.cmpi .slt v184 c0_i32_138
  let v189 : BitVec 1 := Scalar.xori v187 v188
  let c0_i32_136 : BitVec 32 := 0#32
  let v186 : BitVec 1 := Scalar.cmpi .ne v185 c0_i32_136
  let v190 : BitVec 1 := Scalar.andi v189 v186
  let v191 : BitVec 32 := Scalar.addi v185 v184
  let v192 : BitVec 32 := Scalar.select v190 v191 v185
  let c1_i32_142 : BitVec 32 := 1#32
  let v193 : BitVec 32 := Scalar.muli v192 c1_i32_142
  let v194 : BitVec 32 := Scalar.addi c0_i32_143 v193
  v194.toNat
def k0_dev13 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_147 : BitVec 32 := 6#32
  let v201 : BitVec 32 := Scalar.addi v2 c6_i32_147
  let c8_i32_148 : BitVec 32 := 8#32
  let c0_i32_149 : BitVec 32 := 0#32
  let v202 : BitVec 1 := Scalar.cmpi .eq c8_i32_148 c0_i32_149
  let c1_i32_150 : BitVec 32 := 1#32
  let v203 : BitVec 32 := Scalar.select v202 c1_i32_150 c8_i32_148
  let v204 : BitVec 32 := Scalar.remsi v201 v203
  let c0_i32_152 : BitVec 32 := 0#32
  let v206 : BitVec 1 := Scalar.cmpi .slt v204 c0_i32_152
  let c0_i32_153 : BitVec 32 := 0#32
  let v207 : BitVec 1 := Scalar.cmpi .slt v203 c0_i32_153
  let v208 : BitVec 1 := Scalar.xori v206 v207
  let c0_i32_151 : BitVec 32 := 0#32
  let v205 : BitVec 1 := Scalar.cmpi .ne v204 c0_i32_151
  let v209 : BitVec 1 := Scalar.andi v208 v205
  let v210 : BitVec 32 := Scalar.addi v204 v203
  let v211 : BitVec 32 := Scalar.select v209 v210 v204
  let c1_i32_157 : BitVec 32 := 1#32
  let v212 : BitVec 32 := Scalar.muli v211 c1_i32_157
  let v213 : BitVec 32 := Scalar.addi c0_i32_158 v212
  v213.toNat
def k0_dev14 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_162 : BitVec 32 := 7#32
  let v220 : BitVec 32 := Scalar.addi v2 c7_i32_162
  let c8_i32_163 : BitVec 32 := 8#32
  let c0_i32_164 : BitVec 32 := 0#32
  let v221 : BitVec 1 := Scalar.cmpi .eq c8_i32_163 c0_i32_164
  let c1_i32_165 : BitVec 32 := 1#32
  let v222 : BitVec 32 := Scalar.select v221 c1_i32_165 c8_i32_163
  let v223 : BitVec 32 := Scalar.remsi v220 v222
  let c0_i32_167 : BitVec 32 := 0#32
  let v225 : BitVec 1 := Scalar.cmpi .slt v223 c0_i32_167
  let c0_i32_168 : BitVec 32 := 0#32
  let v226 : BitVec 1 := Scalar.cmpi .slt v222 c0_i32_168
  let v227 : BitVec 1 := Scalar.xori v225 v226
  let c0_i32_166 : BitVec 32 := 0#32
  let v224 : BitVec 1 := Scalar.cmpi .ne v223 c0_i32_166
  let v228 : BitVec 1 := Scalar.andi v227 v224
  let v229 : BitVec 32 := Scalar.addi v223 v222
  let v230 : BitVec 32 := Scalar.select v228 v229 v223
  let c1_i32_172 : BitVec 32 := 1#32
  let v231 : BitVec 32 := Scalar.muli v230 c1_i32_172
  let v232 : BitVec 32 := Scalar.addi c0_i32_173 v231
  v232.toNat
abbrev stage0_0 : Fin 1 → Memref sig .tc .vmem S4x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  hamt_1 : (1#32 : BitVec 32).msb = false
  inb_S4x256x128_S4x256x128_0_0_0 : ∀ a, (![0, 0, 0] : Fin 3 → Nat) a + S4x256x128.size a ≤ S4x256x128.size a
  h_S4x256x128 : 0 < S4x256x128.numel
  shapeCasts_S4x256x128_S4x256x128 : S4x256x128.ShapeCasts S4x256x128
  reduces_S4x256x128_S4x256 : S4x256x128.Reduces [2] S4x256
  inb_S2x4x256_S1x4x256_0_0_0 : ∀ a, (![0, 0, 0] : Fin 3 → Nat) a + S1x4x256.size a ≤ S2x4x256.size a
  h_S1x4x256 : 0 < S1x4x256.numel
  shapeCasts_S1x4x256_S4x256 : S1x4x256.ShapeCasts S4x256
  shapeCasts_S4x256_S1x4x256 : S4x256.ShapeCasts S1x4x256
  inb_S2x4x256_S1x4x256_1_0_0 : ∀ a, (![1, 0, 0] : Fin 3 → Nat) a + S1x4x256.size a ≤ S2x4x256.size a
  hamt_7 : (7#32 : BitVec 32).msb = false
  inb_S7_S1_0 : ∀ a, (![0] : Fin 1 → Nat) a + S1.size a ≤ S7.size a
  squeezes_S1_S_ : S1.Squeezes S_
  inb_S7x2x4x256_S1x2x4x256_0_0_0_0 : ∀ a, (![0, 0, 0, 0] : Fin 4 → Nat) a + S1x2x4x256.size a ≤ S7x2x4x256.size a
  squeezes_S1x2x4x256_S2x4x256 : S1x2x4x256.Squeezes S2x4x256
  inb_S7_S1_1 : ∀ a, (![1] : Fin 1 → Nat) a + S1.size a ≤ S7.size a
  inb_S7x2x4x256_S1x2x4x256_1_0_0_0 : ∀ a, (![1, 0, 0, 0] : Fin 4 → Nat) a + S1x2x4x256.size a ≤ S7x2x4x256.size a
  inb_S7_S1_2 : ∀ a, (![2] : Fin 1 → Nat) a + S1.size a ≤ S7.size a
  inb_S7x2x4x256_S1x2x4x256_2_0_0_0 : ∀ a, (![2, 0, 0, 0] : Fin 4 → Nat) a + S1x2x4x256.size a ≤ S7x2x4x256.size a
  inb_S7_S1_3 : ∀ a, (![3] : Fin 1 → Nat) a + S1.size a ≤ S7.size a
  inb_S7x2x4x256_S1x2x4x256_3_0_0_0 : ∀ a, (![3, 0, 0, 0] : Fin 4 → Nat) a + S1x2x4x256.size a ≤ S7x2x4x256.size a
  inb_S7_S1_4 : ∀ a, (![4] : Fin 1 → Nat) a + S1.size a ≤ S7.size a
  inb_S7x2x4x256_S1x2x4x256_4_0_0_0 : ∀ a, (![4, 0, 0, 0] : Fin 4 → Nat) a + S1x2x4x256.size a ≤ S7x2x4x256.size a
  inb_S7_S1_5 : ∀ a, (![5] : Fin 1 → Nat) a + S1.size a ≤ S7.size a
  inb_S7x2x4x256_S1x2x4x256_5_0_0_0 : ∀ a, (![5, 0, 0, 0] : Fin 4 → Nat) a + S1x2x4x256.size a ≤ S7x2x4x256.size a
  inb_S7_S1_6 : ∀ a, (![6] : Fin 1 → Nat) a + S1.size a ≤ S7.size a
  inb_S7x2x4x256_S1x2x4x256_6_0_0_0 : ∀ a, (![6, 0, 0, 0] : Fin 4 → Nat) a + S1x2x4x256.size a ≤ S7x2x4x256.size a
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S7x2x4x256_S7x1x4x256_0_0_0_0 : ∀ a, (![0, 0, 0, 0] : Fin 4 → Nat) a + S7x1x4x256.size a ≤ S7x2x4x256.size a
  h_S7x1x4x256 : 0 < S7x1x4x256.numel
  shapeCasts_S7x1x4x256_S7x4x256 : S7x1x4x256.ShapeCasts S7x4x256
  reduces_S7x4x256_S4x256 : S7x4x256.Reduces [0] S4x256
  inb_S7x2x4x256_S7x1x4x256_0_1_0_0 : ∀ a, (![0, 1, 0, 0] : Fin 4 → Nat) a + S7x1x4x256.size a ≤ S7x2x4x256.size a
  shapeCasts_S4x256_S4x256x1 : S4x256.ShapeCasts S4x256x1
  broadcasts_S4x256x1_S4x256x128 : S4x256x1.Broadcasts S4x256x128
  shapeCasts_S4x128_S4x1x128 : S4x128.ShapeCasts S4x1x128
  broadcasts_S4x1x128_S4x256x128 : S4x1x128.Broadcasts S4x256x128
  dot_S4x128_S128x128_S4x128_1_0_0_1_n_n_wf : DotDims.WF S4x128 S128x128 S4x128 [1] [0] [0] [1] [] []
  hcc0_scratch2 : 5 + S7.numel ≤ 19
  hcc0_scratch3 : 12 + S7.numel ≤ 19
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

abbrev cc0_scratch2 : DmaSems sig S7 := SemArray.consecutive 5 S7 hcc0_scratch2
abbrev cc0_scratch3 : DmaSems sig S7 := SemArray.consecutive 12 S7 hcc0_scratch3
def dot_S4x128_S128x128_S4x128_1_0_0_1_n_n : DotDims S4x128 S128x128 S4x128 where
  lhsContracting := [1]
  rhsContracting := [0]
  lhsNonContracting := [0]
  rhsNonContracting := [1]
  lhsBatch := []
  rhsBatch := []
  wf := dot_S4x128_S128x128_S4x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x1024 : Shape := ⟨3, ![4, 256, 1024]⟩
abbrev S4x128 : Shape := ⟨2, ![4, 128]⟩
abbrev S128x1024 : Shape := ⟨2, ![128, 1024]⟩
abbrev S_ : Shape := ⟨0, ![]⟩
abbrev S4x256 : Shape := ⟨2, ![4, 256]⟩
abbrev S4x256x1 : Shape := ⟨3, ![4, 256, 1]⟩
abbrev S4x1024 : Shape := ⟨2, ![4, 1024]⟩
abbrev S4x1x1024 : Shape := ⟨3, ![4, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x128, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .i32⟩
  | .hbm, ⟨11, _⟩ => ⟨S_, .f32⟩
  | .hbm, ⟨12, _⟩ => ⟨S4x256, .f32⟩
  | .hbm, ⟨13, _⟩ => ⟨S4x256x1, .f32⟩
  | .hbm, ⟨14, _⟩ => ⟨S_, .f32⟩
  | .hbm, ⟨15, _⟩ => ⟨S4x256x1, .f32⟩
  | .hbm, ⟨16, _⟩ => ⟨S4x256x1, .f32⟩
  | .hbm, ⟨17, _⟩ => ⟨S4x256x1024, .f32⟩
  | .hbm, ⟨18, _⟩ => ⟨S4x256x1024, .f32⟩
  | .hbm, ⟨19, _⟩ => ⟨S4x256x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x256, .f32⟩
  | .hbm, ⟨25, _⟩ => ⟨S4x256x1, .f32⟩
  | .hbm, ⟨26, _⟩ => ⟨S4x256x1, .f32⟩
  | .hbm, ⟨27, _⟩ => ⟨S4x256x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x256x1, .f32⟩
  | .hbm, ⟨33, _⟩ => ⟨S4x256x1, .f32⟩
  | .hbm, ⟨34, _⟩ => ⟨S4x256x1024, .f32⟩
  | .hbm, ⟨35, _⟩ => ⟨S4x256x1024, .f32⟩
  | .hbm, ⟨36, _⟩ => ⟨S_, .f32⟩
  | .hbm, ⟨37, _⟩ => ⟨S4x256x1, .f32⟩
  | .hbm, ⟨38, _⟩ => ⟨S4x256x1, .f32⟩
  | .hbm, ⟨39, _⟩ => ⟨S4x256x1, .f32⟩
  | .hbm, ⟨40, _⟩ => ⟨S4x256x1024, .f32⟩
  | .hbm, ⟨41, _⟩ => ⟨S4x256x1024, .f32⟩
  | .hbm, ⟨42, _⟩ => ⟨S4x1024, .f32⟩
  | .hbm, ⟨43, _⟩ => ⟨S4x1024, .f32⟩
  | .hbm, ⟨44, _⟩ => ⟨S4x1x1024, .f32⟩
  | .hbm, ⟨45, _⟩ => ⟨S_, .f32⟩
  | .hbm, ⟨46, _⟩ => ⟨S4x1x1024, .f32⟩
  | .hbm, ⟨47, _⟩ => ⟨S4x1x1024, .f32⟩
  | .hbm, ⟨48, _⟩ => ⟨S4x256x1024, .f32⟩
  | .hbm, ⟨49, _⟩ => ⟨S4x256x1024, .f32⟩
  | .hbm, ⟨50, _⟩ => ⟨S4x1x1024, .f32⟩
  | .hbm, ⟨51, _⟩ => ⟨S4x256x1024, .f32⟩
  | .hbm, ⟨52, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]

class Facts₀ : Prop where
  reducesTo_S4x256x1024_S4x256_d2 : S4x256x1024.ReducesTo [2] S4x256
  h_S_ : 0 < S_.numel
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S4x256x1_S4x256x1024_0_1_2 : S4x256x1.BroadcastsInDim S4x256x1024 (![0, 1, 2] : Fin 3 → Fin S4x256x1024.rank)
  bcast_S4x1024_S4x1x1024_0_2 : S4x1024.BroadcastsInDim S4x1x1024 (![0, 2] : Fin 2 → Fin S4x1x1024.rank)
  bcast_S_S4x1x1024 : S_.BroadcastsInDim S4x1x1024 (![] : Fin 0 → Fin S4x1x1024.rank)
  bcast_S4x1x1024_S4x256x1024_0_1_2 : S4x1x1024.BroadcastsInDim S4x256x1024 (![0, 1, 2] : Fin 3 → Fin S4x256x1024.rank)
  dot_S4x128_S128x1024_S4x1024_1_0_0_1_n_n_wf : DotDims.WF S4x128 S128x1024 S4x1024 [1] [0] [0] [1] [] []

variable [Facts₀]

def dot_S4x128_S128x1024_S4x1024_1_0_0_1_n_n : DotDims S4x128 S128x1024 S4x1024 where
  lhsContracting := [1]
  rhsContracting := [0]
  lhsNonContracting := [0]
  rhsNonContracting := [1]
  lhsBatch := []
  rhsBatch := []
  wf := dot_S4x128_S128x1024_S4x1024_1_0_0_1_n_n_wf

class Facts : Prop extends Facts₀ where

variable [Facts]
-- ==== Proof.KProtoA.lean ====
/-
  The cross-device protocol of the kernel, as a schedule of rounds.

  Eight devices on a ring of offsets. Device c first signals the barrier semaphore of each of its seven peers
  (peer c k = the device k+1 places after c), then waits for seven units on its own: every peer has entered the
  kernel. It then copies its 2×4×256 block of partial sums into slot k of the receive buffer of peer c k, for
  k = 0..6, each copy crediting its own send semaphore k and the peer's receive semaphore k; it waits for its seven
  receive semaphores (slot k then holds the partial sums of src c k, the device k+1 places before c), computes, and
  finally waits for its seven send semaphores.

  One round per cell. A barrier cell has seven duties of one unit, duty d paid by src c d, who hands over slot
  (6 − d) of ITS receive buffer (the slot c will copy into) and that its receive cell (6 − d) is at round 0.
  A receive cell has one duty (the copy's credit), whose payload is the slot holding the sender's partial sums;
  a send cell one duty, whose payload is a seventh of the read share of the sender's own block of partial sums.
-/
import proofs.«900349_g7700000000000350_dist_diff_adaln_cshard_i_b4_s256_c128_v7x_i8_bf16_1_alg».proof.Proof.Gen.KernelIdeal.Frame
import proofs.«900349_g7700000000000350_dist_diff_adaln_cshard_i_b4_s256_c128_v7x_i8_bf16_1_alg».proof.Proof.Gen.KernelIdeal.Skeleton
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties Unit) and the protocol's (duties Fin 7) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-! ## The ring of offsets -/

/-- The device k+1 places after c. -/
def peer (c : Dev nD) (k : Fin 7) : Dev nD := ⟨(c.val + 1 + k.val) % 8, Nat.mod_lt _ (by decide)⟩
/-- The device k+1 places before c. -/
def src (c : Dev nD) (k : Fin 7) : Dev nD := ⟨(c.val + 7 - k.val) % 8, Nat.mod_lt _ (by decide)⟩
/-- The complementary offset: k+1 and (6−k)+1 add up to 8. -/
def rev (k : Fin 7) : Fin 7 := ⟨6 - k.val, by omega⟩

theorem peer_src (c : Dev nD) (k : Fin 7) : peer (src c k) k = c := by revert c k; decide
theorem src_peer (c : Dev nD) (k : Fin 7) : src (peer c k) k = c := by revert c k; decide
theorem src_rev (c : Dev nD) (k : Fin 7) : src c (rev k) = peer c k := by revert c k; decide
theorem peer_rev (c : Dev nD) (k : Fin 7) : peer c (rev k) = src c k := by revert c k; decide
theorem peer_peer_rev (c : Dev nD) (k : Fin 7) : peer (peer c k) (rev k) = c := by revert c k; decide
theorem rev_rev (k : Fin 7) : rev (rev k) = k := by revert k; decide
theorem peer_inj (c : Dev nD) : Function.Injective (peer c) := by revert c; decide
theorem src_inj (c : Dev nD) : Function.Injective (src c) := by revert c; decide
theorem peer_eq_iff (c d : Dev nD) (k : Fin 7) : peer d k = c ↔ d = src c k := by revert c d k; decide

/-- The kernel's device_id chains: signal k and copy k both name peer c k. -/
theorem dev1_eq (c : Dev nD) : (⟨k0_dev1 c, k0_dev1_lt c⟩ : Dev nD) = peer c 0 := Fin.ext ((by decide +kernel : ∀ c : Dev nD, k0_dev1 c = (peer c 0).val) c)
theorem dev2_eq (c : Dev nD) : (⟨k0_dev2 c, k0_dev2_lt c⟩ : Dev nD) = peer c 1 := Fin.ext ((by decide +kernel : ∀ c : Dev nD, k0_dev2 c = (peer c 1).val) c)
theorem dev3_eq (c : Dev nD) : (⟨k0_dev3 c, k0_dev3_lt c⟩ : Dev nD) = peer c 2 := Fin.ext ((by decide +kernel : ∀ c : Dev nD, k0_dev3 c = (peer c 2).val) c)
theorem dev4_eq (c : Dev nD) : (⟨k0_dev4 c, k0_dev4_lt c⟩ : Dev nD) = peer c 3 := Fin.ext ((by decide +kernel : ∀ c : Dev nD, k0_dev4 c = (peer c 3).val) c)
theorem dev5_eq (c : Dev nD) : (⟨k0_dev5 c, k0_dev5_lt c⟩ : Dev nD) = peer c 4 := Fin.ext ((by decide +kernel : ∀ c : Dev nD, k0_dev5 c = (peer c 4).val) c)
theorem dev6_eq (c : Dev nD) : (⟨k0_dev6 c, k0_dev6_lt c⟩ : Dev nD) = peer c 5 := Fin.ext ((by decide +kernel : ∀ c : Dev nD, k0_dev6 c = (peer c 5).val) c)
theorem dev7_eq (c : Dev nD) : (⟨k0_dev7 c, k0_dev7_lt c⟩ : Dev nD) = peer c 6 := Fin.ext ((by decide +kernel : ∀ c : Dev nD, k0_dev7 c = (peer c 6).val) c)
theorem dev8_eq (c : Dev nD) : (⟨k0_dev8 c, k0_dev8_lt c⟩ : Dev nD) = peer c 0 := Fin.ext ((by decide +kernel : ∀ c : Dev nD, k0_dev8 c = (peer c 0).val) c)
theorem dev9_eq (c : Dev nD) : (⟨k0_dev9 c, k0_dev9_lt c⟩ : Dev nD) = peer c 1 := Fin.ext ((by decide +kernel : ∀ c : Dev nD, k0_dev9 c = (peer c 1).val) c)
theorem dev10_eq (c : Dev nD) : (⟨k0_dev10 c, k0_dev10_lt c⟩ : Dev nD) = peer c 2 := Fin.ext ((by decide +kernel : ∀ c : Dev nD, k0_dev10 c = (peer c 2).val) c)
theorem dev11_eq (c : Dev nD) : (⟨k0_dev11 c, k0_dev11_lt c⟩ : Dev nD) = peer c 3 := Fin.ext ((by decide +kernel : ∀ c : Dev nD, k0_dev11 c = (peer c 3).val) c)
theorem dev12_eq (c : Dev nD) : (⟨k0_dev12 c, k0_dev12_lt c⟩ : Dev nD) = peer c 4 := Fin.ext ((by decide +kernel : ∀ c : Dev nD, k0_dev12 c = (peer c 4).val) c)
theorem dev13_eq (c : Dev nD) : (⟨k0_dev13 c, k0_dev13_lt c⟩ : Dev nD) = peer c 5 := Fin.ext ((by decide +kernel : ∀ c : Dev nD, k0_dev13 c = (peer c 5).val) c)
theorem dev14_eq (c : Dev nD) : (⟨k0_dev14 c, k0_dev14_lt c⟩ : Dev nD) = peer c 6 := Fin.ext ((by decide +kernel : ∀ c : Dev nD, k0_dev14 c = (peer c 6).val) c)

/-! ## The memrefs and the cells -/

/-- The block of partial sums a device sends (2×4×256) and its receive buffer (7 slots of that shape). -/
abbrev sbM : Memref sig .tc .vmem S2x4x256 .f32 := Memref.whole cc0_scratch0
abbrev rbM : Memref sig .tc .vmem S7x2x4x256 .f32 := Memref.whole cc0_scratch1

theorem inb_sem (j : Fin 7) : ∀ a, (![j.val] : Fin 1 → Nat) a + S1.size a ≤ S7.size a := by revert j; decide
theorem inb_slot (j : Fin 7) : ∀ a, (![j.val, 0, 0, 0] : Fin 4 → Nat) a + S1x2x4x256.size a ≤ S7x2x4x256.size a := by revert j; decide

/-- Slot j of the receive buffer, as the kernel's copies address it. -/
def slot (j : Fin 7) : Memref sig .tc .vmem S2x4x256 .f32 :=
  ((rbM : Memref sig .tc .vmem S7x2x4x256 .f32).slice (Rect.unit (s := S7x2x4x256) ![j.val, 0, 0, 0] S1x2x4x256.size (inb_slot j)) (fun _ => rfl)).squeeze S2x4x256 squeezes_S1x2x4x256_S2x4x256

/-- The send and receive DMA semaphores of offset j. -/
def sendSem (j : Fin 7) : DmaSem sig := ((cc0_scratch2.slice (Rect.unit (s := S7) ![j.val] S1.size (inb_sem j))).squeeze S_ squeezes_S1_S_).sem
def recvSem (j : Fin 7) : DmaSem sig := ((cc0_scratch3.slice (Rect.unit (s := S7) ![j.val] S1.size (inb_sem j))).squeeze S_ squeezes_S1_S_).sem

theorem sendSem_val (j : Fin 7) : (sendSem j).val = 5 + j.val := by revert j; decide
theorem recvSem_val (j : Fin 7) : (recvSem j).val = 12 + j.val := by revert j; decide

/-- The runtime's barrier semaphore of collective id 0 (unscoped). -/
abbrev barS : Sem sig := (SemArray.scalar (sig.barrier 0 rfl) : Sems sig S_).sem

abbrev barCell (c : Dev nD) : GSem nD τ sig := ((c : Thread nD τ), .reg barS)
abbrev sendCell (c : Dev nD) (j : Fin 7) : GSem nD τ sig := ((c : Thread nD τ), .dma (sendSem j))
abbrev recvCell (c : Dev nD) (j : Fin 7) : GSem nD τ sig := ((c : Thread nD τ), .dma (recvSem j))

/-- Which of the protocol's DMA cells a semaphore is: (false, j) the send semaphore j, (true, j) the receive semaphore j. -/
def kindOf : SemLoc sig → Option (Bool × Fin 7)
  | .reg _ => none
  | .dma s => if h : 5 ≤ s.val ∧ s.val < 12 then some (false, ⟨s.val - 5, by omega⟩)
      else if h' : 12 ≤ s.val ∧ s.val < 19 then some (true, ⟨s.val - 12, by omega⟩) else none

theorem kindOf_send (j : Fin 7) : kindOf (.dma (sendSem j)) = some (false, j) := by revert j; decide
theorem kindOf_recv (j : Fin 7) : kindOf (.dma (recvSem j)) = some (true, j) := by revert j; decide
theorem kindOf_bar : kindOf (.reg barS) = none := rfl

theorem send_ne_bar (j : Fin 7) : (SemLoc.dma (sendSem j) : SemLoc sig) ≠ .reg barS := fun h => by cases h
theorem recv_ne_bar (j : Fin 7) : (SemLoc.dma (recvSem j) : SemLoc sig) ≠ .reg barS := fun h => by cases h
theorem sendSem_inj : Function.Injective sendSem := by decide
theorem recvSem_inj : Function.Injective recvSem := by decide
theorem send_ne_recv (j j' : Fin 7) : (SemLoc.dma (sendSem j) : SemLoc sig) ≠ .dma (recvSem j') := by revert j j'; decide

/-- The credit of one copy: the block's size in DMA units (the same for every slot). -/
abbrev N : ℕ := (sbM : Memref sig .tc .vmem S2x4x256 .f32).view.dmaCredit
theorem N_pos : 0 < N := View.dmaCredit_pos _ (by decide)

end Cert.KernelIdeal.Hand

end
-- ==== Proof.KProtoB.lean ====
/-
  The contents the protocol moves, the payloads of its duties, and the schedule with its tables.
-/
import proofs.«900349_g7700000000000350_dist_diff_adaln_cshard_i_b4_s256_c128_v7x_i8_bf16_1_alg».proof.Proof.Gen.KernelIdeal.Frame
import proofs.«900349_g7700000000000350_dist_diff_adaln_cshard_i_b4_s256_c128_v7x_i8_bf16_1_alg».proof.Proof.Gen.KernelIdeal.Skeleton
import proofs.«900349_g7700000000000350_dist_diff_adaln_cshard_i_b4_s256_c128_v7x_i8_bf16_1_alg».proof.Proof.KProtoA
import Idealize.ShloMosaic.Lib.ValueIdx
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Device c's block of x as its first window stages it, and the value the body loads from it. -/
def x0 (c : Dev nD) : (cc0_stg0_0 : Ref sig .tc).ty.Contents (Elt F) := iblk m c 0 t0_0
def v96 (c : Dev nD) : FVec F S4x256x128 .f32 := k0_pay1 (x0 m c)

/-- The block of partial sums device c sends: row 0 its per-row sums over its 128 channels, row 1 its per-row sums of
    squares (the two stores of the body, over contents that are never read). -/
def sendC (c : Dev nD) : (cc0_scratch0 : Ref sig .tc).ty.Contents (Elt F) :=
  (sbM : Memref sig .tc .vmem S2x4x256 .f32).view.writes (Elt F) (sbM : Memref sig .tc .vmem S2x4x256 .f32).view.junk
    [⟨Rect.unit (s := S2x4x256) ![1, 0, 0] S1x4x256.size inb_S2x4x256_S1x4x256_1_0_0, k0_pay5 (v96 m c)⟩,
     ⟨Rect.unit (s := S2x4x256) ![0, 0, 0] S1x4x256.size inb_S2x4x256_S1x4x256_0_0_0, k0_pay4 (v96 m c)⟩]

/-- What device c's receive buffer holds once its seven copies have landed: slot j the block of src c j. -/
def recvAll (c : Dev nD) : (cc0_scratch1 : Ref sig .tc).ty.Contents (Elt F) :=
  fun i => sendC m (src c ⟨(i 0).val, (i 0).isLt⟩) (Idealize.ShloMosaic.ValueIdx.ix3 (n0 := 2) (n1 := 4) (n2 := 256) (i 1) (i 2) (i 3))

/-! ## The payloads -/

def slotPts (c : Dev nD) (j : Fin 7) (f : Buf (Elt F) ((slot j).view.loc (c : Thread nD τ))) : sProp 𝕄 :=
  (slot j).view.loc (c : Thread nD τ) ↦[(slot j).view.set]{fullShare} f
def sbPts (c : Dev nD) (q : PosShare TreeShare) (f : Buf (Elt F) ((sbM : Memref sig .tc .vmem S2x4x256 .f32).view.loc (c : Thread nD τ))) : sProp 𝕄 :=
  (sbM : Memref sig .tc .vmem S2x4x256 .f32).view.loc (c : Thread nD τ) ↦[(sbM : Memref sig .tc .vmem S2x4x256 .f32).view.set]{q} f

omit [FloatOps F] in
instance slotPts_storable (c : Dev nD) (j : Fin 7) (f) : BI.Storable (upEmb : UEmb _ 𝕄) (slotPts (F := F) c j f) := by unfold slotPts; infer_instance
omit [FloatOps F] in
instance sbPts_storable (c : Dev nD) (q) (f) : BI.Storable (upEmb : UEmb _ 𝕄) (sbPts (F := F) c q f) := by unfold sbPts; infer_instance

/-- What c needs for its copy k: slot k of peer c k's receive buffer, and that peer c k's receive cell k is at round 0. -/
def barGot (c : Dev nD) (k : Fin 7) : sProp 𝕄 :=
  iprop((∃ f, slotPts (peer c k) k f) ∗ reached ER (recvCell (peer c k) k) 0)
/-- Duty d of c's barrier cell is paid by the device 7 − d places after c (d + 1 places before it), peer c (6 − d), who
    hands c what its copy 6 − d needs. -/
def barPay (c : Dev nD) (d : Fin 7) : sProp 𝕄 := barGot c (rev d)
def recvPay (c : Dev nD) (j : Fin 7) : sProp 𝕄 := slotPts c j (recvAll m c)
def sendPay (c : Dev nD) (j : Fin 7) : sProp 𝕄 := sbPts c (Transfers.shareTok fullShare 7 j) (sendC m c)

/-! ## The schedule -/

abbrev IsBar (g : GSem nD τ sig) : Prop := g.1.2 = .tc ∧ g.2 = .reg barS

/-- One round, round 0: a barrier cell has the seven duties of one unit each; a send or receive cell the duty 0 of the
    block's credit. -/
def Rd : Rounds.Schedule (GSem nD τ sig) (Fin 7) 𝕄 where
  duties g r := if r = 0 ∧ g.1.2 = .tc then (if g.2 = .reg barS then Finset.univ else if (kindOf g.2).isSome then {0} else ∅) else ∅
  unitless _ := False
  amount g _ _ := if g.2 = .reg barS then 1 else N
  payload g _ d :=
    if g.2 = .reg barS then barPay g.1.1 d
    else match kindOf g.2 with
      | some (false, j) => sendPay m g.1.1 j
      | some (true, j) => recvPay m g.1.1 j
      | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 7) :
    BI.Storable (upEmb : UEmb _ 𝕄) ((Rd (F := F) m).payload g r d) := by
  show BI.Storable upEmb (if g.2 = .reg barS then barPay g.1.1 d
    else match kindOf g.2 with
      | some (false, j) => sendPay m g.1.1 j
      | some (true, j) => recvPay m g.1.1 j
      | none => iprop(emp))
  unfold barPay barGot recvPay sendPay
  (repeat' split) <;> first | infer_instance | exact slotPts_storable _ _ _

section Sched
variable (c : Dev nD) (j : Fin 7)

theorem duties_bar : (Rd (F := F) m).duties (barCell c) 0 = Finset.univ := by dsimp only [Rd]; rw [if_pos ⟨rfl, rfl⟩, if_pos rfl]
theorem duties_send : (Rd (F := F) m).duties (sendCell c j) 0 = {0} := by
  dsimp only [Rd]; rw [if_pos ⟨rfl, rfl⟩, if_neg (send_ne_bar j), kindOf_send]; rfl
theorem duties_recv : (Rd (F := F) m).duties (recvCell c j) 0 = {0} := by
  dsimp only [Rd]; rw [if_pos ⟨rfl, rfl⟩, if_neg (recv_ne_bar j), kindOf_recv]; rfl
theorem duties_later (g : GSem nD τ sig) : ∀ r, 1 ≤ r → (Rd (F := F) m).duties g r = ∅ :=
  fun r hr => by dsimp only [Rd]; rw [if_neg fun h => by omega]

theorem amount_bar (d : Fin 7) : (Rd (F := F) m).amount (barCell c) 0 d = 1 := by dsimp only [Rd]; exact if_pos rfl
theorem amount_send (d : Fin 7) : (Rd (F := F) m).amount (sendCell c j) 0 d = N := by dsimp only [Rd]; exact if_neg (send_ne_bar j)
theorem amount_recv (d : Fin 7) : (Rd (F := F) m).amount (recvCell c j) 0 d = N := by dsimp only [Rd]; exact if_neg (recv_ne_bar j)

theorem expect_bar : (Rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c j) 0 = N := by
  unfold Schedule.expect Schedule.amountOf; rw [duties_send, Finset.sum_singleton, amount_send]
theorem expect_recv : (Rd (F := F) m).expect (recvCell c j) 0 = N := by
  unfold Schedule.expect Schedule.amountOf; rw [duties_recv, Finset.sum_singleton, amount_recv]

theorem payload_bar (d : Fin 7) : (Rd (F := F) m).payload (barCell c) 0 d = barPay c d := by dsimp only [Rd]; rw [if_pos rfl]
theorem payload_send (d : Fin 7) : (Rd (F := F) m).payload (sendCell c j) 0 d = sendPay m c j := by
  dsimp only [Rd]; rw [if_neg (send_ne_bar j), kindOf_send]
theorem payload_recv (d : Fin 7) : (Rd (F := F) m).payload (recvCell c j) 0 d = recvPay m c j := by
  dsimp only [Rd]; rw [if_neg (recv_ne_bar j), kindOf_recv]

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The rest of the barrier cell's round, no duty taken: the seven peers' payloads. -/
theorem rest_bar : bigSep ((Rd (F := F) m).duties (barCell c) 0 \ ∅) (fun d => (Rd (F := F) m).payload (barCell c) 0 d)
    = iprop(barPay c 0 ∗ barPay c 1 ∗ barPay c 2 ∗ barPay c 3 ∗ barPay c 4 ∗ barPay c 5 ∗ barPay c 6) := by
  rw [Finset.sdiff_empty, duties_bar, bigSep_fin7]
  simp only [payload_bar]
theorem rest_send : bigSep ((Rd (F := F) m).duties (sendCell c j) 0 \ ∅) (fun d => (Rd (F := F) m).payload (sendCell c j) 0 d) = sendPay m c j := by
  rw [Finset.sdiff_empty, duties_send, bigSep_singleton, payload_send]
theorem rest_recv : bigSep ((Rd (F := F) m).duties (recvCell c j) 0 \ ∅) (fun d => (Rd (F := F) m).payload (recvCell c j) 0 d) = recvPay m c j := by
  rw [Finset.sdiff_empty, duties_recv, bigSep_singleton, payload_recv]

end Sched

end Cert.KernelIdeal.Hand

end
-- ==== Proof.KProtoC.lean ====
/-
  What each device owes at launch and the levels that order its waits; the ghost state a device's body starts from;
  the pipeline's proof data.
-/
import proofs.«900349_g7700000000000350_dist_diff_adaln_cshard_i_b4_s256_c128_v7x_i8_bf16_1_alg».proof.Proof.Gen.KernelIdeal.Frame
import proofs.«900349_g7700000000000350_dist_diff_adaln_cshard_i_b4_s256_c128_v7x_i8_bf16_1_alg».proof.Proof.Gen.KernelIdeal.Skeleton
import proofs.«900349_g7700000000000350_dist_diff_adaln_cshard_i_b4_s256_c128_v7x_i8_bf16_1_alg».proof.Proof.KProtoB
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes -/

/-- The credit of copy k (to peer c k's receive cell k) and the unit of signal k (to peer c k's barrier cell). -/
def rT (c : Dev nD) (k : Fin 7) : CellTallies nD τ sig Unit := tallyAt (recvCell (peer c k) k) () N
def bT (c : Dev nD) (k : Fin 7) : CellTallies nD τ sig Unit := tallyAt (barCell (peer c k)) () 1

/-- With the last n copies still to issue (copies 7−n … 6), -/
def OR (c : Dev nD) : ℕ → CellTallies nD τ sig Unit
  | 0 => 0
  | n + 1 => OR c n + rT c ⟨6 - n, by omega⟩
/-- and with all seven copies and the last n signals still to issue. -/
def OB (c : Dev nD) : ℕ → CellTallies nD τ sig Unit
  | 0 => OR c 7
  | n + 1 => OB c n + bT c ⟨6 - n, by omega⟩

/-- At launch: seven signals, then seven copies. -/
def O₀ (c : Dev nD) : CellTallies nD τ sig Unit := OB c 7

theorem OR_pos {c : Dev nD} {n : ℕ} {g : GSem nD τ sig} {u : Unit} (h : 0 < OR c n g u) : ∃ k : Fin 7, g = recvCell (peer c k) k := by
  induction n with
  | zero => exact absurd h (Nat.lt_irrefl 0)
  | succ n ih =>
    unfold OR at h
    rw [Pi.add_apply, Finsupp.add_apply] at h
    rcases Nat.add_pos_iff_pos_or_pos.mp h with h | h
    · exact ih h
    · unfold rT at h; rw [tallyAt_apply] at h
      by_cases hg : g = recvCell (peer c ⟨6 - n, by omega⟩) ⟨6 - n, by omega⟩ ∧ u = ()
      · exact ⟨_, hg.1⟩
      · rw [if_neg hg] at h; exact absurd h (Nat.lt_irrefl 0)

theorem OB_pos {c : Dev nD} {n : ℕ} {g : GSem nD τ sig} {u : Unit} (h : 0 < OB c n g u) :
    (∃ k : Fin 7, g = recvCell (peer c k) k) ∨ (∃ k : Fin 7, g = barCell (peer c k)) := by
  induction n with
  | zero => exact Or.inl (OR_pos h)
  | succ n ih =>
    unfold OB at h
    rw [Pi.add_apply, Finsupp.add_apply] at h
    rcases Nat.add_pos_iff_pos_or_pos.mp h with h | h
    · exact ih h
    · unfold bT at h; rw [tallyAt_apply] at h
      by_cases hg : g = barCell (peer c ⟨6 - n, by omega⟩) ∧ u = ()
      · exact Or.inr ⟨_, hg.1⟩
      · rw [if_neg hg] at h; exact absurd h (Nat.lt_irrefl 0)

/-! ## The levels -/

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else match kindOf g.2 with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_recv (c : Dev nD) (j : Fin 7) (u : Unit) : lv (recvCell c j) u = 2 := by dsimp only [lv]; rw [if_neg (recv_ne_bar j), kindOf_recv]
theorem lv_send (c : Dev nD) (j : Fin 7) (u : Unit) : lv (sendCell c j) u = 0 := by dsimp only [lv]; rw [if_neg (send_ne_bar j), kindOf_send]

omit [FloatOps F] in
/-- A wait on a cell of level 0 (a staging cell, a send cell) while owing what is owed at launch, or nothing. -/
theorem mayWait_low (c : Dev nD) (sm : SemLoc sig) (hsm : lv ((c : Thread nD τ), sm) () = 0) (O : CellTallies nD τ sig Unit) (hO : (∃ n, O = OB c n) ∨ O = 0) :
    (levAts L lv : sProp 𝕄) ⊢ MayWait (c : Thread nD τ) sm () O := by
  rcases hO with ⟨n, rfl⟩ | rfl
  · refine MayOwe.of_cut (L := L) (lev := lv) 0 (fun p hp => by rw [Finset.mem_singleton.mp hp, L_tc]; exact Finset.mem_singleton_self _)
      (fun g u hg => by rcases OB_pos hg with ⟨k, rfl⟩ | ⟨k, rfl⟩ <;> exact Finset.mem_singleton_self _)
      (fun p hp => by rw [Finset.mem_singleton.mp hp]; exact le_of_eq hsm)
      (fun g u hg => by
        rcases OB_pos hg with ⟨k, rfl⟩ | ⟨k, rfl⟩
        · rw [lv_recv]; decide
        · rw [lv_bar]; decide)
  · rw [MayWait_zero]; iintro -; iempintro

omit [FloatOps F] in
/-- At its barrier wait a device owes its seven copies' credits only: receive cells, above its barrier cell. -/
theorem mayWait_bar (c : Dev nD) :
    (levAts L lv : sProp 𝕄) ⊢ MayWait (c : Thread nD τ) (.reg barS) () (OR c 7) :=
  MayOwe.of_cut (L := L) (lev := lv) 1 (fun p hp => by rw [Finset.mem_singleton.mp hp, L_tc]; exact Finset.mem_singleton_self _)
    (fun g u hg => by obtain ⟨k, rfl⟩ := OR_pos hg; exact Finset.mem_singleton_self _)
    (fun p hp => by rw [Finset.mem_singleton.mp hp]; exact le_of_eq (lv_bar c ()))
    (fun g u hg => by obtain ⟨k, rfl⟩ := OR_pos hg; rw [lv_recv]; decide)

end Cert.KernelIdeal.Hand

end
-- ==== Proof.KProtoD.lean ====
/-
  The protocol's cells listed per device, the persistent records every device holds of them, the ghost state a device's
  body starts from, and the pipeline's proof data: what each window's staging buffer holds after the body.
-/
import proofs.«900349_g7700000000000350_dist_diff_adaln_cshard_i_b4_s256_c128_v7x_i8_bf16_1_alg».proof.Proof.Gen.KernelIdeal.Frame
import proofs.«900349_g7700000000000350_dist_diff_adaln_cshard_i_b4_s256_c128_v7x_i8_bf16_1_alg».proof.Proof.Gen.KernelIdeal.Skeleton
import proofs.«900349_g7700000000000350_dist_diff_adaln_cshard_i_b4_s256_c128_v7x_i8_bf16_1_alg».proof.Proof.KProtoC
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The fifteen cells of a device -/

/-- Cell 0 the barrier, cells 1–7 the send semaphores, cells 8–14 the receive semaphores. -/
def csem (i : Fin 15) : SemLoc sig :=
  if h0 : i.val = 0 then .reg barS
  else if h : i.val ≤ 7 then .dma (sendSem ⟨i.val - 1, by omega⟩) else .dma (recvSem ⟨i.val - 8, by omega⟩)
abbrev kcell (ck : Dev nD × Fin 15) : GSem nD τ sig := ((ck.1 : Thread nD τ), csem ck.2)
def sIdx (j : Fin 7) : Fin 15 := ⟨j.val + 1, by omega⟩
def rIdx (j : Fin 7) : Fin 15 := ⟨j.val + 8, by omega⟩

theorem csem_b : csem 0 = .reg barS := rfl
theorem csem_s (j : Fin 7) : csem (sIdx j) = .dma (sendSem j) := by revert j; decide
theorem csem_r (j : Fin 7) : csem (rIdx j) = .dma (recvSem j) := by revert j; decide
theorem csem_injective : Function.Injective csem := by decide

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The kernel's OWN (scoped) semaphores, as the launch theorem indexes them: the seven send, then the seven receive. -/
def osem (i : Fin 14) : SemLoc sig :=
  if h : i.val < 7 then .dma (sendSem ⟨i.val, h⟩) else .dma (recvSem ⟨i.val - 7, by omega⟩)

/-! ## The records: every cell's invariant, and that every cell is at round 0 -/

def records : sProp 𝕄 :=
  iprop((bigSep Finset.univ fun ck : Dev nD × Fin 15 => iprop(∃ κ : ℕ, cellInv ER (Rd m) κ (kcell ck)))
    ∗ bigSep Finset.univ fun ck : Dev nD × Fin 15 => reached ER (kcell ck) 0)

instance records_persistent : BI.Persistent (records m) := by unfold records; infer_instance

theorem inv_at (ck : Dev nD × Fin 15) :
    (bigSep Finset.univ fun ck : Dev nD × Fin 15 => (iprop(∃ κ : ℕ, cellInv ER (Rd m) κ (kcell ck)) : sProp 𝕄)) ⊢ iprop(∃ κ : ℕ, cellInv ER (Rd m) κ (kcell ck)) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

theorem inv_cell (ck : Dev nD × Fin 15) : records m ⊢ iprop(∃ κ : ℕ, cellInv ER (Rd m) κ (kcell ck)) := by
  unfold records; iintro ⟨H, -⟩; iapply (inv_at m ck); iexact H
theorem reached_cell (ck : Dev nD × Fin 15) : records m ⊢ reached ER (kcell ck) 0 := by
  unfold records; iintro ⟨-, H⟩; iapply (reached_at (F := F) ck); iexact H

theorem inv_bar (c : Dev nD) : records m ⊢ iprop(∃ κ : ℕ, cellInv ER (Rd m) κ (barCell c)) := inv_cell m (c, 0)
theorem inv_send (c : Dev nD) (j : Fin 7) : records m ⊢ iprop(∃ κ : ℕ, cellInv ER (Rd m) κ (sendCell c j)) := by
  have := inv_cell m (c, sIdx j); unfold kcell at this; rw [csem_s] at this; exact this
theorem inv_recv (c : Dev nD) (j : Fin 7) : records m ⊢ iprop(∃ κ : ℕ, cellInv ER (Rd m) κ (recvCell c j)) := by
  have := inv_cell m (c, rIdx j); unfold kcell at this; rw [csem_r] at this; exact this
theorem reached_bar (c : Dev nD) : records m ⊢ reached ER (barCell c) 0 := reached_cell m (c, 0)
theorem reached_send (c : Dev nD) (j : Fin 7) : records m ⊢ reached ER (sendCell c j) 0 := by
  have := reached_cell m (c, sIdx j); unfold kcell at this; rw [csem_s] at this; exact this
theorem reached_recv (c : Dev nD) (j : Fin 7) : records m ⊢ reached ER (recvCell c j) 0 := by
  have := reached_cell m (c, rIdx j); unfold kcell at this; rw [csem_r] at this; exact this

omit [FloatOps F] in
theorem bigSep_of_persistent_all {I : Type} [DecidableEq I] [Fintype I] {R : sProp 𝕄} [BI.Persistent R] {Φ : I → sProp 𝕄}
    (h : ∀ i, R ⊢ Φ i) : R ⊢ bigSep Finset.univ Φ :=
  (BI.bigSep_of_persistent Finset.univ R).trans (bigSep_mono fun i _ => h i)

/-- The persistent facts device c's body uses: the invariants of its own fifteen cells and of the cells it pays into,
    and that the cells it pays into, and its own DMA cells, are at round 0. -/
def needs (c : Dev nD) : sProp 𝕄 :=
  iprop((∃ κ : ℕ, cellInv ER (Rd m) κ (barCell c))
    ∗ (bigSep Finset.univ fun j : Fin 7 => iprop(∃ κ : ℕ, cellInv ER (Rd m) κ (sendCell c j)))
    ∗ (bigSep Finset.univ fun j : Fin 7 => iprop(∃ κ : ℕ, cellInv ER (Rd m) κ (recvCell c j)))
    ∗ (bigSep Finset.univ fun k : Fin 7 => iprop(∃ κ : ℕ, cellInv ER (Rd m) κ (barCell (peer c k))))
    ∗ (bigSep Finset.univ fun k : Fin 7 => iprop(∃ κ : ℕ, cellInv ER (Rd m) κ (recvCell (peer c k) k)))
    ∗ (bigSep Finset.univ fun k : Fin 7 => reached ER (barCell (peer c k)) 0)
    ∗ (bigSep Finset.univ fun k : Fin 7 => reached ER (recvCell (peer c k) k) 0)
    ∗ (bigSep Finset.univ fun j : Fin 7 => reached ER (sendCell c j) 0)
    ∗ (bigSep Finset.univ fun j : Fin 7 => reached ER (recvCell c j) 0))

instance needs_persistent (c : Dev nD) : BI.Persistent (needs m c) := by unfold needs; infer_instance

theorem needs_of_records (c : Dev nD) : records m ⊢ needs m c := by
  unfold needs
  iintro #H
  isplitr; · iapply (inv_bar m c); iexact H
  isplitr; · iapply (bigSep_of_persistent_all (R := records m) fun j => inv_send m c j); iexact H
  isplitr; · iapply (bigSep_of_persistent_all (R := records m) fun j => inv_recv m c j); iexact H
  isplitr; · iapply (bigSep_of_persistent_all (R := records m) fun k => inv_bar m (peer c k)); iexact H
  isplitr; · iapply (bigSep_of_persistent_all (R := records m) fun k => inv_recv m (peer c k) k); iexact H
  isplitr; · iapply (bigSep_of_persistent_all (R := records m) fun k => reached_bar m (peer c k)); iexact H
  isplitr; · iapply (bigSep_of_persistent_all (R := records m) fun k => reached_recv m (peer c k) k); iexact H
  isplitr; · iapply (bigSep_of_persistent_all (R := records m) fun j => reached_send m c j); iexact H
  iapply (bigSep_of_persistent_all (R := records m) fun j => reached_recv m c j); iexact H

/-! ## What a device's body starts from -/

/-- The tokens of the duties device c pays: signal k and copy k at peer c k, and its own seven send duties. -/
def payToks (c : Dev nD) : sProp 𝕄 :=
  iprop((bigSep Finset.univ fun k : Fin 7 => dutyTok ER (barCell (peer c k)) 0 k)
    ∗ (bigSep Finset.univ fun k : Fin 7 => dutyTok ER (recvCell (peer c k) k) 0 0)
    ∗ (bigSep Finset.univ fun j : Fin 7 => dutyTok ER (sendCell c j) 0 0))
/-- Its positions at round 0 of its own fifteen cells. -/
def positions (c : Dev nD) : sProp 𝕄 :=
  iprop(atPos ER (barCell c) 0 ∅ 0
    ∗ (bigSep Finset.univ fun j : Fin 7 => atPos ER (sendCell c j) 0 ∅ 0)
    ∗ (bigSep Finset.univ fun j : Fin 7 => atPos ER (recvCell c j) 0 ∅ 0))
def ghost (c : Dev nD) : sProp 𝕄 := iprop(needs m c ∗ positions c ∗ payToks c)

/-- With the credit its peers owe it — seven barrier units, one block's credit on each receive cell — and the levels. -/
def start (c : Dev nD) : sProp 𝕄 :=
  iprop(ghost m c ∗ cred (tallyAt (barCell c) () 7) ∗ (bigSep Finset.univ fun j : Fin 7 => cred (tallyAt (recvCell c j) () N)) ∗ levAts L lv)

/-- The two scratch buffers at some contents. -/
def sbAny (c : Dev nD) : sProp 𝕄 := iprop(∃ f, sbPts c fullShare f)
def rbAny (c : Dev nD) : sProp 𝕄 :=
  iprop(∃ f, (rbM : Memref sig .tc .vmem S7x2x4x256 .f32).view.loc (c : Thread nD τ) ↦[(rbM : Memref sig .tc .vmem S7x2x4x256 .f32).view.set]{fullShare} f)

def Φ₀ (c : Dev nD) : sProp 𝕄 := iprop(start m c ∗ sbAny c ∗ rbAny c)
/-- After the point: the scratch buffers back whole, the fourteen own cells at zero, closed. -/
def Φ₁ (c : Dev nD) : sProp 𝕄 :=
  iprop(sbAny c ∗ rbAny c ∗ (bigSep Finset.univ fun j : Fin 7 => semVal (sendCell c j) 0) ∗ (bigSep Finset.univ fun j : Fin 7 => semVal (recvCell c j) 0))

/-! ## The result, and the proof data -/

/-- The staged blocks of t_emb, W_scale, W_shift on device c. -/
def t0v (c : Dev nD) : (cc0_stg1_0 : Ref sig .tc).ty.Contents (Elt F) := iblk m c 1 t0_0
def ws0 (c : Dev nD) : (cc0_stg2_0 : Ref sig .tc).ty.Contents (Elt F) := iblk m c 2 t0_0
def wsh0 (c : Dev nD) : (cc0_stg3_0 : Ref sig .tc).ty.Contents (Elt F) := iblk m c 3 t0_0

/-- The two loads of the receive buffer once every slot has landed: the seven peers' row sums, and their sums of squares. -/
def R0 (c : Dev nD) : Vec F S7x1x4x256 .f32 :=
  (rbM : Memref sig .tc .vmem S7x2x4x256 .f32).view.readAt (Elt F) (Rect.unit (s := S7x2x4x256) ![0, 0, 0, 0] S7x1x4x256.size inb_S7x2x4x256_S7x1x4x256_0_0_0_0).toLoadRect (recvAll m c)
def R1 (c : Dev nD) : Vec F S7x1x4x256 .f32 :=
  (rbM : Memref sig .tc .vmem S7x2x4x256 .f32).view.readAt (Elt F) (Rect.unit (s := S7x2x4x256) ![0, 1, 0, 0] S7x1x4x256.size inb_S7x2x4x256_S7x1x4x256_0_1_0_0).toLoadRect (recvAll m c)

/-- The kernel's result block on device c: the body's arithmetic of its own blocks and the seven peers' partial sums. -/
def outAt (c : Dev nD) : (cc0_stg4_0 : Ref sig .tc).ty.Contents (Elt F) :=
  k0_pay11 (v96 m c) (k0_pay6 (t0v m c) (ws0 m c)) (k0_pay7 (t0v m c) (wsh0 m c))
    (k0_pay8 (k0_pay2 (v96 m c)) (R0 m c)) (k0_pay9 (k0_pay2 (v96 m c)) (k0_pay3 (v96 m c)) (R0 m c) (R1 m c)) k0_pay10

def dats (_ : Fin 1) (c : Dev nD) : Dat τ (Elt F) Unit ℕ UU ℕ cfg0 c where
  A w := m ((cfg0.win w).arr.view.loc (c : Thread nD τ))
  after w _ := match w with
    | ⟨0, _⟩ => x0 m c
    | ⟨1, _⟩ => t0v m c
    | ⟨2, _⟩ => ws0 m c
    | ⟨3, _⟩ => wsh0 m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.KernelIdeal.Hand

end
-- ==== Proof.KSteps.lean ====
/-
  The protocol's steps on one device, each as the rounds rule at this kernel's cells: signal k to peer c k, the wait
  for the seven peers' signals, copy k into slot k of peer c k, and the waits on a receive and on a send cell.
-/
import proofs.«900349_g7700000000000350_dist_diff_adaln_cshard_i_b4_s256_c128_v7x_i8_bf16_1_alg».proof.Proof.Gen.KernelIdeal.Frame
import proofs.«900349_g7700000000000350_dist_diff_adaln_cshard_i_b4_s256_c128_v7x_i8_bf16_1_alg».proof.Proof.Gen.KernelIdeal.Skeleton
import proofs.«900349_g7700000000000350_dist_diff_adaln_cshard_i_b4_s256_c128_v7x_i8_bf16_1_alg».proof.Proof.KProtoD
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is owed, one step at a time -/

theorem OB_step (c : Dev nD) (k : Fin 7) : OB c (6 - k.val + 1) = OB c (6 - k.val) + tallyAt (barCell (peer c k)) () 1 := by
  fin_cases k <;> rfl
theorem OR_step (c : Dev nD) (k : Fin 7) : OR c (6 - k.val + 1) = OR c (6 - k.val) + tallyAt (recvCell (peer c k) k) () N := by
  fin_cases k <;> rfl
theorem OB_zero (c : Dev nD) : OB c 0 = OR c 7 := rfl

/-! ## The signal to peer c k -/

/-- Signal k: duty k of peer c k's barrier cell, handing over slot (6 − k) of c's receive buffer — the slot peer c k
    copies into — and that c's receive cell (6 − k) is at round 0. -/
theorem wp_signal_peer (c : Dev nD) (k : Fin 7) (r : Fin 7) (hr : r = rev k) (n₁ n₀ : ℕ) (h₁ : n₁ = 6 - k.val + 1) (h₀ : n₀ = 6 - k.val)
    (dst : Dev nD) (hdst : dst = peer c k) {κ : ℕ}
    (f : Buf (Elt F) ((slot r).view.loc (c : Thread nD τ))) (W : Waits sig Unit)
    {α : Type} {Q : α → sProp 𝕄} {kk : PUnit → Prog (TpuEff nD τ sig (Elt F) Λ₀ .tc) α} :
    iprop(cellInv ER (Rd m) κ (barCell (peer c k)) ∗ owes (c : Thread nD τ) (OB c n₁) W
        ∗ dutyTok ER (barCell (peer c k)) 0 k ∗ slotPts c r f ∗ reached ER (recvCell c r) 0
        ∗ reached ER (barCell (peer c k)) 0)
      ⊢ iprop((owes (c : Thread nD τ) (OB c n₀) W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (dst : Thread nD τ) barS 1) kk) Q) := by
  subst hdst hr h₁ h₀
  iintro ⟨#HI, HO, Htok, Hslot, #Hr, #Hrb⟩
  iapply (Rounds.wp_signal 𝒱₀ ER (Rd m) (c : Thread nD τ) none (dst := (peer c k : Thread nD τ)) (κ := κ)
      (d := k) (by rw [duties_bar]; exact Finset.mem_univ _) (amount_bar m (peer c k) k) () (OB c (6 - k.val)) (OB_step c k))
    $$ [HO Htok Hslot]
  isplitr; · iexact HI
  isplitl [HO]; · iexact HO
  isplitl [Htok]; · iexact Htok
  isplitl [Hslot]
  · rw [payload_bar]; unfold barPay barGot; rw [peer_peer_rev]
    isplitl [Hslot]; · iexists f; iexact Hslot
    iexact Hr
  · iexact Hrb

/-! ## The wait for the seven peers -/

/-- The wait for 7 on its own barrier cell, owing its seven copies' credits: each peer's slot comes with it. -/
theorem wp_wait_bar (c : Dev nD) {κ : ℕ} (W : Waits sig Unit)
    {α : Type} {Q : α → sProp 𝕄} {kk : PUnit → Prog (TpuEff nD τ sig (Elt F) Λ₀ .tc) α} :
    iprop(cellInv ER (Rd m) κ (barCell c) ∗ cred (tallyAt (barCell c) () 7) ∗ owes (c : Thread nD τ) (OR c 7) W ∗ levAts L lv
        ∗ atPos ER (barCell c) 0 ∅ 0)
      ⊢ iprop(((owes (c : Thread nD τ) (OR c 7) (insert (SemLoc.reg barS, ()) W)
              ∗ barGot c 6 ∗ barGot c 5 ∗ barGot c 4 ∗ barGot c 3 ∗ barGot c 2 ∗ barGot c 1 ∗ barGot c 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 7) kk) Q) := by
  iintro ⟨#HI, Hc, HO, #Hlev, Hat⟩ Hk
  iapply (Rounds.wp_wait_rest_token 𝒱₀ ER (Rd m) (c : Thread nD τ) none (κ := κ)
      (wpE_semWait_eq 𝒱₀ (c : Thread nD τ) none Set.univ) (Set.mem_univ _) () (O := OR c 7) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, -, -, Hpay⟩
  ihave Hp := (Entails.of_eq (rest_bar m c)) $$ Hpay
  iapply Hk
  isplitl [HO]; · iexact HO
  iexact Hp

/-! ## Copy k, into slot k of peer c k -/

omit [FloatOps F] in
theorem slot_amount (j : Fin 7) : (slot j).view.amount (.dma (recvSem j)) = N := by revert j; decide
omit [FloatOps F] in
theorem slot_credit (j : Fin 7) : (slot j).view.dmaCredit = N := by revert j; decide

/-- Copy k: the send duty of c's send cell k (a seventh of the read share of c's block comes back with it) and the one
    duty of peer c k's receive cell k (slot k there then holds c's block: `hland`, the landing read element by element). -/
theorem wp_send_peer (c : Dev nD) (k : Fin 7) (n₁ n₀ : ℕ) (h₁ : n₁ = 6 - k.val + 1) (h₀ : n₀ = 6 - k.val) (n : Dev nD) (hn : n = peer c k) {κ₁ κ₂ : ℕ}
    (hland : ∀ (fd : Buf (Elt F) ((slot k).view.loc (peer c k : Thread nD τ))) (i : Idx ((slot k).view.loc (peer c k : Thread nD τ))), i ∈ (slot k).view.set →
      (slot k).view.write (Elt F) fd ((sbM : Memref sig .tc .vmem S2x4x256 .f32).view.read (Elt F) (sendC m c)) Finset.univ i = recvAll m (peer c k) i)
    {hsc : ((slot k : Memref sig (Dev.tc n : Thread nD τ).2.kind .vmem S2x4x256 .f32)).view.ref.isScScratch = false}
    {hsrc : (sbM : Memref sig .tc .vmem S2x4x256 .f32).view.WordExact} {hdst : (slot k).view.WordExact}
    {hsem : DmaTarget.Typed .vmem (.dma (recvSem k)) (.remote (Dev.tc n : Thread nD τ) (slot k) (.dma (sendSem k)) hsc)}
    {α : Type} {Q : α → sProp 𝕄} {kk : PUnit → Prog (TpuEff nD τ sig (Elt F) Λ₀ .tc) α}
    (fn : Buf (Elt F) ((slot k).view.loc (peer c k : Thread nD τ))) (W : Waits sig Unit) :
    iprop(cellInv ER (Rd m) κ₁ (sendCell c k) ∗ cellInv ER (Rd m) κ₂ (recvCell (peer c k) k)
        ∗ sbPts c (Transfers.shareTok fullShare 7 k) (sendC m c) ∗ slotPts (peer c k) k fn
        ∗ owes (c : Thread nD τ) (OR c n₁) W
        ∗ dutyTok ER (sendCell c k) 0 0 ∗ reached ER (sendCell c k) 0
        ∗ dutyTok ER (recvCell (peer c k) k) 0 0 ∗ reached ER (recvCell (peer c k) k) 0)
      ⊢ iprop(((cred (tallyAt (sendCell c k) () N) ∗ owes (c : Thread nD τ) (OR c n₀) W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sbM (.remote (Dev.tc n : Thread nD τ) (slot k) (.dma (sendSem k)) hsc) (.dma (recvSem k)) hsrc hdst hsem) kk) Q) := by
  subst hn h₁ h₀
  unfold sbPts slotPts
  exact Rounds.wp_send_pointsTo 𝒱₀ ER (Rd m) (c : Thread nD τ) none (κ₁ := κ₁) (κ₂ := κ₂)
    (r₁ := 0) (r₂ := 0) (d₁ := 0) (d₂ := 0) (fd := fn)
    (by rw [duties_send]; exact Finset.mem_singleton_self _) (by rw [duties_recv]; exact Finset.mem_singleton_self _)
    () () N (slot_amount k) (amount_send m c k 0) (amount_recv m (peer c k) k 0) (OR c (6 - k.val)) (OR_step c k) (W := W)
    (by rw [payload_send]; unfold sendPay sbPts; exact BI.Entails.refl _)
    (by rw [payload_recv]; unfold recvPay slotPts
        exact Entails.of_eq (BI.Region.is_congr (fun i hi => hland fn i hi)))

/-! ## The waits on a receive cell and on a send cell -/

/-- The wait on receive cell j, owing nothing: slot j holding the block of src c j comes with it. -/
theorem wp_wait_recv (c : Dev nD) (j : Fin 7) {κ : ℕ} (W : Waits sig Unit)
    {hsrc : (sbM : Memref sig .tc .vmem S2x4x256 .f32).view.WordExact} {hdst : (slot j).view.WordExact}
    {α : Type} {Q : α → sProp 𝕄} {kk : PUnit → Prog (TpuEff nD τ sig (Elt F) Λ₀ .tc) α} :
    iprop(cellInv ER (Rd m) κ (recvCell c j) ∗ cred (tallyAt (recvCell c j) () N) ∗ owes (c : Thread nD τ) 0 W ∗ atPos ER (recvCell c j) 0 ∅ 0)
      ⊢ iprop(((owes (c : Thread nD τ) 0 (insert (SemLoc.dma (recvSem j), ()) W) ∗ atPos ER (recvCell c j) 1 ∅ 0 ∗ recvPay m c j)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvSem j) sbM (slot j) hsrc hdst) kk) Q) := by
  iintro ⟨#HI, Hc, HO, Hat⟩ Hk
  rw [← slot_credit j]
  iapply (Rounds.wp_wait_rest_token 𝒱₀ ER (Rd m) (c : Thread nD τ) none (κ := κ)
      (wpE_waitDma2_eq 𝒱₀ (c : Thread nD τ) none Set.univ) (Set.mem_univ _) () (O := 0) (W := W) (R := 0) (m := 0) (T := ∅)
      (by rw [Nat.zero_add, expect_recv, slot_credit])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c j)) $$ Hpay
  iapply Hk
  isplitl [HO]; · iexact HO
  isplitl [Hat]; · iexact Hat
  iexact Hp

/-- The wait on send cell j, owing nothing: the j-th seventh of the read share of c's own block comes back. -/
theorem wp_wait_send (c : Dev nD) (j : Fin 7) {κ : ℕ} (W : Waits sig Unit)
    {hsrc : (slot j).view.WordExact} {hdst : (sbM : Memref sig .tc .vmem S2x4x256 .f32).view.WordExact}
    {α : Type} {Q : α → sProp 𝕄} {kk : PUnit → Prog (TpuEff nD τ sig (Elt F) Λ₀ .tc) α} :
    iprop(cellInv ER (Rd m) κ (sendCell c j) ∗ cred (tallyAt (sendCell c j) () N) ∗ owes (c : Thread nD τ) 0 W ∗ atPos ER (sendCell c j) 0 ∅ 0)
      ⊢ iprop(((owes (c : Thread nD τ) 0 (insert (SemLoc.dma (sendSem j), ()) W) ∗ atPos ER (sendCell c j) 1 ∅ 0 ∗ sendPay m c j)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendSem j) (slot j) sbM hsrc hdst) kk) Q) := by
  iintro ⟨#HI, Hc, HO, Hat⟩ Hk
  iapply (Rounds.wp_wait_rest_token 𝒱₀ ER (Rd m) (c : Thread nD τ) none (κ := κ)
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c j)) $$ Hpay
  iapply Hk
  isplitl [HO]; · iexact HO
  isplitl [Hat]; · iexact Hat
  iexact Hp

/-- An own cell, its one round consumed, closes: its counter at zero is the core's again. -/
theorem close_send (c : Dev nD) (j : Fin 7) {κ : ℕ} :
    iprop(cellInv ER (Rd m) κ (sendCell c j) ∗ atPos ER (sendCell c j) 1 ∅ 0) ⊢ iprop(|={Set.univ}=> semVal (sendCell c j) 0) :=
  Rounds.cell_close ER (Rd m) (Set.mem_univ κ) (fun h => h) (R := 0 + 1) (duties_later m (sendCell c j))
theorem close_recv (c : Dev nD) (j : Fin 7) {κ : ℕ} :
    iprop(cellInv ER (Rd m) κ (recvCell c j) ∗ atPos ER (recvCell c j) 1 ∅ 0) ⊢ iprop(|={Set.univ}=> semVal (recvCell c j) 0) :=
  Rounds.cell_close ER (Rd m) (Set.mem_univ κ) (fun h => h) (R := 0 + 1) (duties_later m (recvCell c j))

end Cert.KernelIdeal.Hand

end
-- ==== Proof.KBody.lean ====
/-
  The body of the kernel on one device, run from the ghost state the launch deals it: seven signals, the two stores of
  the partial sums, the wait for the peers, seven copies, the two products, seven receive waits, the normalisation and
  its store, seven send waits.
-/
import proofs.«900349_g7700000000000350_dist_diff_adaln_cshard_i_b4_s256_c128_v7x_i8_bf16_1_alg».proof.Proof.Gen.KernelIdeal.Frame
import proofs.«900349_g7700000000000350_dist_diff_adaln_cshard_i_b4_s256_c128_v7x_i8_bf16_1_alg».proof.Proof.Gen.KernelIdeal.Skeleton
import proofs.«900349_g7700000000000350_dist_diff_adaln_cshard_i_b4_s256_c128_v7x_i8_bf16_1_alg».proof.Proof.KSteps
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The steps, premises as successive wands -/

theorem signal_step (c : Dev nD) (k : Fin 7) (r : Fin 7) (hr : r = rev k) (n₁ n₀ : ℕ) (h₁ : n₁ = 6 - k.val + 1) (h₀ : n₀ = 6 - k.val)
    (dst : Dev nD) (hdst : dst = peer c k) {κ : ℕ}
    (f : Buf (Elt F) ((slot r).view.loc (c : Thread nD τ))) (W : Waits sig Unit)
    {α : Type} {Q : α → sProp 𝕄} {kk : PUnit → Prog (TpuEff nD τ sig (Elt F) Λ₀ .tc) α} :
    cellInv ER (Rd m) κ (barCell (peer c k)) ⊢ iprop(owes (c : Thread nD τ) (OB c n₁) W
        -∗ dutyTok ER (barCell (peer c k)) 0 k -∗ slotPts c r f -∗ reached ER (recvCell c r) 0
        -∗ reached ER (barCell (peer c k)) 0
        -∗ (owes (c : Thread nD τ) (OB c n₀) W -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (dst : Thread nD τ) barS 1) kk) Q) := by
  iintro HI HO Htok Hslot Hr Hrb
  iapply (wp_signal_peer m c k r hr n₁ n₀ h₁ h₀ dst hdst f W)
  isplitl [HI]; · iexact HI
  isplitl [HO]; · iexact HO
  isplitl [Htok]; · iexact Htok
  isplitl [Hslot]; · iexact Hslot
  isplitl [Hr]; · iexact Hr
  iexact Hrb

theorem wait_bar_step (c : Dev nD) {κ : ℕ} (W : Waits sig Unit)
    {α : Type} {Q : α → sProp 𝕄} {kk : PUnit → Prog (TpuEff nD τ sig (Elt F) Λ₀ .tc) α} :
    cellInv ER (Rd m) κ (barCell c) ⊢ iprop(cred (tallyAt (barCell c) () 7) -∗ owes (c : Thread nD τ) (OB c 0) W -∗ levAts L lv
        -∗ atPos ER (barCell c) 0 ∅ 0
        -∗ ((owes (c : Thread nD τ) (OR c 7) (insert (SemLoc.reg barS, ()) W)
              ∗ barGot c 6 ∗ barGot c 5 ∗ barGot c 4 ∗ barGot c 3 ∗ barGot c 2 ∗ barGot c 1 ∗ barGot c 0)
            -∗ wp frame (wpE (defs₀ (F := F)) 𝒱₀ (c : Thread nD τ) none) Set.univ (kk ⟨⟩) Q)
        -∗ wp frame (wpE (defs₀ (F := F)) 𝒱₀ (c : Thread nD τ) none) Set.univ (.op (.semWait barS 7) kk) Q) := by
  iintro HI Hc HO Hlev Hat
  iapply (wp_wait_bar m c W)
  isplitl [HI]; · iexact HI
  isplitl [Hc]; · iexact Hc
  isplitl [HO]; · iexact HO
  isplitl [Hlev]; · iexact Hlev
  iexact Hat

theorem send_step (c : Dev nD) (k : Fin 7) (n₁ n₀ : ℕ) (h₁ : n₁ = 6 - k.val + 1) (h₀ : n₀ = 6 - k.val) (n : Dev nD) (hn : n = peer c k) {κ₁ κ₂ : ℕ}
    (hland : ∀ (fd : Buf (Elt F) ((slot k).view.loc (peer c k : Thread nD τ))) (i : Idx ((slot k).view.loc (peer c k : Thread nD τ))), i ∈ (slot k).view.set →
      (slot k).view.write (Elt F) fd ((sbM : Memref sig .tc .vmem S2x4x256 .f32).view.read (Elt F) (sendC m c)) Finset.univ i = recvAll m (peer c k) i)
    {hsc : ((slot k : Memref sig (Dev.tc n : Thread nD τ).2.kind .vmem S2x4x256 .f32)).view.ref.isScScratch = false}
    {hsrc : (sbM : Memref sig .tc .vmem S2x4x256 .f32).view.WordExact} {hdst : (slot k).view.WordExact}
    {hsem : DmaTarget.Typed .vmem (.dma (recvSem k)) (.remote (Dev.tc n : Thread nD τ) (slot k) (.dma (sendSem k)) hsc)}
    {α : Type} {Q : α → sProp 𝕄} {kk : PUnit → Prog (TpuEff nD τ sig (Elt F) Λ₀ .tc) α}
    (fn : Buf (Elt F) ((slot k).view.loc (peer c k : Thread nD τ))) (W : Waits sig Unit) :
    cellInv ER (Rd m) κ₁ (sendCell c k) ⊢ iprop(cellInv ER (Rd m) κ₂ (recvCell (peer c k) k)
        -∗ ((sbM : Memref sig .tc .vmem S2x4x256 .f32).view.loc (c : Thread nD τ) ↦[(sbM : Memref sig .tc .vmem S2x4x256 .f32).view.set]{Transfers.shareTok fullShare 7 k} sendC m c)
        -∗ slotPts (peer c k) k fn
        -∗ owes (c : Thread nD τ) (OR c n₁) W
        -∗ dutyTok ER (sendCell c k) 0 0 -∗ reached ER (sendCell c k) 0
        -∗ dutyTok ER (recvCell (peer c k) k) 0 0 -∗ reached ER (recvCell (peer c k) k) 0
        -∗ ((cred (tallyAt (sendCell c k) () N) ∗ owes (c : Thread nD τ) (OR c n₀) W) -∗ wp frame (wpE (defs₀ (F := F)) 𝒱₀ (c : Thread nD τ) none) Set.univ (kk ⟨⟩) Q)
        -∗ wp frame (wpE (defs₀ (F := F)) 𝒱₀ (c : Thread nD τ) none) Set.univ
              (.op (.enqueueDma sbM (.remote (Dev.tc n : Thread nD τ) (slot k) (.dma (sendSem k)) hsc) (.dma (recvSem k)) hsrc hdst hsem) kk) Q) := by
  iintro HI1 HI2 Hsb Hn HO Ht1 Hr1 Ht2 Hr2
  iapply (wp_send_peer m c k n₁ n₀ h₁ h₀ n hn hland fn W)
  isplitl [HI1]; · iexact HI1
  isplitl [HI2]; · iexact HI2
  isplitl [Hsb]; · unfold sbPts; iexact Hsb
  isplitl [Hn]; · iexact Hn
  isplitl [HO]; · iexact HO
  isplitl [Ht1]; · iexact Ht1
  isplitl [Hr1]; · iexact Hr1
  isplitl [Ht2]; · iexact Ht2
  iexact Hr2

omit [FloatOps F] in
/-- The two row stores cover the 2×4×256 block. -/
theorem cov_rows (a b : FVec F S1x4x256 .f32) :
    LoadRect.covChk (([⟨Rect.unit (s := S2x4x256) ![1, 0, 0] S1x4x256.size inb_S2x4x256_S1x4x256_1_0_0, a⟩,
        ⟨Rect.unit (s := S2x4x256) ![0, 0, 0] S1x4x256.size inb_S2x4x256_S1x4x256_0_0_0, b⟩] : List (View.Piece (Elt F) S2x4x256 .f32)).map Sigma.fst)
      (LoadRect.whole S2x4x256) (.split 0 1 (.leaf 1) (.leaf 0)) = true := by
  show LoadRect.covChk [Rect.unit (s := S2x4x256) ![1, 0, 0] S1x4x256.size inb_S2x4x256_S1x4x256_1_0_0,
    Rect.unit (s := S2x4x256) ![0, 0, 0] S1x4x256.size inb_S2x4x256_S1x4x256_0_0_0] (LoadRect.whole S2x4x256) (.split 0 1 (.leaf 1) (.leaf 0)) = true
  decide

omit [FloatOps F] in
theorem hz3 : (![0, 0, 0] : Fin 3 → Nat) = fun _ => 0 := funext fun a => by fin_cases a <;> rfl
omit [FloatOps F] in
theorem hz2 : (![0, 0] : Fin 2 → Nat) = fun _ => 0 := funext fun a => by fin_cases a <;> rfl

/-- The read share of the block, split seven ways (one per copy) beside a remainder, and joined back. -/
theorem toks_split7 (c : Dev nD) (f : Buf (Elt F) ((sbM : Memref sig .tc .vmem S2x4x256 .f32).view.loc (c : Thread nD τ))) :
    ((sbM : Memref sig .tc .vmem S2x4x256 .f32).view.loc (c : Thread nD τ) ↦[(sbM : Memref sig .tc .vmem S2x4x256 .f32).view.set]{fullShare} f : sProp 𝕄)
      ⊢ iprop(((sbM : Memref sig .tc .vmem S2x4x256 .f32).view.loc (c : Thread nD τ) ↦[(sbM : Memref sig .tc .vmem S2x4x256 .f32).view.set]{Transfers.shareDrop fullShare 7} f)
        ∗ ((sbM : Memref sig .tc .vmem S2x4x256 .f32).view.loc (c : Thread nD τ) ↦[(sbM : Memref sig .tc .vmem S2x4x256 .f32).view.set]{Transfers.shareTok fullShare 7 0} f)
        ∗ ((sbM : Memref sig .tc .vmem S2x4x256 .f32).view.loc (c : Thread nD τ) ↦[(sbM : Memref sig .tc .vmem S2x4x256 .f32).view.set]{Transfers.shareTok fullShare 7 1} f)
        ∗ ((sbM : Memref sig .tc .vmem S2x4x256 .f32).view.loc (c : Thread nD τ) ↦[(sbM : Memref sig .tc .vmem S2x4x256 .f32).view.set]{Transfers.shareTok fullShare 7 2} f)
        ∗ ((sbM : Memref sig .tc .vmem S2x4x256 .f32).view.loc (c : Thread nD τ) ↦[(sbM : Memref sig .tc .vmem S2x4x256 .f32).view.set]{Transfers.shareTok fullShare 7 3} f)
        ∗ ((sbM : Memref sig .tc .vmem S2x4x256 .f32).view.loc (c : Thread nD τ) ↦[(sbM : Memref sig .tc .vmem S2x4x256 .f32).view.set]{Transfers.shareTok fullShare 7 4} f)
        ∗ ((sbM : Memref sig .tc .vmem S2x4x256 .f32).view.loc (c : Thread nD τ) ↦[(sbM : Memref sig .tc .vmem S2x4x256 .f32).view.set]{Transfers.shareTok fullShare 7 5} f)
        ∗ ((sbM : Memref sig .tc .vmem S2x4x256 .f32).view.loc (c : Thread nD τ) ↦[(sbM : Memref sig .tc .vmem S2x4x256 .f32).view.set]{Transfers.shareTok fullShare 7 6} f)) := by
  refine BI.Entails.trans (Transfers.pointsTo_toks_split fullShare 7) ?_
  rw [bigSep_fin7]; exact BI.Entails.refl _
theorem toks_join7 (c : Dev nD) (f : Buf (Elt F) ((sbM : Memref sig .tc .vmem S2x4x256 .f32).view.loc (c : Thread nD τ))) :
    iprop(((sbM : Memref sig .tc .vmem S2x4x256 .f32).view.loc (c : Thread nD τ) ↦[(sbM : Memref sig .tc .vmem S2x4x256 .f32).view.set]{Transfers.shareDrop fullShare 7} f)
        ∗ ((sbM : Memref sig .tc .vmem S2x4x256 .f32).view.loc (c : Thread nD τ) ↦[(sbM : Memref sig .tc .vmem S2x4x256 .f32).view.set]{Transfers.shareTok fullShare 7 0} f)
        ∗ ((sbM : Memref sig .tc .vmem S2x4x256 .f32).view.loc (c : Thread nD τ) ↦[(sbM : Memref sig .tc .vmem S2x4x256 .f32).view.set]{Transfers.shareTok fullShare 7 1} f)
        ∗ ((sbM : Memref sig .tc .vmem S2x4x256 .f32).view.loc (c : Thread nD τ) ↦[(sbM : Memref sig .tc .vmem S2x4x256 .f32).view.set]{Transfers.shareTok fullShare 7 2} f)
        ∗ ((sbM : Memref sig .tc .vmem S2x4x256 .f32).view.loc (c : Thread nD τ) ↦[(sbM : Memref sig .tc .vmem S2x4x256 .f32).view.set]{Transfers.shareTok fullShare 7 3} f)
        ∗ ((sbM : Memref sig .tc .vmem S2x4x256 .f32).view.loc (c : Thread nD τ) ↦[(sbM : Memref sig .tc .vmem S2x4x256 .f32).view.set]{Transfers.shareTok fullShare 7 4} f)
        ∗ ((sbM : Memref sig .tc .vmem S2x4x256 .f32).view.loc (c : Thread nD τ) ↦[(sbM : Memref sig .tc .vmem S2x4x256 .f32).view.set]{Transfers.shareTok fullShare 7 5} f)
        ∗ ((sbM : Memref sig .tc .vmem S2x4x256 .f32).view.loc (c : Thread nD τ) ↦[(sbM : Memref sig .tc .vmem S2x4x256 .f32).view.set]{Transfers.shareTok fullShare 7 6} f))
      ⊢ ((sbM : Memref sig .tc .vmem S2x4x256 .f32).view.loc (c : Thread nD τ) ↦[(sbM : Memref sig .tc .vmem S2x4x256 .f32).view.set]{fullShare} f : sProp 𝕄) := by
  refine BI.Entails.trans ?_ (Transfers.pointsTo_toks_join fullShare 7)
  rw [bigSep_fin7]; exact BI.Entails.refl _

/-- What a consumed round of a receive / send cell leaves its owner. -/
theorem got_recv (c : Dev nD) (j : Fin 7) :
    bigSep ((Rd (F := F) m).duties (recvCell c j) 0) (fun d => (Rd (F := F) m).payload (recvCell c j) 0 d) = slotPts c j (recvAll m c) := by
  rw [duties_recv, bigSep_singleton, payload_recv]; rfl
theorem got_send (c : Dev nD) (j : Fin 7) :
    bigSep ((Rd (F := F) m).duties (sendCell c j) 0) (fun d => (Rd (F := F) m).payload (sendCell c j) 0 d)
      = ((sbM : Memref sig .tc .vmem S2x4x256 .f32).view.loc (c : Thread nD τ) ↦[(sbM : Memref sig .tc .vmem S2x4x256 .f32).view.set]{Transfers.shareTok fullShare 7 j} sendC m c) := by
  rw [duties_send, bigSep_singleton, payload_send]; rfl
/-! ## The body -/

def bodyPre' (c : Dev nD) : sProp 𝕄 :=
  iprop(Φ₀ m c ∗ (dats m 0 c).owesAt () t0_0.castSucc
    ∗ (∃ d, owns (c : Thread nD τ) (Memref.whole cc0_stg0_0 : Memref sig .tc .vmem S4x256x128 .f32) fullShare ((dats m 0 c).before (0 : Fin 5) t0_0 d))
    ∗ (∃ d, owns (c : Thread nD τ) (Memref.whole cc0_stg1_0 : Memref sig .tc .vmem S4x128 .f32) fullShare ((dats m 0 c).before (1 : Fin 5) t0_0 d))
    ∗ (∃ d, owns (c : Thread nD τ) (Memref.whole cc0_stg2_0 : Memref sig .tc .vmem S128x128 .f32) fullShare ((dats m 0 c).before (2 : Fin 5) t0_0 d))
    ∗ (∃ d, owns (c : Thread nD τ) (Memref.whole cc0_stg3_0 : Memref sig .tc .vmem S128x128 .f32) fullShare ((dats m 0 c).before (3 : Fin 5) t0_0 d))
    ∗ (∃ d, owns (c : Thread nD τ) (Memref.whole cc0_stg4_0 : Memref sig .tc .vmem S4x256x128 .f32) fullShare ((dats m 0 c).before (4 : Fin 5) t0_0 d)))

def bodyPost (c : Dev nD) : sProp 𝕄 :=
  iprop(Φ₁ c ∗ (dats m 0 c).owesAt () t0_0.succ
    ∗ owns (c : Thread nD τ) (Memref.whole cc0_stg0_0 : Memref sig .tc .vmem S4x256x128 .f32) fullShare (x0 m c)
    ∗ owns (c : Thread nD τ) (Memref.whole cc0_stg1_0 : Memref sig .tc .vmem S4x128 .f32) fullShare (t0v m c)
    ∗ owns (c : Thread nD τ) (Memref.whole cc0_stg2_0 : Memref sig .tc .vmem S128x128 .f32) fullShare (ws0 m c)
    ∗ owns (c : Thread nD τ) (Memref.whole cc0_stg3_0 : Memref sig .tc .vmem S128x128 .f32) fullShare (wsh0 m c)
    ∗ owns (c : Thread nD τ) (Memref.whole cc0_stg4_0 : Memref sig .tc .vmem S4x256x128 .f32) fullShare (outAt m c))

set_option maxHeartbeats 4000000 in
theorem sound_body (c : Dev nD)
    (hland : ∀ (k : Fin 7) (fd : Buf (Elt F) ((slot k).view.loc (peer c k : Thread nD τ))) (i : Idx ((slot k).view.loc (peer c k : Thread nD τ))), i ∈ (slot k).view.set →
      (slot k).view.write (Elt F) fd ((sbM : Memref sig .tc .vmem S2x4x256 .f32).view.read (Elt F) (sendC m c)) Finset.univ i = recvAll m (peer c k) i)
    (hjoin : ∀ f, iprop(slotPts c 0 f ∗ slotPts c 1 f ∗ slotPts c 2 f ∗ slotPts c 3 f ∗ slotPts c 4 f ∗ slotPts c 5 f ∗ slotPts c 6 f)
      ⊢ ((rbM : Memref sig .tc .vmem S7x2x4x256 .f32).view.loc (c : Thread nD τ) ↦[(rbM : Memref sig .tc .vmem S7x2x4x256 .f32).view.set]{fullShare} f : sProp 𝕄))
    (hsplit : ∀ f, ((rbM : Memref sig .tc .vmem S7x2x4x256 .f32).view.loc (c : Thread nD τ) ↦[(rbM : Memref sig .tc .vmem S7x2x4x256 .f32).view.set]{fullShare} f : sProp 𝕄)
      ⊢ iprop(slotPts c 0 f ∗ slotPts c 1 f ∗ slotPts c 2 f ∗ slotPts c 3 f ∗ slotPts c 4 f ∗ slotPts c 5 f ∗ slotPts c 6 f)) :
    bodyPre' m c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) cc0_scratch2 cc0_scratch3) (fun _ => bodyPost m c) := by
  unfold bodyPre' Φ₀ start ghost needs positions payToks
  simp only [bigSep_fin7]
  unfold sbAny rbAny sbPts owns
  iintro ⟨⟨⟨⟨⟨⟨%κB, #HIB⟩, ⟨⟨%κS0, #HIS0⟩, ⟨%κS1, #HIS1⟩, ⟨%κS2, #HIS2⟩, ⟨%κS3, #HIS3⟩, ⟨%κS4, #HIS4⟩, ⟨%κS5, #HIS5⟩, ⟨%κS6, #HIS6⟩⟩,
        ⟨⟨%κV0, #HIV0⟩, ⟨%κV1, #HIV1⟩, ⟨%κV2, #HIV2⟩, ⟨%κV3, #HIV3⟩, ⟨%κV4, #HIV4⟩, ⟨%κV5, #HIV5⟩, ⟨%κV6, #HIV6⟩⟩,
        ⟨⟨%κP0, #HIP0⟩, ⟨%κP1, #HIP1⟩, ⟨%κP2, #HIP2⟩, ⟨%κP3, #HIP3⟩, ⟨%κP4, #HIP4⟩, ⟨%κP5, #HIP5⟩, ⟨%κP6, #HIP6⟩⟩,
        ⟨⟨%κR0, #HIR0⟩, ⟨%κR1, #HIR1⟩, ⟨%κR2, #HIR2⟩, ⟨%κR3, #HIR3⟩, ⟨%κR4, #HIR4⟩, ⟨%κR5, #HIR5⟩, ⟨%κR6, #HIR6⟩⟩,
        ⟨#HrP0, #HrP1, #HrP2, #HrP3, #HrP4, #HrP5, #HrP6⟩,
        ⟨#HrR0, #HrR1, #HrR2, #HrR3, #HrR4, #HrR5, #HrR6⟩,
        ⟨#HrS0, #HrS1, #HrS2, #HrS3, #HrS4, #HrS5, #HrS6⟩,
        ⟨#HrV0, #HrV1, #HrV2, #HrV3, #HrV4, #HrV5, #HrV6⟩⟩,
      ⟨HatB, ⟨HatS0, HatS1, HatS2, HatS3, HatS4, HatS5, HatS6⟩, ⟨HatV0, HatV1, HatV2, HatV3, HatV4, HatV5, HatV6⟩⟩,
      ⟨⟨HtP0, HtP1, HtP2, HtP3, HtP4, HtP5, HtP6⟩, ⟨HtR0, HtR1, HtR2, HtR3, HtR4, HtR5, HtR6⟩, ⟨HtS0, HtS1, HtS2, HtS3, HtS4, HtS5, HtS6⟩⟩⟩,
      HcB, ⟨HcV0, HcV1, HcV2, HcV3, HcV4, HcV5, HcV6⟩, #Hlev⟩, ⟨%fsb, Hsb⟩, ⟨%frb, Hrb⟩⟩,
    Ho, ⟨%d0, %g0, %hg0, Hx⟩, ⟨%d1, %g1, %hg1, Ht⟩, ⟨%d2, %g2, %hg2, Hws⟩, ⟨%d3, %g3, %hg3, Hwsh⟩, ⟨%d4, %g4, %hg4, Hout⟩⟩
  ihave Hsl := (hsplit frb) $$ Hrb
  icases Hsl with ⟨Hs0, Hs1, Hs2, Hs3, Hs4, Hs5, Hs6⟩
  unfold Dat.owesAt Pipeline.owesWithin
  icases Ho with ⟨%W, %hW, HO⟩
  rw [show (dats m 0 c).owed t0_0.castSucc = OB c 7 from rfl]
  sl_unfold [cc0_body]
  sl_exec_parts
  iapply (signal_step m c 0 6 rfl 7 6 rfl rfl _ (dev1_eq c) frb W) $$ HIP0 HO HtP0 Hs6 HrV6 HrP0
  iintro HO
  sl_exec_parts
  iapply (signal_step m c 1 5 rfl 6 5 rfl rfl _ (dev2_eq c) frb W) $$ HIP1 HO HtP1 Hs5 HrV5 HrP1
  iintro HO
  sl_exec_parts
  iapply (signal_step m c 2 4 rfl 5 4 rfl rfl _ (dev3_eq c) frb W) $$ HIP2 HO HtP2 Hs4 HrV4 HrP2
  iintro HO
  sl_exec_parts
  iapply (signal_step m c 3 3 rfl 4 3 rfl rfl _ (dev4_eq c) frb W) $$ HIP3 HO HtP3 Hs3 HrV3 HrP3
  iintro HO
  sl_exec_parts
  iapply (signal_step m c 4 2 rfl 3 2 rfl rfl _ (dev5_eq c) frb W) $$ HIP4 HO HtP4 Hs2 HrV2 HrP4
  iintro HO
  sl_exec_parts
  iapply (signal_step m c 5 1 rfl 2 1 rfl rfl _ (dev6_eq c) frb W) $$ HIP5 HO HtP5 Hs1 HrV1 HrP5
  iintro HO
  sl_exec_parts
  iapply (signal_step m c 6 0 rfl 1 0 rfl rfl _ (dev7_eq c) frb W) $$ HIP6 HO HtP6 Hs0 HrV0 HrP6
  iintro HO
  sl_exec_parts
  iapply (wait_bar_step m c W) $$ HIB HcB HO Hlev HatB
  unfold barGot
  iintro ⟨HO, ⟨⟨%fn6, Hn6⟩, #Hq6⟩, ⟨⟨%fn5, Hn5⟩, #Hq5⟩, ⟨⟨%fn4, Hn4⟩, #Hq4⟩, ⟨⟨%fn3, Hn3⟩, #Hq3⟩, ⟨⟨%fn2, Hn2⟩, #Hq2⟩, ⟨⟨%fn1, Hn1⟩, #Hq1⟩, ⟨⟨%fn0, Hn0⟩, #Hq0⟩⟩
  -- the staged block of x is device c's block; the two stores over it are the block of partial sums c sends
  have hx : g0 = x0 m c := by
    have h : g0 = (dats m 0 c).before 0 t0_0 d0 := (View.read_whole (Val := Elt F) cc0_stg0_0 g0).symm.trans hg0
    rw [h]; unfold Dat.before; rw [if_pos (fetch0_0 t0_0)]; rfl
  have hv : sound_body.sl.v96 c g0 = v96 m c := by
    unfold sound_body.sl.v96 v96 k0_pay1
    have hr : (Memref.whole cc0_stg0_0 : Memref sig .tc .vmem S4x256x128 .f32).view.readAt (Elt F)
        (Rect.unit (s := S4x256x128) ![0, 0, 0] S4x256x128.size inb_S4x256x128_S4x256x128_0_0_0).toLoadRect g0 = g0 :=
      Memref.readAt_unit_zero (Elt F) cc0_stg0_0 hz3 _ g0
    rw [hr, hx]
  have hsb : (sbM : Memref sig .tc .vmem S2x4x256 .f32).view.writes (Elt F) fsb
      [⟨Rect.unit (s := S2x4x256) ![1, 0, 0] S1x4x256.size inb_S2x4x256_S1x4x256_1_0_0, k0_pay5 (sound_body.sl.v96 c g0)⟩,
       ⟨Rect.unit (s := S2x4x256) ![0, 0, 0] S1x4x256.size inb_S2x4x256_S1x4x256_0_0_0, k0_pay4 (sound_body.sl.v96 c g0)⟩] = sendC m c := by
    unfold sendC
    have e := Memref.writes_eq_junk_of_covChk (Val := Elt F) (m := (sbM : Memref sig .tc .vmem S2x4x256 .f32)) (Memref.isWhole_whole cc0_scratch0) fsb
      [⟨Rect.unit (s := S2x4x256) ![1, 0, 0] S1x4x256.size inb_S2x4x256_S1x4x256_1_0_0, k0_pay5 (sound_body.sl.v96 c g0)⟩,
       ⟨Rect.unit (s := S2x4x256) ![0, 0, 0] S1x4x256.size inb_S2x4x256_S1x4x256_0_0_0, k0_pay4 (sound_body.sl.v96 c g0)⟩]
      (.split 0 1 (.leaf 1) (.leaf 0)) (cov_rows _ _)
    rw [e, hv]
  ihave Hsb := (Entails.of_eq (congrArg (fun f => ((sbM : Memref sig .tc .vmem S2x4x256 .f32).view.loc (c : Thread nD τ) ↦[(sbM : Memref sig .tc .vmem S2x4x256 .f32).view.set]{fullShare} f : sProp 𝕄)) hsb)) $$ Hsb
  ihave Hsp := (toks_split7 c (sendC m c)) $$ Hsb
  icases Hsp with ⟨Hsbr, Hsb0, Hsb1, Hsb2, Hsb3, Hsb4, Hsb5, Hsb6⟩
  sl_exec_parts
  iapply (send_step m c 0 7 6 rfl rfl _ (dev8_eq c) (hland 0) fn0 _) $$ HIS0 HIR0 Hsb0 Hn0 HO HtS0 HrS0 HtR0 HrR0
  iintro ⟨HcS0, HO⟩
  sl_exec_parts
  iapply (send_step m c 1 6 5 rfl rfl _ (dev9_eq c) (hland 1) fn1 _) $$ HIS1 HIR1 Hsb1 Hn1 HO HtS1 HrS1 HtR1 HrR1
  iintro ⟨HcS1, HO⟩
  sl_exec_parts
  iapply (send_step m c 2 5 4 rfl rfl _ (dev10_eq c) (hland 2) fn2 _) $$ HIS2 HIR2 Hsb2 Hn2 HO HtS2 HrS2 HtR2 HrR2
  iintro ⟨HcS2, HO⟩
  sl_exec_parts
  iapply (send_step m c 3 4 3 rfl rfl _ (dev11_eq c) (hland 3) fn3 _) $$ HIS3 HIR3 Hsb3 Hn3 HO HtS3 HrS3 HtR3 HrR3
  iintro ⟨HcS3, HO⟩
  sl_exec_parts
  iapply (send_step m c 4 3 2 rfl rfl _ (dev12_eq c) (hland 4) fn4 _) $$ HIS4 HIR4 Hsb4 Hn4 HO HtS4 HrS4 HtR4 HrR4
  iintro ⟨HcS4, HO⟩
  sl_exec_parts
  iapply (send_step m c 5 2 1 rfl rfl _ (dev13_eq c) (hland 5) fn5 _) $$ HIS5 HIR5 Hsb5 Hn5 HO HtS5 HrS5 HtR5 HrR5
  iintro ⟨HcS5, HO⟩
  sl_exec_parts
  iapply (send_step m c 6 1 0 rfl rfl _ (dev14_eq c) (hland 6) fn6 _) $$ HIS6 HIR6 Hsb6 Hn6 HO HtS6 HrS6 HtR6 HrR6
  iintro ⟨HcS6, HO⟩
  sl_exec_parts
  ihave Hv0 := (Entails.of_eq (got_recv m c 0)) $$ HatV0_pay1
  ihave Hv1 := (Entails.of_eq (got_recv m c 1)) $$ HatV1_pay1
  ihave Hv2 := (Entails.of_eq (got_recv m c 2)) $$ HatV2_pay1
  ihave Hv3 := (Entails.of_eq (got_recv m c 3)) $$ HatV3_pay1
  ihave Hv4 := (Entails.of_eq (got_recv m c 4)) $$ HatV4_pay1
  ihave Hv5 := (Entails.of_eq (got_recv m c 5)) $$ HatV5_pay1
  ihave Hv6 := (Entails.of_eq (got_recv m c 6)) $$ HatV6_pay1
  ihave Hrb := (hjoin (recvAll m c)) $$ [Hv0 Hv1 Hv2 Hv3 Hv4 Hv5 Hv6]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  sl_exec_parts
  -- the send cells' rounds, consumed: the seven sevenths of the read share come back and join
  ihave Hsb0 := (Entails.of_eq (got_send m c 0)) $$ HatS0_pay1
  ihave Hsb1 := (Entails.of_eq (got_send m c 1)) $$ HatS1_pay1
  ihave Hsb2 := (Entails.of_eq (got_send m c 2)) $$ HatS2_pay1
  ihave Hsb3 := (Entails.of_eq (got_send m c 3)) $$ HatS3_pay1
  ihave Hsb4 := (Entails.of_eq (got_send m c 4)) $$ HatS4_pay1
  ihave Hsb5 := (Entails.of_eq (got_send m c 5)) $$ HatS5_pay1
  ihave Hsb6 := (Entails.of_eq (got_send m c 6)) $$ HatS6_pay1
  ihave Hsb := (toks_join7 c (sendC m c)) $$ [Hsbr Hsb0 Hsb1 Hsb2 Hsb3 Hsb4 Hsb5 Hsb6]
  · isplitl [Hsbr]; · iexact Hsbr
    isplitl [Hsb0]; · iexact Hsb0
    isplitl [Hsb1]; · iexact Hsb1
    isplitl [Hsb2]; · iexact Hsb2
    isplitl [Hsb3]; · iexact Hsb3
    isplitl [Hsb4]; · iexact Hsb4
    isplitl [Hsb5]; · iexact Hsb5
    iexact Hsb6
  -- the fourteen own cells close: their counters at zero are the core's again
  imod (close_send m c 0) $$ [HatS0] with HzS0
  · isplitr; · iexact HIS0
    iexact HatS0
  imod (close_send m c 1) $$ [HatS1] with HzS1
  · isplitr; · iexact HIS1
    iexact HatS1
  imod (close_send m c 2) $$ [HatS2] with HzS2
  · isplitr; · iexact HIS2
    iexact HatS2
  imod (close_send m c 3) $$ [HatS3] with HzS3
  · isplitr; · iexact HIS3
    iexact HatS3
  imod (close_send m c 4) $$ [HatS4] with HzS4
  · isplitr; · iexact HIS4
    iexact HatS4
  imod (close_send m c 5) $$ [HatS5] with HzS5
  · isplitr; · iexact HIS5
    iexact HatS5
  imod (close_send m c 6) $$ [HatS6] with HzS6
  · isplitr; · iexact HIS6
    iexact HatS6
  imod (close_recv m c 0) $$ [HatV0] with HzV0
  · isplitr; · iexact HIV0
    iexact HatV0
  imod (close_recv m c 1) $$ [HatV1] with HzV1
  · isplitr; · iexact HIV1
    iexact HatV1
  imod (close_recv m c 2) $$ [HatV2] with HzV2
  · isplitr; · iexact HIV2
    iexact HatV2
  imod (close_recv m c 3) $$ [HatV3] with HzV3
  · isplitr; · iexact HIV3
    iexact HatV3
  imod (close_recv m c 4) $$ [HatV4] with HzV4
  · isplitr; · iexact HIV4
    iexact HatV4
  imod (close_recv m c 5) $$ [HatV5] with HzV5
  · isplitr; · iexact HIV5
    iexact HatV5
  imod (close_recv m c 6) $$ [HatV6] with HzV6
  · isplitr; · iexact HIV6
    iexact HatV6
  -- what the windows' staging buffers hold: the inputs as staged, the result block
  have hr0 : (Memref.whole cc0_stg0_0 : Memref sig .tc .vmem S4x256x128 .f32).view.read (Elt F) g0 = x0 m c :=
    (View.read_whole (Val := Elt F) cc0_stg0_0 g0).trans hx
  have hr1 : (Memref.whole cc0_stg1_0 : Memref sig .tc .vmem S4x128 .f32).view.read (Elt F) g1 = t0v m c :=
    hg1.trans (by unfold Dat.before; rw [if_pos (fetch0_1 t0_0)]; rfl)
  have hr2 : (Memref.whole cc0_stg2_0 : Memref sig .tc .vmem S128x128 .f32).view.read (Elt F) g2 = ws0 m c :=
    hg2.trans (by unfold Dat.before; rw [if_pos (fetch0_2 t0_0)]; rfl)
  have hr3 : (Memref.whole cc0_stg3_0 : Memref sig .tc .vmem S128x128 .f32).view.read (Elt F) g3 = wsh0 m c :=
    hg3.trans (by unfold Dat.before; rw [if_pos (fetch0_3 t0_0)]; rfl)
  have hr4 : (Memref.whole cc0_stg4_0 : Memref sig .tc .vmem S4x256x128 .f32).view.read (Elt F)
      ((Memref.whole cc0_stg4_0 : Memref sig .tc .vmem S4x256x128 .f32).view.writes (Elt F) g4
        [⟨Rect.unit (s := S4x256x128) ![0, 0, 0] S4x256x128.size inb_S4x256x128_S4x256x128_0_0_0,
          k0_pay11 (sound_body.sl.v96 c g0) (sound_body.sl.r_2 c g1 g2) (sound_body.sl.r_3 c g1 g3)
            (sound_body.sl.r_4 m c g0) (sound_body.sl.r_5 m c g0) k0_pay10⟩]) = outAt m c := by
    refine (View.read_whole (Val := Elt F) cc0_stg4_0 _).trans ?_
    refine (Memref.write_access_unit_zero_univ (Elt F) cc0_stg4_0 hz3 inb_S4x256x128_S4x256x128_0_0_0 g4 _).trans ?_
    unfold outAt sound_body.sl.r_2 sound_body.sl.r_3 sound_body.sl.r_4 sound_body.sl.r_5 sound_body.sl.r sound_body.sl.r_1 R0 R1
    have e1 : (Memref.whole cc0_stg1_0 : Memref sig .tc .vmem S4x128 .f32).view.readAt (Elt F)
        (Rect.unit (s := S4x128) ![0, 0] S4x128.size inb_S4x128_S4x128_0_0).toLoadRect g1 = t0v m c :=
      (Memref.readAt_unit_zero (Elt F) cc0_stg1_0 hz2 _ g1).trans ((View.read_whole (Val := Elt F) cc0_stg1_0 g1).symm.trans hr1)
    have e2 : (Memref.whole cc0_stg2_0 : Memref sig .tc .vmem S128x128 .f32).view.readAt (Elt F)
        (Rect.unit (s := S128x128) ![0, 0] S128x128.size inb_S128x128_S128x128_0_0).toLoadRect g2 = ws0 m c :=
      (Memref.readAt_unit_zero (Elt F) cc0_stg2_0 hz2 _ g2).trans ((View.read_whole (Val := Elt F) cc0_stg2_0 g2).symm.trans hr2)
    have e3 : (Memref.whole cc0_stg3_0 : Memref sig .tc .vmem S128x128 .f32).view.readAt (Elt F)
        (Rect.unit (s := S128x128) ![0, 0] S128x128.size inb_S128x128_S128x128_0_0).toLoadRect g3 = wsh0 m c :=
      (Memref.readAt_unit_zero (Elt F) cc0_stg3_0 hz2 _ g3).trans ((View.read_whole (Val := Elt F) cc0_stg3_0 g3).symm.trans hr3)
    show k0_pay11 _ _ _ _ _ _ = _
    rw [hv, e1, e2, e3]
  sl_step
  unfold bodyPost Φ₁ sbAny rbAny sbPts Dat.owesAt Pipeline.owesWithin owns
  rw [show (dats m 0 c).owed t0_0.succ = 0 from rfl]
  isplitl [Hsb Hrb HzS0 HzS1 HzS2 HzS3 HzS4 HzS5 HzS6 HzV0 HzV1 HzV2 HzV3 HzV4 HzV5 HzV6]
  · isplitl [Hsb]; · iexists (sendC m c); iexact Hsb
    isplitl [Hrb]; · iexists (recvAll m c); iexact Hrb
    isplitl [HzS0 HzS1 HzS2 HzS3 HzS4 HzS5 HzS6]
    · iapply (Entails.of_eq (bigSep_fin7 (fun j : Fin 7 => (semVal (sendCell c j) 0 : sProp 𝕄))).symm)
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    · iapply (Entails.of_eq (bigSep_fin7 (fun j : Fin 7 => (semVal (recvCell c j) 0 : sProp 𝕄))).symm)
      isplitl [HzV0]; · iexact HzV0
      isplitl [HzV1]; · iexact HzV1
      isplitl [HzV2]; · iexact HzV2
      isplitl [HzV3]; · iexact HzV3
      isplitl [HzV4]; · iexact HzV4
      isplitl [HzV5]; · iexact HzV5
      iexact HzV6
  isplitl [HO]
  · iexists _
    isplitr
    on_goal 2 => iexact HO
    ipureintro; exact fun _ _ => Or.inl trivial
  isplitl [Hx]
  · iexists g0; isplitr; · (ipureintro; exact hr0)
    iexact Hx
  isplitl [Ht]
  · iexists g1; isplitr; · (ipureintro; exact hr1)
    iexact Ht
  isplitl [Hws]
  · iexists g2; isplitr; · (ipureintro; exact hr2)
    iexact Hws
  isplitl [Hwsh]
  · iexists g3; isplitr; · (ipureintro; exact hr3)
    iexact Hwsh
  iexists _; isplitr; · (ipureintro; exact hr4)
  iexact Hout

end Cert.KernelIdeal.Hand

end
-- ==== Proof.KGhostA.lean ====
/-
  The launch element of the protocol: the fifteen cells of every device at round 0 with their positions, and the 21
  duty tokens minted per device (seven of its barrier cell, one of each send cell, one of each receive cell);
  what funding it gives each device.
-/
import proofs.«900349_g7700000000000350_dist_diff_adaln_cshard_i_b4_s256_c128_v7x_i8_bf16_1_alg».proof.Proof.Gen.KernelIdeal.Frame
import proofs.«900349_g7700000000000350_dist_diff_adaln_cshard_i_b4_s256_c128_v7x_i8_bf16_1_alg».proof.Proof.Gen.KernelIdeal.Skeleton
import proofs.«900349_g7700000000000350_dist_diff_adaln_cshard_i_b4_s256_c128_v7x_i8_bf16_1_alg».proof.Proof.KProtoD
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens minted at launch -/

theorem ownSemFacts : Pipeline.OwnSemFacts cfg0.spec osem := by decide

def ringCells : Finset (GSem nD τ sig) := Finset.univ.map ⟨kcell, kcell_injective⟩

/-- A device's minted tokens: the seven duties of its barrier cell, the duty of each send cell, of each receive cell. -/
def tokOf (cj : Dev nD × (Fin 7 ⊕ Fin 7 ⊕ Fin 7)) : GSem nD τ sig × ℕ × Fin 7 := match cj.2 with
  | .inl d => (barCell cj.1, 0, d)
  | .inr (.inl j) => (sendCell cj.1 j, 0, 0)
  | .inr (.inr j) => (recvCell cj.1 j, 0, 0)

theorem tokOf_injective : Function.Injective (tokOf : Dev nD × (Fin 7 ⊕ Fin 7 ⊕ Fin 7) → GSem nD τ sig × ℕ × Fin 7) := by
  rintro ⟨c, j⟩ ⟨c', j'⟩ h
  have h1 : c = c' := by
    have := congrArg (fun x : GSem nD τ sig × ℕ × Fin 7 => x.1.1.1) h
    rcases j with d | j | j <;> rcases j' with d' | j' | j' <;> exact this
  subst h1
  have hs : (tokOf (c, j)).1.2 = (tokOf (c, j')).1.2 := congrArg (fun x : GSem nD τ sig × ℕ × Fin 7 => x.1.2) h
  have hd : (tokOf (c, j)).2.2 = (tokOf (c, j')).2.2 := congrArg (fun x : GSem nD τ sig × ℕ × Fin 7 => x.2.2) h
  rcases j with d | j | j <;> rcases j' with d' | j' | j'
  · have : d = d' := hd
    rw [this]
  · exact absurd hs.symm (send_ne_bar j')
  · exact absurd hs.symm (recv_ne_bar j')
  · exact absurd hs (send_ne_bar j)
  · have : j = j' := sendSem_inj (SemLoc.dma.inj hs)
    rw [this]
  · exact absurd hs (send_ne_recv j j')
  · exact absurd hs (recv_ne_bar j)
  · exact absurd hs.symm (send_ne_recv j' j)
  · have : j = j' := recvSem_inj (SemLoc.dma.inj hs)
    rw [this]

def ringToks : Finset (GSem nD τ sig × ℕ × Fin 7) := Finset.univ.map ⟨tokOf, tokOf_injective⟩

/-- The launch element: the pipeline's cells and tokens, and the protocol's. -/
def u₀ : UU :=
  (initOf (Pipeline.cells cfgs cellOf_inj) (Pipeline.launchToks cfgs cellOf_inj), initOf ringCells ringToks)

/-- The duty tokens of device c's own cells. -/
def toks (c : Dev nD) : sProp 𝕄 :=
  iprop((bigSep Finset.univ fun d : Fin 7 => dutyTok ER (barCell c) 0 d)
    ∗ (bigSep Finset.univ fun j : Fin 7 => dutyTok ER (sendCell c j) 0 0)
    ∗ (bigSep Finset.univ fun j : Fin 7 => dutyTok ER (recvCell c j) 0 0))

/-- What the launch element deals device c: the round states of its fifteen cells, its positions in them, that each
    is at round 0, and its minted tokens. -/
def G (c : Dev nD) : sProp 𝕄 :=
  iprop((bigSep Finset.univ fun k : Fin 15 => roundState ER (Rd m) (kcell (c, k)) 0)
    ∗ (bigSep Finset.univ fun k : Fin 15 => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element funds the pipeline's cells and deals every device its share of the protocol's. -/
theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

end Cert.KernelIdeal.Hand

end
-- ==== Proof.KGhost.lean ====
/-
  From the launch's dealing to what each device's body starts from: the own semaphores are the fourteen DMA cells
  and the one unscoped semaphore the barrier cell; every cell's invariant is allocated for all devices at once;
  each minted token goes to the device that pays its duty.
-/
import proofs.«900349_g7700000000000350_dist_diff_adaln_cshard_i_b4_s256_c128_v7x_i8_bf16_1_alg».proof.Proof.Gen.KernelIdeal.Frame
import proofs.«900349_g7700000000000350_dist_diff_adaln_cshard_i_b4_s256_c128_v7x_i8_bf16_1_alg».proof.Proof.Gen.KernelIdeal.Skeleton
import proofs.«900349_g7700000000000350_dist_diff_adaln_cshard_i_b4_s256_c128_v7x_i8_bf16_1_alg».proof.Proof.KProtoD
import proofs.«900349_g7700000000000350_dist_diff_adaln_cshard_i_b4_s256_c128_v7x_i8_bf16_1_alg».proof.Proof.KGhostA
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The fifteen cells of a device as barrier, seven send, seven receive -/

def e15 : Fin 1 ⊕ (Fin 7 ⊕ Fin 7) ≃ Fin 15 :=
  (Equiv.sumCongr (Equiv.refl (Fin 1)) (finSumFinEquiv : Fin 7 ⊕ Fin 7 ≃ Fin 14)).trans (finSumFinEquiv : Fin 1 ⊕ Fin 14 ≃ Fin 15)
theorem e15_b : e15 (.inl 0) = 0 := by decide
theorem e15_s (j : Fin 7) : e15 (.inr (.inl j)) = sIdx j := by revert j; decide
theorem e15_r (j : Fin 7) : e15 (.inr (.inr j)) = rIdx j := by revert j; decide

omit [FloatOps F] in
theorem bigSep_fin15 (Φ : Fin 15 → sProp 𝕄) :
    bigSep Finset.univ Φ = iprop(Φ 0 ∗ (bigSep Finset.univ fun j : Fin 7 => Φ (sIdx j)) ∗ (bigSep Finset.univ fun j : Fin 7 => Φ (rIdx j))) := by
  rw [bigSep_univ_equiv e15 Φ, bigSep_univ_sum, bigSep_univ_sum, bigSep_univ_of_subsingleton (0 : Fin 1)]
  simp only [e15_b, e15_s, e15_r]
  rfl

theorem kcell_s (c : Dev nD) (j : Fin 7) : kcell (c, sIdx j) = sendCell c j := congrArg (Prod.mk (c : Thread nD τ)) (csem_s j)
theorem kcell_r (c : Dev nD) (j : Fin 7) : kcell (c, rIdx j) = recvCell c j := congrArg (Prod.mk (c : Thread nD τ)) (csem_r j)

omit [FloatOps F] in
/-- Anything said of a device's fifteen cells, said of its barrier cell, its send cells and its receive cells. -/
theorem cells15 (c : Dev nD) (Ψ : GSem nD τ sig → sProp 𝕄) :
    (bigSep Finset.univ fun k : Fin 15 => Ψ (kcell (c, k)))
      = iprop(Ψ (barCell c) ∗ (bigSep Finset.univ fun j : Fin 7 => Ψ (sendCell c j)) ∗ (bigSep Finset.univ fun j : Fin 7 => Ψ (recvCell c j))) := by
  rw [bigSep_fin15]
  simp only [kcell_s, kcell_r]
  rfl

/-! ## The semaphores the launch hands over -/

theorem osem_s (j : Fin 7) : osem ((finSumFinEquiv : Fin 7 ⊕ Fin 7 ≃ Fin 14) (.inl j)) = .dma (sendSem j) := by revert j; decide
theorem osem_r (j : Fin 7) : osem ((finSumFinEquiv : Fin 7 ⊕ Fin 7 ≃ Fin 14) (.inr j)) = .dma (recvSem j) := by revert j; decide

omit [FloatOps F] in
/-- The kernel's own semaphores are the seven send and the seven receive semaphores; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ (bigSep Finset.univ fun j : Fin 7 => semVal (recvCell c j) 0)) := by
  unfold Pipeline.ownSems0
  rw [bigSep_univ_equiv (finSumFinEquiv : Fin 7 ⊕ Fin 7 ≃ Fin 14), bigSep_univ_sum]
  simp only [osem_s, osem_r]
  rfl

omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, cells15 c (fun g => semVal g 0)]
  iintro ⟨⟨HS, HV⟩, HB⟩
  isplitl [HB]; · iexact HB
  isplitl [HS] <;> iassumption

/-- Every cell of device c gets its invariant: its counter at zero and its round state at zero go in. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens to their payers -/

/-- Duty d of device c's cells is paid by src c d; read the other way, device p pays duty k at peer p k. -/
def deal : Dev nD × Fin 7 ≃ Dev nD × Fin 7 where
  toFun pk := (peer pk.1 pk.2, pk.2)
  invFun cd := (src cd.1 cd.2, cd.2)
  left_inv pk := Prod.ext (src_peer pk.1 pk.2) rfl
  right_inv cd := Prod.ext (peer_src cd.1 cd.2) rfl

omit [FloatOps F] in
theorem deal_around (T : Dev nD → Fin 7 → sProp 𝕄) :
    (bigSep Finset.univ fun c : Dev nD => bigSep Finset.univ fun d : Fin 7 => T c d)
      = bigSep Finset.univ fun p : Dev nD => bigSep Finset.univ fun k : Fin 7 => T (peer p k) k :=
  calc (bigSep Finset.univ fun c : Dev nD => bigSep Finset.univ fun d : Fin 7 => T c d)
      = bigSep Finset.univ (fun cd : Dev nD × Fin 7 => T cd.1 cd.2) := (bigSep_univ_prod (fun cd : Dev nD × Fin 7 => T cd.1 cd.2)).symm
    _ = bigSep Finset.univ (fun pk : Dev nD × Fin 7 => T (deal pk).1 (deal pk).2) := bigSep_univ_equiv deal (fun cd : Dev nD × Fin 7 => T cd.1 cd.2)
    _ = _ := bigSep_univ_prod (fun pk : Dev nD × Fin 7 => T (deal pk).1 (deal pk).2)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal_around (fun c d => (dutyTok ER (barCell c) 0 d : sProp 𝕄)),
    deal_around (fun c j => (dutyTok ER (recvCell c j) 0 0 : sProp 𝕄))]
  iintro ⟨H1, H2, H3⟩
  isplitl [H1]; · iexact H1
  isplitl [H3]; · iexact H3
  iexact H2

/-! ## The global step -/

/-- What stays with device c: its positions, and the tokens of the duties it pays. -/
def linear (c : Dev nD) : sProp 𝕄 := iprop(positions c ∗ payToks c)

theorem ghost_intro (c : Dev nD) : iprop(records m ∗ linear c) ⊢ ghost m c := by
  unfold linear ghost
  iintro ⟨#HR, HL⟩
  isplitr
  · iapply (needs_of_records m c); iexact HR
  iexact HL

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (ghost m) := by
  rw [bigSep_sep', bigSep_sep', ← bigSep_univ_prod (fun ck : Dev nD × Fin 15 => iprop(∃ κ : ℕ, cellInv ER (Rd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨#HI, ⟨Hat, #HR⟩, Htok⟩
  ihave Htk := (toks_around (F := F)) $$ Htok
  iapply (bigSep_with_persistent (R := records m) fun c _ => ghost_intro m c)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄)) payToks).symm).trans
      (bigSep_mono fun c _ => show _ ⊢ linear c from Entails.of_eq (by unfold linear positions; rw [cells15 c (fun g => atPos ER g 0 ∅ 0)])))
    isplitl [Hat]; · iexact Hat
    iexact Htk

/-- The global step: the own and the unscoped semaphores of every device at once, every cell's invariant allocated,
    the tokens dealt to their payers. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

end Cert.KernelIdeal.Hand

end
-- ==== Proof.KCredit.lean ====
/-
  The launch credit of the ring protocol: what each device owes each barrier and receive cell at
  launch, summed over the eight devices — seven units on a device's barrier cell (one from every
  other device) and one block's credit on each of its seven receive cells (from the device the
  same number of places before it) — and the level evidence for the pipeline's own staging waits.
-/
import proofs.«900349_g7700000000000350_dist_diff_adaln_cshard_i_b4_s256_c128_v7x_i8_bf16_1_alg».proof.Proof.Gen.KernelIdeal.Frame
import proofs.«900349_g7700000000000350_dist_diff_adaln_cshard_i_b4_s256_c128_v7x_i8_bf16_1_alg».proof.Proof.Gen.KernelIdeal.Skeleton
import proofs.«900349_g7700000000000350_dist_diff_adaln_cshard_i_b4_s256_c128_v7x_i8_bf16_1_alg».proof.Proof.KProtoD
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which cell is which -/

omit [FloatOps F] in
theorem bar_eq_iff {a b : Dev nD} : barCell a = barCell b ↔ a = b :=
  ⟨fun h => Fin.ext (congrArg (fun g : GSem nD τ sig => g.1.1.val) h), fun h => h ▸ rfl⟩

omit [FloatOps F] in
theorem recv_eq_iff {a b : Dev nD} {j j' : Fin 7} : recvCell a j = recvCell b j' ↔ a = b ∧ j = j' :=
  ⟨fun h => ⟨Fin.ext (congrArg (fun g : GSem nD τ sig => g.1.1.val) h), recvSem_inj (SemLoc.dma.inj (congrArg Prod.snd h))⟩,
    fun h => h.1 ▸ h.2 ▸ rfl⟩

omit [FloatOps F] in
theorem bar_ne_recv (c d : Dev nD) (j : Fin 7) : barCell c ≠ recvCell d j :=
  fun h => recv_ne_bar j (congrArg Prod.snd h).symm

/-! ## What a device owes a cell at launch -/

omit [FloatOps F] in
/-- What is owed at launch, cell by cell: the seven copies' credits and the seven signals' units. -/
theorem O₀_apply (d : Dev nD) (g : GSem nD τ sig) (u : Unit) :
    O₀ d g u = (∑ k : Fin 7, rT d k g u) + ∑ k : Fin 7, bT d k g u := by
  rw [Fin.sum_univ_seven, Fin.sum_univ_seven]
  show (0 + rT d 6 + rT d 5 + rT d 4 + rT d 3 + rT d 2 + rT d 1 + rT d 0
    + bT d 6 + bT d 5 + bT d 4 + bT d 3 + bT d 2 + bT d 1 + bT d 0 : CellTallies nD τ sig Unit) g u = _
  simp only [Pi.add_apply, Finsupp.add_apply, Pi.zero_apply, Finsupp.coe_zero]
  omega

/-- Among the seven peers of d at most one is c. -/
theorem sum_peer_eq (d c : Dev nD) :
    (∑ k : Fin 7, if peer d k = c then 1 else 0) = if ∃ k : Fin 7, peer d k = c then 1 else 0 := by
  revert d c; decide

/-- Every device is a peer of exactly seven. -/
theorem sum_dev_peer (c : Dev nD) : (∑ d : Dev nD, if ∃ k : Fin 7, peer d k = c then 1 else 0) = 7 := by
  revert c; decide

omit [FloatOps F] in
/-- Device d owes c's barrier cell one unit when c is one of its seven peers — every device but d itself — and nothing otherwise. -/
theorem owed_bar (d c : Dev nD) : O₀ d (barCell c) () = if ∃ k : Fin 7, peer d k = c then 1 else 0 := by
  rw [O₀_apply]
  have hr : ∀ k : Fin 7, rT d k (barCell c) () = 0 := fun k => by
    unfold rT; rw [tallyAt_apply, if_neg fun h => bar_ne_recv c _ _ h.1]
  have hb : ∀ k : Fin 7, bT d k (barCell c) () = if peer d k = c then 1 else 0 := fun k => by
    unfold bT; rw [tallyAt_apply]
    by_cases h : peer d k = c
    · rw [if_pos h, if_pos ⟨by rw [h], rfl⟩]
    · rw [if_neg h, if_neg fun h1 => h (bar_eq_iff.mp h1.1).symm]
  rw [Finset.sum_congr rfl fun k _ => hr k, Finset.sum_congr rfl fun k _ => hb k, Finset.sum_const_zero, Nat.zero_add]
  exact sum_peer_eq d c

omit [FloatOps F] in
/-- Device d owes c's receive cell j the block's credit when c is its peer at offset j, and nothing otherwise. -/
theorem owed_recv (d c : Dev nD) (j : Fin 7) : O₀ d (recvCell c j) () = if peer d j = c then N else 0 := by
  rw [O₀_apply]
  have hb : ∀ k : Fin 7, bT d k (recvCell c j) () = 0 := fun k => by
    unfold bT; rw [tallyAt_apply, if_neg fun h => bar_ne_recv _ c j h.1.symm]
  have hr : ∀ k : Fin 7, rT d k (recvCell c j) () = if k = j then (if peer d j = c then N else 0) else 0 := fun k => by
    unfold rT; rw [tallyAt_apply]
    by_cases hk : k = j
    · subst hk; rw [if_pos rfl]
      by_cases h : peer d k = c
      · rw [if_pos h, if_pos ⟨by rw [h], rfl⟩]
      · rw [if_neg h, if_neg fun h1 => h (recv_eq_iff.mp h1.1).1.symm]
    · rw [if_neg hk, if_neg fun h1 => hk (recv_eq_iff.mp h1.1).2.symm]
  rw [Finset.sum_congr rfl fun k _ => hr k, Finset.sum_congr rfl fun k _ => hb k, Finset.sum_const_zero, Nat.add_zero,
    Finset.sum_ite_eq' Finset.univ j, if_pos (Finset.mem_univ _)]

/-! ## The launch credit of a device's cells -/

omit [FloatOps F] in
/-- Seven devices owe a barrier cell one unit each. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  exact sum_dev_peer c

omit [FloatOps F] in
/-- One device, the one j+1 places before c, owes c's receive cell j the block's credit. -/
theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j]
  simp only [peer_eq_iff]
  rw [Finset.sum_ite_eq' Finset.univ (src c j) fun _ => N, if_pos (Finset.mem_univ _)]

omit [FloatOps F] in
/-- Out of a device's launch credit: the seven units of its barrier cell and the block's credit of each receive cell. -/
theorem creds (c : Dev nD) :
    (Pipeline.launchCred O₀ c : sProp 𝕄)
      ⊢ iprop(cred (tallyAt (barCell c) () 7) ∗ bigSep Finset.univ fun j : Fin 7 => cred (tallyAt (recvCell c j) () N)) := by
  unfold Pipeline.launchCred
  rw [bigSep_univ_at _ (SemLoc.reg barS), launch_bar]
  refine sep_mono_right ?_
  refine (bigSep_subset (t := Finset.univ.image fun j : Fin 7 => (SemLoc.dma (recvSem j) : SemLoc sig)) fun sm hsm => ?_).trans ?_
  · obtain ⟨j, -, rfl⟩ := Finset.mem_image.mp hsm
    exact Finset.mem_erase.mpr ⟨recv_ne_bar j, Finset.mem_univ _⟩
  · rw [bigSep_image_of_injOn fun a _ b _ h => recvSem_inj (SemLoc.dma.inj h)]
    refine bigSep_mono fun j _ => ?_
    rw [← launch_recv]
    exact BI.Entails.refl _

/-! ## The pipeline's own waits -/

/-- Every staging cell of the five windows is at level 0, below everything a device owes: before the one grid point
    what it owes at launch, after it nothing. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide +revert) _ (by
      rcases t with ⟨_ | _, ht⟩
      · exact Or.inl ⟨7, rfl⟩
      · exact Or.inr rfl)

end Cert.KernelIdeal.Hand

end
-- ==== Proof.KViews.lean ====
/-
  Layout facts about the two scratch buffers of the protocol, for every float instance: which elements of the
  7×2×4×256 receive buffer slot j is (those whose first coordinate is j), where a write of a 2×4×256 block through
  slot j puts each element ((r, b, s) at (j, r, b, s)), that the seven slots partition the buffer, and that a copy of a
  device's block of partial sums into slot j of its peer leaves there what that peer's buffer is to hold.
-/
import proofs.«900349_g7700000000000350_dist_diff_adaln_cshard_i_b4_s256_c128_v7x_i8_bf16_1_alg».proof.Proof.KProtoB
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The elements of a slot -/

/-- The elements of slot j are those of the rectangle at offset (j, 0, 0, 0) of sizes 1×2×4×256: the squeeze keeps the
    elements, the slice of the whole buffer has the rectangle's. -/
theorem slot_set (j : Fin 7) : ((slot j).view.set : Finset S7x2x4x256.Idx) = (Rect.unit (s := S7x2x4x256) ![j.val, 0, 0, 0] S1x2x4x256.size (inb_slot j)).set := by
  unfold slot
  exact (View.set_reshape _ _).trans (View.set_slice_whole _ _)

/-- An index of the 7×2×4×256 buffer lies in that rectangle exactly when its first coordinate is j. -/
theorem mem_slotRect (j : Fin 7) (i : S7x2x4x256.Idx) :
    i ∈ (Rect.unit (s := S7x2x4x256) ![j.val, 0, 0, 0] S1x2x4x256.size (inb_slot j)).set ↔ (i 0).val = j.val := by
  rw [Rect.mem_set_unit]
  constructor
  · intro h
    have h0 := h 0
    simp only [Matrix.cons_val_zero] at h0
    have : S1x2x4x256.size 0 = 1 := rfl
    omega
  · intro h a
    match a with
    | ⟨0, _⟩ => exact ⟨by show j.val ≤ (i 0).val; omega, by show (i 0).val < j.val + 1; omega⟩
    | ⟨1, _⟩ => exact ⟨Nat.zero_le _, by show (i 1).val < 0 + 2; have : (i 1).val < 2 := (i 1).isLt; omega⟩
    | ⟨2, _⟩ => exact ⟨Nat.zero_le _, by show (i 2).val < 0 + 4; have : (i 2).val < 4 := (i 2).isLt; omega⟩
    | ⟨3, _⟩ => exact ⟨Nat.zero_le _, by show (i 3).val < 0 + 256; have : (i 3).val < 256 := (i 3).isLt; omega⟩

/-- The elements of slot j are the indices of the 7×2×4×256 buffer whose first coordinate is j (indices written at the
    buffer's literal shape). -/
theorem slot_mem' (j : Fin 7) (i : S7x2x4x256.Idx) : i ∈ ((slot j).view.set : Finset S7x2x4x256.Idx) ↔ (i 0).val = j.val := by
  rw [slot_set]; exact mem_slotRect j i

/-- The same, the index written at the location's type. -/
theorem slot_mem (j : Fin 7) (c : Dev nD) (i : Idx ((slot j).view.loc (c : Thread nD τ))) :
    i ∈ ((slot j).view.set : Finset (Idx ((slot j).view.loc (c : Thread nD τ)))) ↔ (i (0 : Fin 4)).val = j.val := slot_mem' j i

/-! ## Where a slot puts an element -/

/-- Slot j places element (r, b, s) of a 2×4×256 block at (j, r, b, s): the squeeze puts the unit axis back at
    coordinate 0, the rectangle adds its offsets (j, 0, 0, 0). -/
theorem slot_emb (j : Fin 7) (r : Fin 2) (b : Fin 4) (s : Fin 256) :
    ((slot j).view.emb (ValueIdx.ix3 r b s) : S7x2x4x256.Idx) = ValueIdx.ix4 (n0 := 7) (n1 := 2) (n2 := 4) (n3 := 256) ⟨j.val, j.isLt⟩ r b s := by
  show (Rect.unit (s := S7x2x4x256) ![j.val, 0, 0, 0] S1x2x4x256.size (inb_slot j)).emb
      (Shape.reshapeEquiv squeezes_S1x2x4x256_S2x4x256.numel_eq (ValueIdx.ix3 r b s)) = _
  rw [ValueIdx.reshapeEquiv_ix3_1abc]
  funext a
  match a with
  | ⟨0, _⟩ => exact Fin.ext (by show j.val + 1 * 0 = j.val; omega)
  | ⟨1, _⟩ => exact Fin.ext (by show 0 + 1 * r.val = r.val; omega)
  | ⟨2, _⟩ => exact Fin.ext (by show 0 + 1 * b.val = b.val; omega)
  | ⟨3, _⟩ => exact Fin.ext (by show 0 + 1 * s.val = s.val; omega)

/-- A write of a whole 2×4×256 block through slot j leaves, at (j, r, b, s), the block's element (r, b, s). -/
theorem slot_write_ix4 (j : Fin 7) (fd : (slot j).view.ty.Contents (Elt F)) (v : S2x4x256.Idx → Elt F .f32)
    (r : Fin 2) (b : Fin 4) (s : Fin 256) :
    (slot j).view.write (Elt F) fd v Finset.univ (ValueIdx.ix4 (n0 := 7) (n1 := 2) (n2 := 4) (n3 := 256) ⟨j.val, j.isLt⟩ r b s)
      = v (ValueIdx.ix3 r b s) := by
  have h := View.write_emb_of_mem (v := (slot j).view) fd v (Finset.mem_univ (ValueIdx.ix3 r b s))
  rw [slot_emb] at h
  exact h

/-- An index of the 7×2×4×256 buffer whose first coordinate is j, by its coordinates. -/
theorem eq_ix4_of_first (j : Fin 7) (i : S7x2x4x256.Idx) (h0 : (i 0).val = j.val) :
    i = ValueIdx.ix4 (n0 := 7) (n1 := 2) (n2 := 4) (n3 := 256) ⟨j.val, j.isLt⟩ (i 1) (i 2) (i 3) := by
  funext a
  match a with
  | ⟨0, _⟩ => exact Fin.ext h0
  | ⟨1, _⟩ => rfl
  | ⟨2, _⟩ => rfl
  | ⟨3, _⟩ => rfl

/-- A write of a whole 2×4×256 block through slot j puts element (r, b, s) at (j, r, b, s), whatever was there. -/
theorem slot_write (j : Fin 7) (c : Dev nD) (fd : Buf (Elt F) ((slot j).view.loc (c : Thread nD τ))) (v : S2x4x256.Idx → Elt F .f32)
    (i : S7x2x4x256.Idx) (hi : i ∈ ((slot j).view.set : Finset S7x2x4x256.Idx)) :
    (slot j).view.write (Elt F) fd v Finset.univ i = v (ValueIdx.ix3 (n0 := 2) (n1 := 4) (n2 := 256) (i 1) (i 2) (i 3)) := by
  have h := slot_write_ix4 j fd v (i 1) (i 2) (i 3)
  rwa [← eq_ix4_of_first j i ((slot_mem' j i).mp hi)] at h

/-- The receive buffer's intended contents at an index whose first coordinate is k: the block of src c k. -/
theorem recvAll_apply (c : Dev nD) (k : Fin 7) (i : S7x2x4x256.Idx) (hk : (i 0).val = k.val) :
    recvAll m c i = sendC m (src c k) (ValueIdx.ix3 (n0 := 2) (n1 := 4) (n2 := 256) (i 1) (i 2) (i 3)) :=
  congrArg (fun q => sendC m (src c q) (ValueIdx.ix3 (n0 := 2) (n1 := 4) (n2 := 256) (i 1) (i 2) (i 3)))
    (Fin.ext hk : (⟨(i 0).val, (i 0).isLt⟩ : Fin 7) = k)

/-- What a copy of device c's block of partial sums into slot j of its peer leaves there is what that peer's receive
    buffer is to hold: slot j of peer c j holds the block of src (peer c j) j = c. -/
theorem landed_congr (c : Dev nD) (j : Fin 7) (fd : Buf (Elt F) ((slot j).view.loc ((peer c j : Dev nD) : Thread nD τ)))
    (i : S7x2x4x256.Idx) (hi : i ∈ ((slot j).view.set : Finset S7x2x4x256.Idx)) :
    (slot j).view.write (Elt F) fd ((sbM : Memref sig .tc .vmem S2x4x256 .f32).view.read (Elt F) (sendC m c)) Finset.univ i
      = recvAll m (peer c j) i := by
  rw [slot_write j (peer c j) fd _ i hi, recvAll_apply m (peer c j) j i ((slot_mem' j i).mp hi), src_peer]
  exact congrFun (View.read_whole (Val := Elt F) cc0_scratch0 (sendC m c)) _

/-! ## The seven slots partition the receive buffer -/

/-- Different slots share no element: an element's first coordinate names its slot. -/
theorem slots_disjoint (c : Dev nD) (j j' : Fin 7) (h : j ≠ j') :
    Disjoint ((slot j).view.set : Finset (Idx ((rbM : Memref sig .tc .vmem S7x2x4x256 .f32).view.loc (c : Thread nD τ))))
      ((slot j').view.set : Finset (Idx ((rbM : Memref sig .tc .vmem S7x2x4x256 .f32).view.loc (c : Thread nD τ)))) :=
  Finset.disjoint_left.mpr fun (i : S7x2x4x256.Idx) hi hi' =>
    h (Fin.ext (((slot_mem' j i).mp hi).symm.trans ((slot_mem' j' i).mp hi')))

/-- Every element of the receive buffer is in the slot its first coordinate names. -/
theorem slots_union (c : Dev nD) :
    (Finset.univ : Finset (Fin 7)).biUnion
        (fun j => ((slot j).view.set : Finset (Idx ((rbM : Memref sig .tc .vmem S7x2x4x256 .f32).view.loc (c : Thread nD τ)))))
      = (rbM : Memref sig .tc .vmem S7x2x4x256 .f32).view.set :=
  Finset.ext fun (i : S7x2x4x256.Idx) =>
    ⟨fun _ => (View.set_whole (sig := sig) cc0_scratch1).symm ▸ Finset.mem_univ i,
     fun _ => Finset.mem_biUnion.mpr ⟨⟨(i 0).val, (i 0).isLt⟩, Finset.mem_univ _, (slot_mem' _ i).mpr rfl⟩⟩

end Cert.KernelIdeal.Hand

end
-- ==== Proof.KSide.lean ====
/-
  The launch theorem's side conditions: what each device's ghost state and launch credit make of its start, how the
  scoped scratch buffers enter and leave the proof data, the receive buffer as its seven slots, what a copy leaves in a
  slot, and what the arrays hold after the run.
-/
import proofs.«900349_g7700000000000350_dist_diff_adaln_cshard_i_b4_s256_c128_v7x_i8_bf16_1_alg».proof.Proof.Gen.KernelIdeal.Frame
import proofs.«900349_g7700000000000350_dist_diff_adaln_cshard_i_b4_s256_c128_v7x_i8_bf16_1_alg».proof.Proof.Gen.KernelIdeal.Skeleton
import proofs.«900349_g7700000000000350_dist_diff_adaln_cshard_i_b4_s256_c128_v7x_i8_bf16_1_alg».proof.Proof.KProtoD
import proofs.«900349_g7700000000000350_dist_diff_adaln_cshard_i_b4_s256_c128_v7x_i8_bf16_1_alg».proof.Proof.KGhost
import proofs.«900349_g7700000000000350_dist_diff_adaln_cshard_i_b4_s256_c128_v7x_i8_bf16_1_alg».proof.Proof.KCredit
import proofs.«900349_g7700000000000350_dist_diff_adaln_cshard_i_b4_s256_c128_v7x_i8_bf16_1_alg».proof.Proof.KViews
import proofs.«900349_g7700000000000350_dist_diff_adaln_cshard_i_b4_s256_c128_v7x_i8_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data's shares -/

theorem share_eq (c : Dev nD) (w : Fin cfg0.W) : (dats m 0 c).share w = fullShare := by unfold Dat.share; split <;> rfl

/-! ## From the global step's ghost state and the launch credit to a device's start -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds (F := F) c) $$ Hcr
  icases Hc with ⟨H7, HN⟩
  imodintro
  unfold start
  isplitl
  · isplitl [HG]; · iexact HG
    isplitl [H7]; · iexact H7
    isplitl [HN]; · iexact HN
    iexact Hlev
  · iempintro

/-! ## The scratch buffers, whole -/

omit [FloatOps F] in
theorem sb_set : (sbM : Memref sig .tc .vmem S2x4x256 .f32).view.set = Finset.univ := View.set_whole _
omit [FloatOps F] in
theorem rb_set : (rbM : Memref sig .tc .vmem S7x2x4x256 .f32).view.set = Finset.univ := View.set_whole _

omit [FloatOps F] in
theorem sbPts_eq (c : Dev nD) (f : Buf (Elt F) ((c : Thread nD τ).loc cc0_scratch0)) :
    sbPts c fullShare f = (((c : Thread nD τ).loc cc0_scratch0) ↦{fullShare} f : sProp 𝕄) := by unfold sbPts; rw [sb_set]
omit [FloatOps F] in
theorem rbPts_eq (c : Dev nD) (f : Buf (Elt F) ((c : Thread nD τ).loc cc0_scratch1)) :
    ((rbM : Memref sig .tc .vmem S7x2x4x256 .f32).view.loc (c : Thread nD τ) ↦[(rbM : Memref sig .tc .vmem S7x2x4x256 .f32).view.set]{fullShare} f : sProp 𝕄)
      = (((c : Thread nD τ).loc cc0_scratch1) ↦{fullShare} f : sProp 𝕄) := by rw [rb_set]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ sbAny rbAny
  iintro ⟨Hs, -, ⟨%f, Hf⟩, ⟨%g, Hg⟩⟩
  isplitl [Hs]; · iexact Hs
  isplitl [Hf]
  · iexists f; rw [sbPts_eq]; iexact Hf
  · iexists g; rw [rbPts_eq]; iexact Hg

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ sbAny rbAny
  iintro ⟨⟨%f, Hf⟩, ⟨%g, Hg⟩, HzS, HzV⟩
  isplitr; · iempintro
  isplitl [HzS HzV]
  · isplitl [HzS] <;> iassumption
  isplitl [Hf]
  · iexists f; rw [← sbPts_eq]; iexact Hf
  · iexists g; rw [← rbPts_eq]; iexact Hg

/-! ## The receive buffer as its seven slots -/

theorem rb_eq (c : Dev nD) (f : Buf (Elt F) ((rbM : Memref sig .tc .vmem S7x2x4x256 .f32).view.loc (c : Thread nD τ))) :
    ((rbM : Memref sig .tc .vmem S7x2x4x256 .f32).view.loc (c : Thread nD τ) ↦[(rbM : Memref sig .tc .vmem S7x2x4x256 .f32).view.set]{fullShare} f : sProp 𝕄)
      = iprop(slotPts c 0 f ∗ slotPts c 1 f ∗ slotPts c 2 f ∗ slotPts c 3 f ∗ slotPts c 4 f ∗ slotPts c 5 f ∗ slotPts c 6 f) := by
  have h := pointsTo_biUnion (Ix := Unit) (Name := ℕ) (U := UU) (Lvl := ℕ) (Val := Elt F) (ℓ := (rbM : Memref sig .tc .vmem S7x2x4x256 .f32).view.loc (c : Thread nD τ)) (q := fullShare) (f := f) (Finset.univ : Finset (Fin 7))
    (fun j => ((slot j).view.set : Finset (Idx ((rbM : Memref sig .tc .vmem S7x2x4x256 .f32).view.loc (c : Thread nD τ)))))
    (fun j _ j' _ hjj => slots_disjoint c j j' hjj)
  rw [slots_union c] at h
  rw [h, bigSep_fin7]
  rfl

theorem rb_split (c : Dev nD) (f : Buf (Elt F) ((rbM : Memref sig .tc .vmem S7x2x4x256 .f32).view.loc (c : Thread nD τ))) :
    ((rbM : Memref sig .tc .vmem S7x2x4x256 .f32).view.loc (c : Thread nD τ) ↦[(rbM : Memref sig .tc .vmem S7x2x4x256 .f32).view.set]{fullShare} f : sProp 𝕄)
      ⊢ iprop(slotPts c 0 f ∗ slotPts c 1 f ∗ slotPts c 2 f ∗ slotPts c 3 f ∗ slotPts c 4 f ∗ slotPts c 5 f ∗ slotPts c 6 f) :=
  Entails.of_eq (rb_eq c f)

theorem rb_join (c : Dev nD) (f : Buf (Elt F) ((rbM : Memref sig .tc .vmem S7x2x4x256 .f32).view.loc (c : Thread nD τ))) :
    iprop(slotPts c 0 f ∗ slotPts c 1 f ∗ slotPts c 2 f ∗ slotPts c 3 f ∗ slotPts c 4 f ∗ slotPts c 5 f ∗ slotPts c 6 f)
      ⊢ ((rbM : Memref sig .tc .vmem S7x2x4x256 .f32).view.loc (c : Thread nD τ) ↦[(rbM : Memref sig .tc .vmem S7x2x4x256 .f32).view.set]{fullShare} f : sProp 𝕄) :=
  Entails.of_eq (rb_eq c f).symm

/-! ## What a copy leaves in a slot -/

/-- Device c's block of partial sums copied into slot k of its peer leaves there what that peer's buffer is to hold. -/
theorem landed (c : Dev nD) (k : Fin 7) (fd : Buf (Elt F) ((slot k).view.loc ((peer c k : Dev nD) : Thread nD τ)))
    (i : Idx ((slot k).view.loc ((peer c k : Dev nD) : Thread nD τ))) (hi : i ∈ (slot k).view.set) :
    (slot k).view.write (Elt F) fd ((sbM : Memref sig .tc .vmem S2x4x256 .f32).view.read (Elt F) (sendC m c)) Finset.univ i = recvAll m (peer c k) i :=
  landed_congr m c k fd i hi

/-! ## The arrays after the run -/

theorem arrAt_in0 (c : Dev nD) : (dats m 0 c).arrAt (0 : Fin 5) cfg0.N = m ((c : Thread nD τ).loc main_arg0) :=
  (dats m 0 c).arrAt_in (0 : Fin 5) rfl _
theorem arrAt_in1 (c : Dev nD) : (dats m 0 c).arrAt (1 : Fin 5) cfg0.N = m ((c : Thread nD τ).loc main_arg1) :=
  (dats m 0 c).arrAt_in (1 : Fin 5) rfl _
theorem arrAt_in2 (c : Dev nD) : (dats m 0 c).arrAt (2 : Fin 5) cfg0.N = m ((c : Thread nD τ).loc main_arg2) :=
  (dats m 0 c).arrAt_in (2 : Fin 5) rfl _
theorem arrAt_in3 (c : Dev nD) : (dats m 0 c).arrAt (3 : Fin 5) cfg0.N = m ((c : Thread nD τ).loc main_arg3) :=
  (dats m 0 c).arrAt_in (3 : Fin 5) rfl _

/-- The result array's one block, the whole array, read back is what the body left in the staging buffer. -/
theorem arrAt_out_read (c : Dev nD) :
    (win0_4.blk t0_0).view.read (Elt F) ((dats m 0 c).arrAt (4 : Fin 5) cfg0.N) = outAt m c := by
  rw [show cfg0.N = (t0_0 : Fin cfg0.N).val + 1 from rfl, (dats m 0 c).arrAt_succ (4 : Fin 5) t0_0, flush0_4, if_pos rfl]
  exact View.read_write_univ _ _

/-- The result array after the run is the kernel's result block. -/
theorem arrAt_out (c : Dev nD) : (dats m 0 c).arrAt (4 : Fin 5) cfg0.N = outAt m c := by
  have hz : (fun a => (win0_4.index t0_0) a * main_v1.ty.shape.size a) = fun _ => 0 :=
    funext fun a => by fin_cases a <;> decide
  have hr := Memref.read_access_unit_zero (Elt F) main_v1 hz (fun a => by fin_cases a <;> decide) ((dats m 0 c).arrAt (4 : Fin 5) cfg0.N)
  exact hr.symm.trans (arrAt_out_read m c)

end Cert.KernelIdeal.Hand

end
-- ==== Proof.KLaunch.lean ====
/-
  The launch: every device's body obligation, the ghost state dealt at launch, and the run of @main on the eight
  devices — every weakly fair execution terminates, nothing faults, each device's result array ends at the body's
  arithmetic of its own blocks and its seven peers' partial sums, and the argument arrays end unchanged.
-/
import proofs.«900349_g7700000000000350_dist_diff_adaln_cshard_i_b4_s256_c128_v7x_i8_bf16_1_alg».proof.Proof.Gen.KernelIdeal.Frame
import proofs.«900349_g7700000000000350_dist_diff_adaln_cshard_i_b4_s256_c128_v7x_i8_bf16_1_alg».proof.Proof.Gen.KernelIdeal.Skeleton
import proofs.«900349_g7700000000000350_dist_diff_adaln_cshard_i_b4_s256_c128_v7x_i8_bf16_1_alg».proof.Proof.KBody
import proofs.«900349_g7700000000000350_dist_diff_adaln_cshard_i_b4_s256_c128_v7x_i8_bf16_1_alg».proof.Proof.KSide
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000 in
/-- The library's body obligation on device c. -/
theorem body_obligation (c : Dev nD) : BodyObligation (dats (F := F) m 0 c) (defs₀ (F := F)) 𝒱₀ () Set.univ := fun t => by
  rw [fin_N0 t]
  rw [bigSep_W0, bigSep_W0]
  exact sound_body m c (fun k fd i hi => landed m c k fd i hi) (rb_join c) (rb_split c)

set_option maxRecDepth 8000 in
/-- At the compiled mesh of eight devices, for any float values, from any memory with zero counters: every weakly fair
    execution of @main — the eight kernels handshaking on the runtime's barrier semaphore, then exchanging their
    partial sums — terminates, and every final state has each device's result array at the computed contents and the
    four argument arrays unchanged. -/
theorem run_main : θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := hu₀ m) (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c => ⟨((h c).1 4).trans (arrAt_out m c), ((h c).1 0).trans (arrAt_in0 m c), ((h c).1 1).trans (arrAt_in1 m c),
      ((h c).1 2).trans (arrAt_in2 m c), ((h c).1 3).trans (arrAt_in3 m c)⟩)

end Cert.KernelIdeal.Hand

end
-- ==== Proof.WProtoA.lean ====
/-
  The cross-device protocol of the kernel, as a schedule of rounds.

  Eight devices on a ring of offsets. Device c first signals the barrier semaphore of each of its seven peers
  (peer c k = the device k+1 places after c), then waits for seven units on its own: every peer has entered the
  kernel. It then copies its 2×4×256 block of partial sums into slot k of the receive buffer of peer c k, for
  k = 0..6, each copy crediting its own send semaphore k and the peer's receive semaphore k; it waits for its seven
  receive semaphores (slot k then holds the partial sums of src c k, the device k+1 places before c), computes, and
  finally waits for its seven send semaphores.

  One round per cell. A barrier cell has seven duties of one unit, duty d paid by src c d, who hands over slot
  (6 − d) of ITS receive buffer (the slot c will copy into) and that its receive cell (6 − d) is at round 0.
  A receive cell has one duty (the copy's credit), whose payload is the slot holding the sender's partial sums;
  a send cell one duty, whose payload is a seventh of the read share of the sender's own block of partial sums.
-/
import proofs.«900349_g7700000000000350_dist_diff_adaln_cshard_i_b4_s256_c128_v7x_i8_bf16_1_alg».proof.Proof.Gen.Kernel.Frame
import proofs.«900349_g7700000000000350_dist_diff_adaln_cshard_i_b4_s256_c128_v7x_i8_bf16_1_alg».proof.Proof.Gen.Kernel.Skeleton
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties Unit) and the protocol's (duties Fin 7) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

abbrev 𝒱₀ : Variants := Variants.none

/-! ## The ring of offsets -/

/-- The device k+1 places after c. -/
def peer (c : Dev nD) (k : Fin 7) : Dev nD := ⟨(c.val + 1 + k.val) % 8, Nat.mod_lt _ (by decide)⟩
/-- The device k+1 places before c. -/
def src (c : Dev nD) (k : Fin 7) : Dev nD := ⟨(c.val + 7 - k.val) % 8, Nat.mod_lt _ (by decide)⟩
/-- The complementary offset: k+1 and (6−k)+1 add up to 8. -/
def rev (k : Fin 7) : Fin 7 := ⟨6 - k.val, by omega⟩

theorem peer_src (c : Dev nD) (k : Fin 7) : peer (src c k) k = c := by revert c k; decide
theorem src_peer (c : Dev nD) (k : Fin 7) : src (peer c k) k = c := by revert c k; decide
theorem src_rev (c : Dev nD) (k : Fin 7) : src c (rev k) = peer c k := by revert c k; decide
theorem peer_rev (c : Dev nD) (k : Fin 7) : peer c (rev k) = src c k := by revert c k; decide
theorem peer_peer_rev (c : Dev nD) (k : Fin 7) : peer (peer c k) (rev k) = c := by revert c k; decide
theorem rev_rev (k : Fin 7) : rev (rev k) = k := by revert k; decide
theorem peer_inj (c : Dev nD) : Function.Injective (peer c) := by revert c; decide
theorem src_inj (c : Dev nD) : Function.Injective (src c) := by revert c; decide
theorem peer_eq_iff (c d : Dev nD) (k : Fin 7) : peer d k = c ↔ d = src c k := by revert c d k; decide

/-- The kernel's device_id chains: signal k and copy k both name peer c k. -/
theorem dev1_eq (c : Dev nD) : (⟨k0_dev1 c, k0_dev1_lt c⟩ : Dev nD) = peer c 0 := Fin.ext ((by decide +kernel : ∀ c : Dev nD, k0_dev1 c = (peer c 0).val) c)
theorem dev2_eq (c : Dev nD) : (⟨k0_dev2 c, k0_dev2_lt c⟩ : Dev nD) = peer c 1 := Fin.ext ((by decide +kernel : ∀ c : Dev nD, k0_dev2 c = (peer c 1).val) c)
theorem dev3_eq (c : Dev nD) : (⟨k0_dev3 c, k0_dev3_lt c⟩ : Dev nD) = peer c 2 := Fin.ext ((by decide +kernel : ∀ c : Dev nD, k0_dev3 c = (peer c 2).val) c)
theorem dev4_eq (c : Dev nD) : (⟨k0_dev4 c, k0_dev4_lt c⟩ : Dev nD) = peer c 3 := Fin.ext ((by decide +kernel : ∀ c : Dev nD, k0_dev4 c = (peer c 3).val) c)
theorem dev5_eq (c : Dev nD) : (⟨k0_dev5 c, k0_dev5_lt c⟩ : Dev nD) = peer c 4 := Fin.ext ((by decide +kernel : ∀ c : Dev nD, k0_dev5 c = (peer c 4).val) c)
theorem dev6_eq (c : Dev nD) : (⟨k0_dev6 c, k0_dev6_lt c⟩ : Dev nD) = peer c 5 := Fin.ext ((by decide +kernel : ∀ c : Dev nD, k0_dev6 c = (peer c 5).val) c)
theorem dev7_eq (c : Dev nD) : (⟨k0_dev7 c, k0_dev7_lt c⟩ : Dev nD) = peer c 6 := Fin.ext ((by decide +kernel : ∀ c : Dev nD, k0_dev7 c = (peer c 6).val) c)
theorem dev8_eq (c : Dev nD) : (⟨k0_dev8 c, k0_dev8_lt c⟩ : Dev nD) = peer c 0 := Fin.ext ((by decide +kernel : ∀ c : Dev nD, k0_dev8 c = (peer c 0).val) c)
theorem dev9_eq (c : Dev nD) : (⟨k0_dev9 c, k0_dev9_lt c⟩ : Dev nD) = peer c 1 := Fin.ext ((by decide +kernel : ∀ c : Dev nD, k0_dev9 c = (peer c 1).val) c)
theorem dev10_eq (c : Dev nD) : (⟨k0_dev10 c, k0_dev10_lt c⟩ : Dev nD) = peer c 2 := Fin.ext ((by decide +kernel : ∀ c : Dev nD, k0_dev10 c = (peer c 2).val) c)
theorem dev11_eq (c : Dev nD) : (⟨k0_dev11 c, k0_dev11_lt c⟩ : Dev nD) = peer c 3 := Fin.ext ((by decide +kernel : ∀ c : Dev nD, k0_dev11 c = (peer c 3).val) c)
theorem dev12_eq (c : Dev nD) : (⟨k0_dev12 c, k0_dev12_lt c⟩ : Dev nD) = peer c 4 := Fin.ext ((by decide +kernel : ∀ c : Dev nD, k0_dev12 c = (peer c 4).val) c)
theorem dev13_eq (c : Dev nD) : (⟨k0_dev13 c, k0_dev13_lt c⟩ : Dev nD) = peer c 5 := Fin.ext ((by decide +kernel : ∀ c : Dev nD, k0_dev13 c = (peer c 5).val) c)
theorem dev14_eq (c : Dev nD) : (⟨k0_dev14 c, k0_dev14_lt c⟩ : Dev nD) = peer c 6 := Fin.ext ((by decide +kernel : ∀ c : Dev nD, k0_dev14 c = (peer c 6).val) c)

/-! ## The memrefs and the cells -/

/-- The block of partial sums a device sends (2×4×256) and its receive buffer (7 slots of that shape). -/
abbrev sbM : Memref sig .tc .vmem S2x4x256 .f32 := Memref.whole cc0_scratch0
abbrev rbM : Memref sig .tc .vmem S7x2x4x256 .f32 := Memref.whole cc0_scratch1

theorem inb_sem (j : Fin 7) : ∀ a, (![j.val] : Fin 1 → Nat) a + S1.size a ≤ S7.size a := by revert j; decide
theorem inb_slot (j : Fin 7) : ∀ a, (![j.val, 0, 0, 0] : Fin 4 → Nat) a + S1x2x4x256.size a ≤ S7x2x4x256.size a := by revert j; decide

/-- Slot j of the receive buffer, as the kernel's copies address it. -/
def slot (j : Fin 7) : Memref sig .tc .vmem S2x4x256 .f32 :=
  ((rbM : Memref sig .tc .vmem S7x2x4x256 .f32).slice (Rect.unit (s := S7x2x4x256) ![j.val, 0, 0, 0] S1x2x4x256.size (inb_slot j)) (fun _ => rfl)).squeeze S2x4x256 squeezes_S1x2x4x256_S2x4x256

/-- The send and receive DMA semaphores of offset j. -/
def sendSem (j : Fin 7) : DmaSem sig := ((cc0_scratch2.slice (Rect.unit (s := S7) ![j.val] S1.size (inb_sem j))).squeeze S_ squeezes_S1_S_).sem
def recvSem (j : Fin 7) : DmaSem sig := ((cc0_scratch3.slice (Rect.unit (s := S7) ![j.val] S1.size (inb_sem j))).squeeze S_ squeezes_S1_S_).sem

theorem sendSem_val (j : Fin 7) : (sendSem j).val = 5 + j.val := by revert j; decide
theorem recvSem_val (j : Fin 7) : (recvSem j).val = 12 + j.val := by revert j; decide

/-- The runtime's barrier semaphore of collective id 0 (unscoped). -/
abbrev barS : Sem sig := (SemArray.scalar (sig.barrier 0 rfl) : Sems sig S_).sem

abbrev barCell (c : Dev nD) : GSem nD τ sig := ((c : Thread nD τ), .reg barS)
abbrev sendCell (c : Dev nD) (j : Fin 7) : GSem nD τ sig := ((c : Thread nD τ), .dma (sendSem j))
abbrev recvCell (c : Dev nD) (j : Fin 7) : GSem nD τ sig := ((c : Thread nD τ), .dma (recvSem j))

/-- Which of the protocol's DMA cells a semaphore is: (false, j) the send semaphore j, (true, j) the receive semaphore j. -/
def kindOf : SemLoc sig → Option (Bool × Fin 7)
  | .reg _ => none
  | .dma s => if h : 5 ≤ s.val ∧ s.val < 12 then some (false, ⟨s.val - 5, by omega⟩)
      else if h' : 12 ≤ s.val ∧ s.val < 19 then some (true, ⟨s.val - 12, by omega⟩) else none

theorem kindOf_send (j : Fin 7) : kindOf (.dma (sendSem j)) = some (false, j) := by revert j; decide
theorem kindOf_recv (j : Fin 7) : kindOf (.dma (recvSem j)) = some (true, j) := by revert j; decide
theorem kindOf_bar : kindOf (.reg barS) = none := rfl

theorem send_ne_bar (j : Fin 7) : (SemLoc.dma (sendSem j) : SemLoc sig) ≠ .reg barS := fun h => by cases h
theorem recv_ne_bar (j : Fin 7) : (SemLoc.dma (recvSem j) : SemLoc sig) ≠ .reg barS := fun h => by cases h
theorem sendSem_inj : Function.Injective sendSem := by decide
theorem recvSem_inj : Function.Injective recvSem := by decide
theorem send_ne_recv (j j' : Fin 7) : (SemLoc.dma (sendSem j) : SemLoc sig) ≠ .dma (recvSem j') := by revert j j'; decide

/-- The credit of one copy: the block's size in DMA units (the same for every slot). -/
abbrev N : ℕ := (sbM : Memref sig .tc .vmem S2x4x256 .f32).view.dmaCredit
theorem N_pos : 0 < N := View.dmaCredit_pos _ (by decide)

end Cert.Kernel.Hand

end
-- ==== Proof.WProtoB.lean ====
/-
  The contents the protocol moves, the payloads of its duties, and the schedule with its tables.
-/
import proofs.«900349_g7700000000000350_dist_diff_adaln_cshard_i_b4_s256_c128_v7x_i8_bf16_1_alg».proof.Proof.Gen.Kernel.Frame
import proofs.«900349_g7700000000000350_dist_diff_adaln_cshard_i_b4_s256_c128_v7x_i8_bf16_1_alg».proof.Proof.Gen.Kernel.Skeleton
import proofs.«900349_g7700000000000350_dist_diff_adaln_cshard_i_b4_s256_c128_v7x_i8_bf16_1_alg».proof.Proof.WProtoA
import Idealize.ShloMosaic.Lib.ValueIdx
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

/-- Device c's block of x as its first window stages it, and the value the body loads from it. -/
def x0 (c : Dev nD) : (cc0_stg0_0 : Ref sig .tc).ty.Contents (Elt F) := iblk m c 0 t0_0
def v96 (c : Dev nD) : FVec F S4x256x128 .f32 := k0_pay1 (x0 m c)

/-- The block of partial sums device c sends: row 0 its per-row sums over its 128 channels, row 1 its per-row sums of
    squares (the two stores of the body, over contents that are never read). -/
def sendC (c : Dev nD) : (cc0_scratch0 : Ref sig .tc).ty.Contents (Elt F) :=
  (sbM : Memref sig .tc .vmem S2x4x256 .f32).view.writes (Elt F) (sbM : Memref sig .tc .vmem S2x4x256 .f32).view.junk
    [⟨Rect.unit (s := S2x4x256) ![1, 0, 0] S1x4x256.size inb_S2x4x256_S1x4x256_1_0_0, k0_pay5 (v96 m c)⟩,
     ⟨Rect.unit (s := S2x4x256) ![0, 0, 0] S1x4x256.size inb_S2x4x256_S1x4x256_0_0_0, k0_pay4 (v96 m c)⟩]

/-- What device c's receive buffer holds once its seven copies have landed: slot j the block of src c j. -/
def recvAll (c : Dev nD) : (cc0_scratch1 : Ref sig .tc).ty.Contents (Elt F) :=
  fun i => sendC m (src c ⟨(i 0).val, (i 0).isLt⟩) (Idealize.ShloMosaic.ValueIdx.ix3 (n0 := 2) (n1 := 4) (n2 := 256) (i 1) (i 2) (i 3))

/-! ## The payloads -/

def slotPts (c : Dev nD) (j : Fin 7) (f : Buf (Elt F) ((slot j).view.loc (c : Thread nD τ))) : sProp 𝕄 :=
  (slot j).view.loc (c : Thread nD τ) ↦[(slot j).view.set]{fullShare} f
def sbPts (c : Dev nD) (q : PosShare TreeShare) (f : Buf (Elt F) ((sbM : Memref sig .tc .vmem S2x4x256 .f32).view.loc (c : Thread nD τ))) : sProp 𝕄 :=
  (sbM : Memref sig .tc .vmem S2x4x256 .f32).view.loc (c : Thread nD τ) ↦[(sbM : Memref sig .tc .vmem S2x4x256 .f32).view.set]{q} f

omit [FloatOps F] in
instance slotPts_storable (c : Dev nD) (j : Fin 7) (f) : BI.Storable (upEmb : UEmb _ 𝕄) (slotPts (F := F) c j f) := by unfold slotPts; infer_instance
omit [FloatOps F] in
instance sbPts_storable (c : Dev nD) (q) (f) : BI.Storable (upEmb : UEmb _ 𝕄) (sbPts (F := F) c q f) := by unfold sbPts; infer_instance

/-- What c needs for its copy k: slot k of peer c k's receive buffer, and that peer c k's receive cell k is at round 0. -/
def barGot (c : Dev nD) (k : Fin 7) : sProp 𝕄 :=
  iprop((∃ f, slotPts (peer c k) k f) ∗ reached ER (recvCell (peer c k) k) 0)
/-- Duty d of c's barrier cell is paid by the device 7 − d places after c (d + 1 places before it), peer c (6 − d), who
    hands c what its copy 6 − d needs. -/
def barPay (c : Dev nD) (d : Fin 7) : sProp 𝕄 := barGot c (rev d)
def recvPay (c : Dev nD) (j : Fin 7) : sProp 𝕄 := slotPts c j (recvAll m c)
def sendPay (c : Dev nD) (j : Fin 7) : sProp 𝕄 := sbPts c (Transfers.shareTok fullShare 7 j) (sendC m c)

/-! ## The schedule -/

abbrev IsBar (g : GSem nD τ sig) : Prop := g.1.2 = .tc ∧ g.2 = .reg barS

/-- One round, round 0: a barrier cell has the seven duties of one unit each; a send or receive cell the duty 0 of the
    block's credit. -/
def Rd : Rounds.Schedule (GSem nD τ sig) (Fin 7) 𝕄 where
  duties g r := if r = 0 ∧ g.1.2 = .tc then (if g.2 = .reg barS then Finset.univ else if (kindOf g.2).isSome then {0} else ∅) else ∅
  unitless _ := False
  amount g _ _ := if g.2 = .reg barS then 1 else N
  payload g _ d :=
    if g.2 = .reg barS then barPay g.1.1 d
    else match kindOf g.2 with
      | some (false, j) => sendPay m g.1.1 j
      | some (true, j) => recvPay m g.1.1 j
      | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 7) :
    BI.Storable (upEmb : UEmb _ 𝕄) ((Rd (F := F) m).payload g r d) := by
  show BI.Storable upEmb (if g.2 = .reg barS then barPay g.1.1 d
    else match kindOf g.2 with
      | some (false, j) => sendPay m g.1.1 j
      | some (true, j) => recvPay m g.1.1 j
      | none => iprop(emp))
  unfold barPay barGot recvPay sendPay
  (repeat' split) <;> first | infer_instance | exact slotPts_storable _ _ _

section Sched
variable (c : Dev nD) (j : Fin 7)

theorem duties_bar : (Rd (F := F) m).duties (barCell c) 0 = Finset.univ := by dsimp only [Rd]; rw [if_pos ⟨rfl, rfl⟩, if_pos rfl]
theorem duties_send : (Rd (F := F) m).duties (sendCell c j) 0 = {0} := by
  dsimp only [Rd]; rw [if_pos ⟨rfl, rfl⟩, if_neg (send_ne_bar j), kindOf_send]; rfl
theorem duties_recv : (Rd (F := F) m).duties (recvCell c j) 0 = {0} := by
  dsimp only [Rd]; rw [if_pos ⟨rfl, rfl⟩, if_neg (recv_ne_bar j), kindOf_recv]; rfl
theorem duties_later (g : GSem nD τ sig) : ∀ r, 1 ≤ r → (Rd (F := F) m).duties g r = ∅ :=
  fun r hr => by dsimp only [Rd]; rw [if_neg fun h => by omega]

theorem amount_bar (d : Fin 7) : (Rd (F := F) m).amount (barCell c) 0 d = 1 := by dsimp only [Rd]; exact if_pos rfl
theorem amount_send (d : Fin 7) : (Rd (F := F) m).amount (sendCell c j) 0 d = N := by dsimp only [Rd]; exact if_neg (send_ne_bar j)
theorem amount_recv (d : Fin 7) : (Rd (F := F) m).amount (recvCell c j) 0 d = N := by dsimp only [Rd]; exact if_neg (recv_ne_bar j)

theorem expect_bar : (Rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c j) 0 = N := by
  unfold Schedule.expect Schedule.amountOf; rw [duties_send, Finset.sum_singleton, amount_send]
theorem expect_recv : (Rd (F := F) m).expect (recvCell c j) 0 = N := by
  unfold Schedule.expect Schedule.amountOf; rw [duties_recv, Finset.sum_singleton, amount_recv]

theorem payload_bar (d : Fin 7) : (Rd (F := F) m).payload (barCell c) 0 d = barPay c d := by dsimp only [Rd]; rw [if_pos rfl]
theorem payload_send (d : Fin 7) : (Rd (F := F) m).payload (sendCell c j) 0 d = sendPay m c j := by
  dsimp only [Rd]; rw [if_neg (send_ne_bar j), kindOf_send]
theorem payload_recv (d : Fin 7) : (Rd (F := F) m).payload (recvCell c j) 0 d = recvPay m c j := by
  dsimp only [Rd]; rw [if_neg (recv_ne_bar j), kindOf_recv]

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The rest of the barrier cell's round, no duty taken: the seven peers' payloads. -/
theorem rest_bar : bigSep ((Rd (F := F) m).duties (barCell c) 0 \ ∅) (fun d => (Rd (F := F) m).payload (barCell c) 0 d)
    = iprop(barPay c 0 ∗ barPay c 1 ∗ barPay c 2 ∗ barPay c 3 ∗ barPay c 4 ∗ barPay c 5 ∗ barPay c 6) := by
  rw [Finset.sdiff_empty, duties_bar, bigSep_fin7]
  simp only [payload_bar]
theorem rest_send : bigSep ((Rd (F := F) m).duties (sendCell c j) 0 \ ∅) (fun d => (Rd (F := F) m).payload (sendCell c j) 0 d) = sendPay m c j := by
  rw [Finset.sdiff_empty, duties_send, bigSep_singleton, payload_send]
theorem rest_recv : bigSep ((Rd (F := F) m).duties (recvCell c j) 0 \ ∅) (fun d => (Rd (F := F) m).payload (recvCell c j) 0 d) = recvPay m c j := by
  rw [Finset.sdiff_empty, duties_recv, bigSep_singleton, payload_recv]

end Sched

end Cert.Kernel.Hand

end
-- ==== Proof.WProtoC.lean ====
/-
  What each device owes at launch and the levels that order its waits; the ghost state a device's body starts from;
  the pipeline's proof data.
-/
import proofs.«900349_g7700000000000350_dist_diff_adaln_cshard_i_b4_s256_c128_v7x_i8_bf16_1_alg».proof.Proof.Gen.Kernel.Frame
import proofs.«900349_g7700000000000350_dist_diff_adaln_cshard_i_b4_s256_c128_v7x_i8_bf16_1_alg».proof.Proof.Gen.Kernel.Skeleton
import proofs.«900349_g7700000000000350_dist_diff_adaln_cshard_i_b4_s256_c128_v7x_i8_bf16_1_alg».proof.Proof.WProtoB
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes -/

/-- The credit of copy k (to peer c k's receive cell k) and the unit of signal k (to peer c k's barrier cell). -/
def rT (c : Dev nD) (k : Fin 7) : CellTallies nD τ sig Unit := tallyAt (recvCell (peer c k) k) () N
def bT (c : Dev nD) (k : Fin 7) : CellTallies nD τ sig Unit := tallyAt (barCell (peer c k)) () 1

/-- With the last n copies still to issue (copies 7−n … 6), -/
def OR (c : Dev nD) : ℕ → CellTallies nD τ sig Unit
  | 0 => 0
  | n + 1 => OR c n + rT c ⟨6 - n, by omega⟩
/-- and with all seven copies and the last n signals still to issue. -/
def OB (c : Dev nD) : ℕ → CellTallies nD τ sig Unit
  | 0 => OR c 7
  | n + 1 => OB c n + bT c ⟨6 - n, by omega⟩

/-- At launch: seven signals, then seven copies. -/
def O₀ (c : Dev nD) : CellTallies nD τ sig Unit := OB c 7

theorem OR_pos {c : Dev nD} {n : ℕ} {g : GSem nD τ sig} {u : Unit} (h : 0 < OR c n g u) : ∃ k : Fin 7, g = recvCell (peer c k) k := by
  induction n with
  | zero => exact absurd h (Nat.lt_irrefl 0)
  | succ n ih =>
    unfold OR at h
    rw [Pi.add_apply, Finsupp.add_apply] at h
    rcases Nat.add_pos_iff_pos_or_pos.mp h with h | h
    · exact ih h
    · unfold rT at h; rw [tallyAt_apply] at h
      by_cases hg : g = recvCell (peer c ⟨6 - n, by omega⟩) ⟨6 - n, by omega⟩ ∧ u = ()
      · exact ⟨_, hg.1⟩
      · rw [if_neg hg] at h; exact absurd h (Nat.lt_irrefl 0)

theorem OB_pos {c : Dev nD} {n : ℕ} {g : GSem nD τ sig} {u : Unit} (h : 0 < OB c n g u) :
    (∃ k : Fin 7, g = recvCell (peer c k) k) ∨ (∃ k : Fin 7, g = barCell (peer c k)) := by
  induction n with
  | zero => exact Or.inl (OR_pos h)
  | succ n ih =>
    unfold OB at h
    rw [Pi.add_apply, Finsupp.add_apply] at h
    rcases Nat.add_pos_iff_pos_or_pos.mp h with h | h
    · exact ih h
    · unfold bT at h; rw [tallyAt_apply] at h
      by_cases hg : g = barCell (peer c ⟨6 - n, by omega⟩) ∧ u = ()
      · exact Or.inr ⟨_, hg.1⟩
      · rw [if_neg hg] at h; exact absurd h (Nat.lt_irrefl 0)

/-! ## The levels -/

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else match kindOf g.2 with | some (true, _) => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by dsimp only [lv]; rw [if_pos rfl]
theorem lv_recv (c : Dev nD) (j : Fin 7) (u : Unit) : lv (recvCell c j) u = 2 := by dsimp only [lv]; rw [if_neg (recv_ne_bar j), kindOf_recv]
theorem lv_send (c : Dev nD) (j : Fin 7) (u : Unit) : lv (sendCell c j) u = 0 := by dsimp only [lv]; rw [if_neg (send_ne_bar j), kindOf_send]

omit [FloatOps F] in
/-- A wait on a cell of level 0 (a staging cell, a send cell) while owing what is owed at launch, or nothing. -/
theorem mayWait_low (c : Dev nD) (sm : SemLoc sig) (hsm : lv ((c : Thread nD τ), sm) () = 0) (O : CellTallies nD τ sig Unit) (hO : (∃ n, O = OB c n) ∨ O = 0) :
    (levAts L lv : sProp 𝕄) ⊢ MayWait (c : Thread nD τ) sm () O := by
  rcases hO with ⟨n, rfl⟩ | rfl
  · refine MayOwe.of_cut (L := L) (lev := lv) 0 (fun p hp => by rw [Finset.mem_singleton.mp hp, L_tc]; exact Finset.mem_singleton_self _)
      (fun g u hg => by rcases OB_pos hg with ⟨k, rfl⟩ | ⟨k, rfl⟩ <;> exact Finset.mem_singleton_self _)
      (fun p hp => by rw [Finset.mem_singleton.mp hp]; exact le_of_eq hsm)
      (fun g u hg => by
        rcases OB_pos hg with ⟨k, rfl⟩ | ⟨k, rfl⟩
        · rw [lv_recv]; decide
        · rw [lv_bar]; decide)
  · rw [MayWait_zero]; iintro -; iempintro

omit [FloatOps F] in
/-- At its barrier wait a device owes its seven copies' credits only: receive cells, above its barrier cell. -/
theorem mayWait_bar (c : Dev nD) :
    (levAts L lv : sProp 𝕄) ⊢ MayWait (c : Thread nD τ) (.reg barS) () (OR c 7) :=
  MayOwe.of_cut (L := L) (lev := lv) 1 (fun p hp => by rw [Finset.mem_singleton.mp hp, L_tc]; exact Finset.mem_singleton_self _)
    (fun g u hg => by obtain ⟨k, rfl⟩ := OR_pos hg; exact Finset.mem_singleton_self _)
    (fun p hp => by rw [Finset.mem_singleton.mp hp]; exact le_of_eq (lv_bar c ()))
    (fun g u hg => by obtain ⟨k, rfl⟩ := OR_pos hg; rw [lv_recv]; decide)

end Cert.Kernel.Hand

end
-- ==== Proof.WProtoD.lean ====
/-
  The protocol's cells listed per device, the persistent records every device holds of them, the ghost state a device's
  body starts from, and the pipeline's proof data: what each window's staging buffer holds after the body.
-/
import proofs.«900349_g7700000000000350_dist_diff_adaln_cshard_i_b4_s256_c128_v7x_i8_bf16_1_alg».proof.Proof.Gen.Kernel.Frame
import proofs.«900349_g7700000000000350_dist_diff_adaln_cshard_i_b4_s256_c128_v7x_i8_bf16_1_alg».proof.Proof.Gen.Kernel.Skeleton
import proofs.«900349_g7700000000000350_dist_diff_adaln_cshard_i_b4_s256_c128_v7x_i8_bf16_1_alg».proof.Proof.WProtoC
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The fifteen cells of a device -/

/-- Cell 0 the barrier, cells 1–7 the send semaphores, cells 8–14 the receive semaphores. -/
def csem (i : Fin 15) : SemLoc sig :=
  if h0 : i.val = 0 then .reg barS
  else if h : i.val ≤ 7 then .dma (sendSem ⟨i.val - 1, by omega⟩) else .dma (recvSem ⟨i.val - 8, by omega⟩)
abbrev kcell (ck : Dev nD × Fin 15) : GSem nD τ sig := ((ck.1 : Thread nD τ), csem ck.2)
def sIdx (j : Fin 7) : Fin 15 := ⟨j.val + 1, by omega⟩
def rIdx (j : Fin 7) : Fin 15 := ⟨j.val + 8, by omega⟩

theorem csem_b : csem 0 = .reg barS := rfl
theorem csem_s (j : Fin 7) : csem (sIdx j) = .dma (sendSem j) := by revert j; decide
theorem csem_r (j : Fin 7) : csem (rIdx j) = .dma (recvSem j) := by revert j; decide
theorem csem_injective : Function.Injective csem := by decide

theorem kcell_injective : Function.Injective (kcell : Dev nD × Fin 15 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The kernel's OWN (scoped) semaphores, as the launch theorem indexes them: the seven send, then the seven receive. -/
def osem (i : Fin 14) : SemLoc sig :=
  if h : i.val < 7 then .dma (sendSem ⟨i.val, h⟩) else .dma (recvSem ⟨i.val - 7, by omega⟩)

/-! ## The records: every cell's invariant, and that every cell is at round 0 -/

def records : sProp 𝕄 :=
  iprop((bigSep Finset.univ fun ck : Dev nD × Fin 15 => iprop(∃ κ : ℕ, cellInv ER (Rd m) κ (kcell ck)))
    ∗ bigSep Finset.univ fun ck : Dev nD × Fin 15 => reached ER (kcell ck) 0)

instance records_persistent : BI.Persistent (records m) := by unfold records; infer_instance

theorem inv_at (ck : Dev nD × Fin 15) :
    (bigSep Finset.univ fun ck : Dev nD × Fin 15 => (iprop(∃ κ : ℕ, cellInv ER (Rd m) κ (kcell ck)) : sProp 𝕄)) ⊢ iprop(∃ κ : ℕ, cellInv ER (Rd m) κ (kcell ck)) :=
  bigSep_elim (Finset.mem_univ ck)
omit [FloatOps F] in
theorem reached_at (ck : Dev nD × Fin 15) :
    (bigSep Finset.univ fun ck : Dev nD × Fin 15 => (reached ER (kcell ck) 0 : sProp 𝕄)) ⊢ reached ER (kcell ck) 0 :=
  bigSep_elim (Finset.mem_univ ck)

theorem inv_cell (ck : Dev nD × Fin 15) : records m ⊢ iprop(∃ κ : ℕ, cellInv ER (Rd m) κ (kcell ck)) := by
  unfold records; iintro ⟨H, -⟩; iapply (inv_at m ck); iexact H
theorem reached_cell (ck : Dev nD × Fin 15) : records m ⊢ reached ER (kcell ck) 0 := by
  unfold records; iintro ⟨-, H⟩; iapply (reached_at (F := F) ck); iexact H

theorem inv_bar (c : Dev nD) : records m ⊢ iprop(∃ κ : ℕ, cellInv ER (Rd m) κ (barCell c)) := inv_cell m (c, 0)
theorem inv_send (c : Dev nD) (j : Fin 7) : records m ⊢ iprop(∃ κ : ℕ, cellInv ER (Rd m) κ (sendCell c j)) := by
  have := inv_cell m (c, sIdx j); unfold kcell at this; rw [csem_s] at this; exact this
theorem inv_recv (c : Dev nD) (j : Fin 7) : records m ⊢ iprop(∃ κ : ℕ, cellInv ER (Rd m) κ (recvCell c j)) := by
  have := inv_cell m (c, rIdx j); unfold kcell at this; rw [csem_r] at this; exact this
theorem reached_bar (c : Dev nD) : records m ⊢ reached ER (barCell c) 0 := reached_cell m (c, 0)
theorem reached_send (c : Dev nD) (j : Fin 7) : records m ⊢ reached ER (sendCell c j) 0 := by
  have := reached_cell m (c, sIdx j); unfold kcell at this; rw [csem_s] at this; exact this
theorem reached_recv (c : Dev nD) (j : Fin 7) : records m ⊢ reached ER (recvCell c j) 0 := by
  have := reached_cell m (c, rIdx j); unfold kcell at this; rw [csem_r] at this; exact this

omit [FloatOps F] in
theorem bigSep_of_persistent_all {I : Type} [DecidableEq I] [Fintype I] {R : sProp 𝕄} [BI.Persistent R] {Φ : I → sProp 𝕄}
    (h : ∀ i, R ⊢ Φ i) : R ⊢ bigSep Finset.univ Φ :=
  (BI.bigSep_of_persistent Finset.univ R).trans (bigSep_mono fun i _ => h i)

/-- The persistent facts device c's body uses: the invariants of its own fifteen cells and of the cells it pays into,
    and that the cells it pays into, and its own DMA cells, are at round 0. -/
def needs (c : Dev nD) : sProp 𝕄 :=
  iprop((∃ κ : ℕ, cellInv ER (Rd m) κ (barCell c))
    ∗ (bigSep Finset.univ fun j : Fin 7 => iprop(∃ κ : ℕ, cellInv ER (Rd m) κ (sendCell c j)))
    ∗ (bigSep Finset.univ fun j : Fin 7 => iprop(∃ κ : ℕ, cellInv ER (Rd m) κ (recvCell c j)))
    ∗ (bigSep Finset.univ fun k : Fin 7 => iprop(∃ κ : ℕ, cellInv ER (Rd m) κ (barCell (peer c k))))
    ∗ (bigSep Finset.univ fun k : Fin 7 => iprop(∃ κ : ℕ, cellInv ER (Rd m) κ (recvCell (peer c k) k)))
    ∗ (bigSep Finset.univ fun k : Fin 7 => reached ER (barCell (peer c k)) 0)
    ∗ (bigSep Finset.univ fun k : Fin 7 => reached ER (recvCell (peer c k) k) 0)
    ∗ (bigSep Finset.univ fun j : Fin 7 => reached ER (sendCell c j) 0)
    ∗ (bigSep Finset.univ fun j : Fin 7 => reached ER (recvCell c j) 0))

instance needs_persistent (c : Dev nD) : BI.Persistent (needs m c) := by unfold needs; infer_instance

theorem needs_of_records (c : Dev nD) : records m ⊢ needs m c := by
  unfold needs
  iintro #H
  isplitr; · iapply (inv_bar m c); iexact H
  isplitr; · iapply (bigSep_of_persistent_all (R := records m) fun j => inv_send m c j); iexact H
  isplitr; · iapply (bigSep_of_persistent_all (R := records m) fun j => inv_recv m c j); iexact H
  isplitr; · iapply (bigSep_of_persistent_all (R := records m) fun k => inv_bar m (peer c k)); iexact H
  isplitr; · iapply (bigSep_of_persistent_all (R := records m) fun k => inv_recv m (peer c k) k); iexact H
  isplitr; · iapply (bigSep_of_persistent_all (R := records m) fun k => reached_bar m (peer c k)); iexact H
  isplitr; · iapply (bigSep_of_persistent_all (R := records m) fun k => reached_recv m (peer c k) k); iexact H
  isplitr; · iapply (bigSep_of_persistent_all (R := records m) fun j => reached_send m c j); iexact H
  iapply (bigSep_of_persistent_all (R := records m) fun j => reached_recv m c j); iexact H

/-! ## What a device's body starts from -/

/-- The tokens of the duties device c pays: signal k and copy k at peer c k, and its own seven send duties. -/
def payToks (c : Dev nD) : sProp 𝕄 :=
  iprop((bigSep Finset.univ fun k : Fin 7 => dutyTok ER (barCell (peer c k)) 0 k)
    ∗ (bigSep Finset.univ fun k : Fin 7 => dutyTok ER (recvCell (peer c k) k) 0 0)
    ∗ (bigSep Finset.univ fun j : Fin 7 => dutyTok ER (sendCell c j) 0 0))
/-- Its positions at round 0 of its own fifteen cells. -/
def positions (c : Dev nD) : sProp 𝕄 :=
  iprop(atPos ER (barCell c) 0 ∅ 0
    ∗ (bigSep Finset.univ fun j : Fin 7 => atPos ER (sendCell c j) 0 ∅ 0)
    ∗ (bigSep Finset.univ fun j : Fin 7 => atPos ER (recvCell c j) 0 ∅ 0))
def ghost (c : Dev nD) : sProp 𝕄 := iprop(needs m c ∗ positions c ∗ payToks c)

/-- With the credit its peers owe it — seven barrier units, one block's credit on each receive cell — and the levels. -/
def start (c : Dev nD) : sProp 𝕄 :=
  iprop(ghost m c ∗ cred (tallyAt (barCell c) () 7) ∗ (bigSep Finset.univ fun j : Fin 7 => cred (tallyAt (recvCell c j) () N)) ∗ levAts L lv)

/-- The two scratch buffers at some contents. -/
def sbAny (c : Dev nD) : sProp 𝕄 := iprop(∃ f, sbPts c fullShare f)
def rbAny (c : Dev nD) : sProp 𝕄 :=
  iprop(∃ f, (rbM : Memref sig .tc .vmem S7x2x4x256 .f32).view.loc (c : Thread nD τ) ↦[(rbM : Memref sig .tc .vmem S7x2x4x256 .f32).view.set]{fullShare} f)

def Φ₀ (c : Dev nD) : sProp 𝕄 := iprop(start m c ∗ sbAny c ∗ rbAny c)
/-- After the point: the scratch buffers back whole, the fourteen own cells at zero, closed. -/
def Φ₁ (c : Dev nD) : sProp 𝕄 :=
  iprop(sbAny c ∗ rbAny c ∗ (bigSep Finset.univ fun j : Fin 7 => semVal (sendCell c j) 0) ∗ (bigSep Finset.univ fun j : Fin 7 => semVal (recvCell c j) 0))

/-! ## The result, and the proof data -/

/-- The staged blocks of t_emb, W_scale, W_shift on device c. -/
def t0v (c : Dev nD) : (cc0_stg1_0 : Ref sig .tc).ty.Contents (Elt F) := iblk m c 1 t0_0
def ws0 (c : Dev nD) : (cc0_stg2_0 : Ref sig .tc).ty.Contents (Elt F) := iblk m c 2 t0_0
def wsh0 (c : Dev nD) : (cc0_stg3_0 : Ref sig .tc).ty.Contents (Elt F) := iblk m c 3 t0_0

/-- The two loads of the receive buffer once every slot has landed: the seven peers' row sums, and their sums of squares. -/
def R0 (c : Dev nD) : Vec F S7x1x4x256 .f32 :=
  (rbM : Memref sig .tc .vmem S7x2x4x256 .f32).view.readAt (Elt F) (Rect.unit (s := S7x2x4x256) ![0, 0, 0, 0] S7x1x4x256.size inb_S7x2x4x256_S7x1x4x256_0_0_0_0).toLoadRect (recvAll m c)
def R1 (c : Dev nD) : Vec F S7x1x4x256 .f32 :=
  (rbM : Memref sig .tc .vmem S7x2x4x256 .f32).view.readAt (Elt F) (Rect.unit (s := S7x2x4x256) ![0, 1, 0, 0] S7x1x4x256.size inb_S7x2x4x256_S7x1x4x256_0_1_0_0).toLoadRect (recvAll m c)

/-- The kernel's result block on device c: the body's arithmetic of its own blocks and the seven peers' partial sums. -/
def outAt (c : Dev nD) : (cc0_stg4_0 : Ref sig .tc).ty.Contents (Elt F) :=
  k0_pay11 (v96 m c) (k0_pay6 (t0v m c) (ws0 m c)) (k0_pay7 (t0v m c) (wsh0 m c))
    (k0_pay8 (k0_pay2 (v96 m c)) (R0 m c)) (k0_pay9 (k0_pay2 (v96 m c)) (k0_pay3 (v96 m c)) (R0 m c) (R1 m c)) k0_pay10

def dats (_ : Fin 1) (c : Dev nD) : Dat τ (Elt F) Unit ℕ UU ℕ cfg0 c where
  A w := m ((cfg0.win w).arr.view.loc (c : Thread nD τ))
  after w _ := match w with
    | ⟨0, _⟩ => x0 m c
    | ⟨1, _⟩ => t0v m c
    | ⟨2, _⟩ => ws0 m c
    | ⟨3, _⟩ => wsh0 m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.Kernel.Hand

end
-- ==== Proof.WSteps.lean ====
/-
  The protocol's steps on one device, each as the rounds rule at this kernel's cells: signal k to peer c k, the wait
  for the seven peers' signals, copy k into slot k of peer c k, and the waits on a receive and on a send cell.
-/
import proofs.«900349_g7700000000000350_dist_diff_adaln_cshard_i_b4_s256_c128_v7x_i8_bf16_1_alg».proof.Proof.Gen.Kernel.Frame
import proofs.«900349_g7700000000000350_dist_diff_adaln_cshard_i_b4_s256_c128_v7x_i8_bf16_1_alg».proof.Proof.Gen.Kernel.Skeleton
import proofs.«900349_g7700000000000350_dist_diff_adaln_cshard_i_b4_s256_c128_v7x_i8_bf16_1_alg».proof.Proof.WProtoD
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is owed, one step at a time -/

theorem OB_step (c : Dev nD) (k : Fin 7) : OB c (6 - k.val + 1) = OB c (6 - k.val) + tallyAt (barCell (peer c k)) () 1 := by
  fin_cases k <;> rfl
theorem OR_step (c : Dev nD) (k : Fin 7) : OR c (6 - k.val + 1) = OR c (6 - k.val) + tallyAt (recvCell (peer c k) k) () N := by
  fin_cases k <;> rfl
theorem OB_zero (c : Dev nD) : OB c 0 = OR c 7 := rfl

/-! ## The signal to peer c k -/

/-- Signal k: duty k of peer c k's barrier cell, handing over slot (6 − k) of c's receive buffer — the slot peer c k
    copies into — and that c's receive cell (6 − k) is at round 0. -/
theorem wp_signal_peer (c : Dev nD) (k : Fin 7) (r : Fin 7) (hr : r = rev k) (n₁ n₀ : ℕ) (h₁ : n₁ = 6 - k.val + 1) (h₀ : n₀ = 6 - k.val)
    (dst : Dev nD) (hdst : dst = peer c k) {κ : ℕ}
    (f : Buf (Elt F) ((slot r).view.loc (c : Thread nD τ))) (W : Waits sig Unit)
    {α : Type} {Q : α → sProp 𝕄} {kk : PUnit → Prog (TpuEff nD τ sig (Elt F) Λ₀ .tc) α} :
    iprop(cellInv ER (Rd m) κ (barCell (peer c k)) ∗ owes (c : Thread nD τ) (OB c n₁) W
        ∗ dutyTok ER (barCell (peer c k)) 0 k ∗ slotPts c r f ∗ reached ER (recvCell c r) 0
        ∗ reached ER (barCell (peer c k)) 0)
      ⊢ iprop((owes (c : Thread nD τ) (OB c n₀) W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (dst : Thread nD τ) barS 1) kk) Q) := by
  subst hdst hr h₁ h₀
  iintro ⟨#HI, HO, Htok, Hslot, #Hr, #Hrb⟩
  iapply (Rounds.wp_signal 𝒱₀ ER (Rd m) (c : Thread nD τ) none (dst := (peer c k : Thread nD τ)) (κ := κ)
      (d := k) (by rw [duties_bar]; exact Finset.mem_univ _) (amount_bar m (peer c k) k) () (OB c (6 - k.val)) (OB_step c k))
    $$ [HO Htok Hslot]
  isplitr; · iexact HI
  isplitl [HO]; · iexact HO
  isplitl [Htok]; · iexact Htok
  isplitl [Hslot]
  · rw [payload_bar]; unfold barPay barGot; rw [peer_peer_rev]
    isplitl [Hslot]; · iexists f; iexact Hslot
    iexact Hr
  · iexact Hrb

/-! ## The wait for the seven peers -/

/-- The wait for 7 on its own barrier cell, owing its seven copies' credits: each peer's slot comes with it. -/
theorem wp_wait_bar (c : Dev nD) {κ : ℕ} (W : Waits sig Unit)
    {α : Type} {Q : α → sProp 𝕄} {kk : PUnit → Prog (TpuEff nD τ sig (Elt F) Λ₀ .tc) α} :
    iprop(cellInv ER (Rd m) κ (barCell c) ∗ cred (tallyAt (barCell c) () 7) ∗ owes (c : Thread nD τ) (OR c 7) W ∗ levAts L lv
        ∗ atPos ER (barCell c) 0 ∅ 0)
      ⊢ iprop(((owes (c : Thread nD τ) (OR c 7) (insert (SemLoc.reg barS, ()) W)
              ∗ barGot c 6 ∗ barGot c 5 ∗ barGot c 4 ∗ barGot c 3 ∗ barGot c 2 ∗ barGot c 1 ∗ barGot c 0)
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS 7) kk) Q) := by
  iintro ⟨#HI, Hc, HO, #Hlev, Hat⟩ Hk
  iapply (Rounds.wp_wait_rest_token 𝒱₀ ER (Rd m) (c : Thread nD τ) none (κ := κ)
      (wpE_semWait_eq 𝒱₀ (c : Thread nD τ) none Set.univ) (Set.mem_univ _) () (O := OR c 7) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, -, -, Hpay⟩
  ihave Hp := (Entails.of_eq (rest_bar m c)) $$ Hpay
  iapply Hk
  isplitl [HO]; · iexact HO
  iexact Hp

/-! ## Copy k, into slot k of peer c k -/

omit [FloatOps F] in
theorem slot_amount (j : Fin 7) : (slot j).view.amount (.dma (recvSem j)) = N := by revert j; decide
omit [FloatOps F] in
theorem slot_credit (j : Fin 7) : (slot j).view.dmaCredit = N := by revert j; decide

/-- Copy k: the send duty of c's send cell k (a seventh of the read share of c's block comes back with it) and the one
    duty of peer c k's receive cell k (slot k there then holds c's block: `hland`, the landing read element by element). -/
theorem wp_send_peer (c : Dev nD) (k : Fin 7) (n₁ n₀ : ℕ) (h₁ : n₁ = 6 - k.val + 1) (h₀ : n₀ = 6 - k.val) (n : Dev nD) (hn : n = peer c k) {κ₁ κ₂ : ℕ}
    (hland : ∀ (fd : Buf (Elt F) ((slot k).view.loc (peer c k : Thread nD τ))) (i : Idx ((slot k).view.loc (peer c k : Thread nD τ))), i ∈ (slot k).view.set →
      (slot k).view.write (Elt F) fd ((sbM : Memref sig .tc .vmem S2x4x256 .f32).view.read (Elt F) (sendC m c)) Finset.univ i = recvAll m (peer c k) i)
    {hsc : ((slot k : Memref sig (Dev.tc n : Thread nD τ).2.kind .vmem S2x4x256 .f32)).view.ref.isScScratch = false}
    {hsrc : (sbM : Memref sig .tc .vmem S2x4x256 .f32).view.WordExact} {hdst : (slot k).view.WordExact}
    {hsem : DmaTarget.Typed .vmem (.dma (recvSem k)) (.remote (Dev.tc n : Thread nD τ) (slot k) (.dma (sendSem k)) hsc)}
    {α : Type} {Q : α → sProp 𝕄} {kk : PUnit → Prog (TpuEff nD τ sig (Elt F) Λ₀ .tc) α}
    (fn : Buf (Elt F) ((slot k).view.loc (peer c k : Thread nD τ))) (W : Waits sig Unit) :
    iprop(cellInv ER (Rd m) κ₁ (sendCell c k) ∗ cellInv ER (Rd m) κ₂ (recvCell (peer c k) k)
        ∗ sbPts c (Transfers.shareTok fullShare 7 k) (sendC m c) ∗ slotPts (peer c k) k fn
        ∗ owes (c : Thread nD τ) (OR c n₁) W
        ∗ dutyTok ER (sendCell c k) 0 0 ∗ reached ER (sendCell c k) 0
        ∗ dutyTok ER (recvCell (peer c k) k) 0 0 ∗ reached ER (recvCell (peer c k) k) 0)
      ⊢ iprop(((cred (tallyAt (sendCell c k) () N) ∗ owes (c : Thread nD τ) (OR c n₀) W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma sbM (.remote (Dev.tc n : Thread nD τ) (slot k) (.dma (sendSem k)) hsc) (.dma (recvSem k)) hsrc hdst hsem) kk) Q) := by
  subst hn h₁ h₀
  unfold sbPts slotPts
  exact Rounds.wp_send_pointsTo 𝒱₀ ER (Rd m) (c : Thread nD τ) none (κ₁ := κ₁) (κ₂ := κ₂)
    (r₁ := 0) (r₂ := 0) (d₁ := 0) (d₂ := 0) (fd := fn)
    (by rw [duties_send]; exact Finset.mem_singleton_self _) (by rw [duties_recv]; exact Finset.mem_singleton_self _)
    () () N (slot_amount k) (amount_send m c k 0) (amount_recv m (peer c k) k 0) (OR c (6 - k.val)) (OR_step c k) (W := W)
    (by rw [payload_send]; unfold sendPay sbPts; exact BI.Entails.refl _)
    (by rw [payload_recv]; unfold recvPay slotPts
        exact Entails.of_eq (BI.Region.is_congr (fun i hi => hland fn i hi)))

/-! ## The waits on a receive cell and on a send cell -/

/-- The wait on receive cell j, owing nothing: slot j holding the block of src c j comes with it. -/
theorem wp_wait_recv (c : Dev nD) (j : Fin 7) {κ : ℕ} (W : Waits sig Unit)
    {hsrc : (sbM : Memref sig .tc .vmem S2x4x256 .f32).view.WordExact} {hdst : (slot j).view.WordExact}
    {α : Type} {Q : α → sProp 𝕄} {kk : PUnit → Prog (TpuEff nD τ sig (Elt F) Λ₀ .tc) α} :
    iprop(cellInv ER (Rd m) κ (recvCell c j) ∗ cred (tallyAt (recvCell c j) () N) ∗ owes (c : Thread nD τ) 0 W ∗ atPos ER (recvCell c j) 0 ∅ 0)
      ⊢ iprop(((owes (c : Thread nD τ) 0 (insert (SemLoc.dma (recvSem j), ()) W) ∗ atPos ER (recvCell c j) 1 ∅ 0 ∗ recvPay m c j)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (recvSem j) sbM (slot j) hsrc hdst) kk) Q) := by
  iintro ⟨#HI, Hc, HO, Hat⟩ Hk
  rw [← slot_credit j]
  iapply (Rounds.wp_wait_rest_token 𝒱₀ ER (Rd m) (c : Thread nD τ) none (κ := κ)
      (wpE_waitDma2_eq 𝒱₀ (c : Thread nD τ) none Set.univ) (Set.mem_univ _) () (O := 0) (W := W) (R := 0) (m := 0) (T := ∅)
      (by rw [Nat.zero_add, expect_recv, slot_credit])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c j)) $$ Hpay
  iapply Hk
  isplitl [HO]; · iexact HO
  isplitl [Hat]; · iexact Hat
  iexact Hp

/-- The wait on send cell j, owing nothing: the j-th seventh of the read share of c's own block comes back. -/
theorem wp_wait_send (c : Dev nD) (j : Fin 7) {κ : ℕ} (W : Waits sig Unit)
    {hsrc : (slot j).view.WordExact} {hdst : (sbM : Memref sig .tc .vmem S2x4x256 .f32).view.WordExact}
    {α : Type} {Q : α → sProp 𝕄} {kk : PUnit → Prog (TpuEff nD τ sig (Elt F) Λ₀ .tc) α} :
    iprop(cellInv ER (Rd m) κ (sendCell c j) ∗ cred (tallyAt (sendCell c j) () N) ∗ owes (c : Thread nD τ) 0 W ∗ atPos ER (sendCell c j) 0 ∅ 0)
      ⊢ iprop(((owes (c : Thread nD τ) 0 (insert (SemLoc.dma (sendSem j), ()) W) ∗ atPos ER (sendCell c j) 1 ∅ 0 ∗ sendPay m c j)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 (sendSem j) (slot j) sbM hsrc hdst) kk) Q) := by
  iintro ⟨#HI, Hc, HO, Hat⟩ Hk
  iapply (Rounds.wp_wait_rest_token 𝒱₀ ER (Rd m) (c : Thread nD τ) none (κ := κ)
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c j)) $$ Hpay
  iapply Hk
  isplitl [HO]; · iexact HO
  isplitl [Hat]; · iexact Hat
  iexact Hp

/-- An own cell, its one round consumed, closes: its counter at zero is the core's again. -/
theorem close_send (c : Dev nD) (j : Fin 7) {κ : ℕ} :
    iprop(cellInv ER (Rd m) κ (sendCell c j) ∗ atPos ER (sendCell c j) 1 ∅ 0) ⊢ iprop(|={Set.univ}=> semVal (sendCell c j) 0) :=
  Rounds.cell_close ER (Rd m) (Set.mem_univ κ) (fun h => h) (R := 0 + 1) (duties_later m (sendCell c j))
theorem close_recv (c : Dev nD) (j : Fin 7) {κ : ℕ} :
    iprop(cellInv ER (Rd m) κ (recvCell c j) ∗ atPos ER (recvCell c j) 1 ∅ 0) ⊢ iprop(|={Set.univ}=> semVal (recvCell c j) 0) :=
  Rounds.cell_close ER (Rd m) (Set.mem_univ κ) (fun h => h) (R := 0 + 1) (duties_later m (recvCell c j))

end Cert.Kernel.Hand

end
-- ==== Proof.WBody.lean ====
/-
  The body of the kernel on one device, run from the ghost state the launch deals it: seven signals, the two stores of
  the partial sums, the wait for the peers, seven copies, the two products, seven receive waits, the normalisation and
  its store, seven send waits.
-/
import proofs.«900349_g7700000000000350_dist_diff_adaln_cshard_i_b4_s256_c128_v7x_i8_bf16_1_alg».proof.Proof.Gen.Kernel.Frame
import proofs.«900349_g7700000000000350_dist_diff_adaln_cshard_i_b4_s256_c128_v7x_i8_bf16_1_alg».proof.Proof.Gen.Kernel.Skeleton
import proofs.«900349_g7700000000000350_dist_diff_adaln_cshard_i_b4_s256_c128_v7x_i8_bf16_1_alg».proof.Proof.WSteps
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The steps, premises as successive wands -/

theorem signal_step (c : Dev nD) (k : Fin 7) (r : Fin 7) (hr : r = rev k) (n₁ n₀ : ℕ) (h₁ : n₁ = 6 - k.val + 1) (h₀ : n₀ = 6 - k.val)
    (dst : Dev nD) (hdst : dst = peer c k) {κ : ℕ}
    (f : Buf (Elt F) ((slot r).view.loc (c : Thread nD τ))) (W : Waits sig Unit)
    {α : Type} {Q : α → sProp 𝕄} {kk : PUnit → Prog (TpuEff nD τ sig (Elt F) Λ₀ .tc) α} :
    cellInv ER (Rd m) κ (barCell (peer c k)) ⊢ iprop(owes (c : Thread nD τ) (OB c n₁) W
        -∗ dutyTok ER (barCell (peer c k)) 0 k -∗ slotPts c r f -∗ reached ER (recvCell c r) 0
        -∗ reached ER (barCell (peer c k)) 0
        -∗ (owes (c : Thread nD τ) (OB c n₀) W -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (dst : Thread nD τ) barS 1) kk) Q) := by
  iintro HI HO Htok Hslot Hr Hrb
  iapply (wp_signal_peer m c k r hr n₁ n₀ h₁ h₀ dst hdst f W)
  isplitl [HI]; · iexact HI
  isplitl [HO]; · iexact HO
  isplitl [Htok]; · iexact Htok
  isplitl [Hslot]; · iexact Hslot
  isplitl [Hr]; · iexact Hr
  iexact Hrb

theorem wait_bar_step (c : Dev nD) {κ : ℕ} (W : Waits sig Unit)
    {α : Type} {Q : α → sProp 𝕄} {kk : PUnit → Prog (TpuEff nD τ sig (Elt F) Λ₀ .tc) α} :
    cellInv ER (Rd m) κ (barCell c) ⊢ iprop(cred (tallyAt (barCell c) () 7) -∗ owes (c : Thread nD τ) (OB c 0) W -∗ levAts L lv
        -∗ atPos ER (barCell c) 0 ∅ 0
        -∗ ((owes (c : Thread nD τ) (OR c 7) (insert (SemLoc.reg barS, ()) W)
              ∗ barGot c 6 ∗ barGot c 5 ∗ barGot c 4 ∗ barGot c 3 ∗ barGot c 2 ∗ barGot c 1 ∗ barGot c 0)
            -∗ wp frame (wpE (defs₀ (F := F)) 𝒱₀ (c : Thread nD τ) none) Set.univ (kk ⟨⟩) Q)
        -∗ wp frame (wpE (defs₀ (F := F)) 𝒱₀ (c : Thread nD τ) none) Set.univ (.op (.semWait barS 7) kk) Q) := by
  iintro HI Hc HO Hlev Hat
  iapply (wp_wait_bar m c W)
  isplitl [HI]; · iexact HI
  isplitl [Hc]; · iexact Hc
  isplitl [HO]; · iexact HO
  isplitl [Hlev]; · iexact Hlev
  iexact Hat

theorem send_step (c : Dev nD) (k : Fin 7) (n₁ n₀ : ℕ) (h₁ : n₁ = 6 - k.val + 1) (h₀ : n₀ = 6 - k.val) (n : Dev nD) (hn : n = peer c k) {κ₁ κ₂ : ℕ}
    (hland : ∀ (fd : Buf (Elt F) ((slot k).view.loc (peer c k : Thread nD τ))) (i : Idx ((slot k).view.loc (peer c k : Thread nD τ))), i ∈ (slot k).view.set →
      (slot k).view.write (Elt F) fd ((sbM : Memref sig .tc .vmem S2x4x256 .f32).view.read (Elt F) (sendC m c)) Finset.univ i = recvAll m (peer c k) i)
    {hsc : ((slot k : Memref sig (Dev.tc n : Thread nD τ).2.kind .vmem S2x4x256 .f32)).view.ref.isScScratch = false}
    {hsrc : (sbM : Memref sig .tc .vmem S2x4x256 .f32).view.WordExact} {hdst : (slot k).view.WordExact}
    {hsem : DmaTarget.Typed .vmem (.dma (recvSem k)) (.remote (Dev.tc n : Thread nD τ) (slot k) (.dma (sendSem k)) hsc)}
    {α : Type} {Q : α → sProp 𝕄} {kk : PUnit → Prog (TpuEff nD τ sig (Elt F) Λ₀ .tc) α}
    (fn : Buf (Elt F) ((slot k).view.loc (peer c k : Thread nD τ))) (W : Waits sig Unit) :
    cellInv ER (Rd m) κ₁ (sendCell c k) ⊢ iprop(cellInv ER (Rd m) κ₂ (recvCell (peer c k) k)
        -∗ ((sbM : Memref sig .tc .vmem S2x4x256 .f32).view.loc (c : Thread nD τ) ↦[(sbM : Memref sig .tc .vmem S2x4x256 .f32).view.set]{Transfers.shareTok fullShare 7 k} sendC m c)
        -∗ slotPts (peer c k) k fn
        -∗ owes (c : Thread nD τ) (OR c n₁) W
        -∗ dutyTok ER (sendCell c k) 0 0 -∗ reached ER (sendCell c k) 0
        -∗ dutyTok ER (recvCell (peer c k) k) 0 0 -∗ reached ER (recvCell (peer c k) k) 0
        -∗ ((cred (tallyAt (sendCell c k) () N) ∗ owes (c : Thread nD τ) (OR c n₀) W) -∗ wp frame (wpE (defs₀ (F := F)) 𝒱₀ (c : Thread nD τ) none) Set.univ (kk ⟨⟩) Q)
        -∗ wp frame (wpE (defs₀ (F := F)) 𝒱₀ (c : Thread nD τ) none) Set.univ
              (.op (.enqueueDma sbM (.remote (Dev.tc n : Thread nD τ) (slot k) (.dma (sendSem k)) hsc) (.dma (recvSem k)) hsrc hdst hsem) kk) Q) := by
  iintro HI1 HI2 Hsb Hn HO Ht1 Hr1 Ht2 Hr2
  iapply (wp_send_peer m c k n₁ n₀ h₁ h₀ n hn hland fn W)
  isplitl [HI1]; · iexact HI1
  isplitl [HI2]; · iexact HI2
  isplitl [Hsb]; · unfold sbPts; iexact Hsb
  isplitl [Hn]; · iexact Hn
  isplitl [HO]; · iexact HO
  isplitl [Ht1]; · iexact Ht1
  isplitl [Hr1]; · iexact Hr1
  isplitl [Ht2]; · iexact Ht2
  iexact Hr2

omit [FloatOps F] in
/-- The two row stores cover the 2×4×256 block. -/
theorem cov_rows (a b : FVec F S1x4x256 .f32) :
    LoadRect.covChk (([⟨Rect.unit (s := S2x4x256) ![1, 0, 0] S1x4x256.size inb_S2x4x256_S1x4x256_1_0_0, a⟩,
        ⟨Rect.unit (s := S2x4x256) ![0, 0, 0] S1x4x256.size inb_S2x4x256_S1x4x256_0_0_0, b⟩] : List (View.Piece (Elt F) S2x4x256 .f32)).map Sigma.fst)
      (LoadRect.whole S2x4x256) (.split 0 1 (.leaf 1) (.leaf 0)) = true := by
  show LoadRect.covChk [Rect.unit (s := S2x4x256) ![1, 0, 0] S1x4x256.size inb_S2x4x256_S1x4x256_1_0_0,
    Rect.unit (s := S2x4x256) ![0, 0, 0] S1x4x256.size inb_S2x4x256_S1x4x256_0_0_0] (LoadRect.whole S2x4x256) (.split 0 1 (.leaf 1) (.leaf 0)) = true
  decide

omit [FloatOps F] in
theorem hz3 : (![0, 0, 0] : Fin 3 → Nat) = fun _ => 0 := funext fun a => by fin_cases a <;> rfl
omit [FloatOps F] in
theorem hz2 : (![0, 0] : Fin 2 → Nat) = fun _ => 0 := funext fun a => by fin_cases a <;> rfl

/-- The read share of the block, split seven ways (one per copy) beside a remainder, and joined back. -/
theorem toks_split7 (c : Dev nD) (f : Buf (Elt F) ((sbM : Memref sig .tc .vmem S2x4x256 .f32).view.loc (c : Thread nD τ))) :
    ((sbM : Memref sig .tc .vmem S2x4x256 .f32).view.loc (c : Thread nD τ) ↦[(sbM : Memref sig .tc .vmem S2x4x256 .f32).view.set]{fullShare} f : sProp 𝕄)
      ⊢ iprop(((sbM : Memref sig .tc .vmem S2x4x256 .f32).view.loc (c : Thread nD τ) ↦[(sbM : Memref sig .tc .vmem S2x4x256 .f32).view.set]{Transfers.shareDrop fullShare 7} f)
        ∗ ((sbM : Memref sig .tc .vmem S2x4x256 .f32).view.loc (c : Thread nD τ) ↦[(sbM : Memref sig .tc .vmem S2x4x256 .f32).view.set]{Transfers.shareTok fullShare 7 0} f)
        ∗ ((sbM : Memref sig .tc .vmem S2x4x256 .f32).view.loc (c : Thread nD τ) ↦[(sbM : Memref sig .tc .vmem S2x4x256 .f32).view.set]{Transfers.shareTok fullShare 7 1} f)
        ∗ ((sbM : Memref sig .tc .vmem S2x4x256 .f32).view.loc (c : Thread nD τ) ↦[(sbM : Memref sig .tc .vmem S2x4x256 .f32).view.set]{Transfers.shareTok fullShare 7 2} f)
        ∗ ((sbM : Memref sig .tc .vmem S2x4x256 .f32).view.loc (c : Thread nD τ) ↦[(sbM : Memref sig .tc .vmem S2x4x256 .f32).view.set]{Transfers.shareTok fullShare 7 3} f)
        ∗ ((sbM : Memref sig .tc .vmem S2x4x256 .f32).view.loc (c : Thread nD τ) ↦[(sbM : Memref sig .tc .vmem S2x4x256 .f32).view.set]{Transfers.shareTok fullShare 7 4} f)
        ∗ ((sbM : Memref sig .tc .vmem S2x4x256 .f32).view.loc (c : Thread nD τ) ↦[(sbM : Memref sig .tc .vmem S2x4x256 .f32).view.set]{Transfers.shareTok fullShare 7 5} f)
        ∗ ((sbM : Memref sig .tc .vmem S2x4x256 .f32).view.loc (c : Thread nD τ) ↦[(sbM : Memref sig .tc .vmem S2x4x256 .f32).view.set]{Transfers.shareTok fullShare 7 6} f)) := by
  refine BI.Entails.trans (Transfers.pointsTo_toks_split fullShare 7) ?_
  rw [bigSep_fin7]; exact BI.Entails.refl _
theorem toks_join7 (c : Dev nD) (f : Buf (Elt F) ((sbM : Memref sig .tc .vmem S2x4x256 .f32).view.loc (c : Thread nD τ))) :
    iprop(((sbM : Memref sig .tc .vmem S2x4x256 .f32).view.loc (c : Thread nD τ) ↦[(sbM : Memref sig .tc .vmem S2x4x256 .f32).view.set]{Transfers.shareDrop fullShare 7} f)
        ∗ ((sbM : Memref sig .tc .vmem S2x4x256 .f32).view.loc (c : Thread nD τ) ↦[(sbM : Memref sig .tc .vmem S2x4x256 .f32).view.set]{Transfers.shareTok fullShare 7 0} f)
        ∗ ((sbM : Memref sig .tc .vmem S2x4x256 .f32).view.loc (c : Thread nD τ) ↦[(sbM : Memref sig .tc .vmem S2x4x256 .f32).view.set]{Transfers.shareTok fullShare 7 1} f)
        ∗ ((sbM : Memref sig .tc .vmem S2x4x256 .f32).view.loc (c : Thread nD τ) ↦[(sbM : Memref sig .tc .vmem S2x4x256 .f32).view.set]{Transfers.shareTok fullShare 7 2} f)
        ∗ ((sbM : Memref sig .tc .vmem S2x4x256 .f32).view.loc (c : Thread nD τ) ↦[(sbM : Memref sig .tc .vmem S2x4x256 .f32).view.set]{Transfers.shareTok fullShare 7 3} f)
        ∗ ((sbM : Memref sig .tc .vmem S2x4x256 .f32).view.loc (c : Thread nD τ) ↦[(sbM : Memref sig .tc .vmem S2x4x256 .f32).view.set]{Transfers.shareTok fullShare 7 4} f)
        ∗ ((sbM : Memref sig .tc .vmem S2x4x256 .f32).view.loc (c : Thread nD τ) ↦[(sbM : Memref sig .tc .vmem S2x4x256 .f32).view.set]{Transfers.shareTok fullShare 7 5} f)
        ∗ ((sbM : Memref sig .tc .vmem S2x4x256 .f32).view.loc (c : Thread nD τ) ↦[(sbM : Memref sig .tc .vmem S2x4x256 .f32).view.set]{Transfers.shareTok fullShare 7 6} f))
      ⊢ ((sbM : Memref sig .tc .vmem S2x4x256 .f32).view.loc (c : Thread nD τ) ↦[(sbM : Memref sig .tc .vmem S2x4x256 .f32).view.set]{fullShare} f : sProp 𝕄) := by
  refine BI.Entails.trans ?_ (Transfers.pointsTo_toks_join fullShare 7)
  rw [bigSep_fin7]; exact BI.Entails.refl _

/-- What a consumed round of a receive / send cell leaves its owner. -/
theorem got_recv (c : Dev nD) (j : Fin 7) :
    bigSep ((Rd (F := F) m).duties (recvCell c j) 0) (fun d => (Rd (F := F) m).payload (recvCell c j) 0 d) = slotPts c j (recvAll m c) := by
  rw [duties_recv, bigSep_singleton, payload_recv]; rfl
theorem got_send (c : Dev nD) (j : Fin 7) :
    bigSep ((Rd (F := F) m).duties (sendCell c j) 0) (fun d => (Rd (F := F) m).payload (sendCell c j) 0 d)
      = ((sbM : Memref sig .tc .vmem S2x4x256 .f32).view.loc (c : Thread nD τ) ↦[(sbM : Memref sig .tc .vmem S2x4x256 .f32).view.set]{Transfers.shareTok fullShare 7 j} sendC m c) := by
  rw [duties_send, bigSep_singleton, payload_send]; rfl
/-! ## The body -/

def bodyPre' (c : Dev nD) : sProp 𝕄 :=
  iprop(Φ₀ m c ∗ (dats m 0 c).owesAt () t0_0.castSucc
    ∗ (∃ d, owns (c : Thread nD τ) (Memref.whole cc0_stg0_0 : Memref sig .tc .vmem S4x256x128 .f32) fullShare ((dats m 0 c).before (0 : Fin 5) t0_0 d))
    ∗ (∃ d, owns (c : Thread nD τ) (Memref.whole cc0_stg1_0 : Memref sig .tc .vmem S4x128 .f32) fullShare ((dats m 0 c).before (1 : Fin 5) t0_0 d))
    ∗ (∃ d, owns (c : Thread nD τ) (Memref.whole cc0_stg2_0 : Memref sig .tc .vmem S128x128 .f32) fullShare ((dats m 0 c).before (2 : Fin 5) t0_0 d))
    ∗ (∃ d, owns (c : Thread nD τ) (Memref.whole cc0_stg3_0 : Memref sig .tc .vmem S128x128 .f32) fullShare ((dats m 0 c).before (3 : Fin 5) t0_0 d))
    ∗ (∃ d, owns (c : Thread nD τ) (Memref.whole cc0_stg4_0 : Memref sig .tc .vmem S4x256x128 .f32) fullShare ((dats m 0 c).before (4 : Fin 5) t0_0 d)))

def bodyPost (c : Dev nD) : sProp 𝕄 :=
  iprop(Φ₁ c ∗ (dats m 0 c).owesAt () t0_0.succ
    ∗ owns (c : Thread nD τ) (Memref.whole cc0_stg0_0 : Memref sig .tc .vmem S4x256x128 .f32) fullShare (x0 m c)
    ∗ owns (c : Thread nD τ) (Memref.whole cc0_stg1_0 : Memref sig .tc .vmem S4x128 .f32) fullShare (t0v m c)
    ∗ owns (c : Thread nD τ) (Memref.whole cc0_stg2_0 : Memref sig .tc .vmem S128x128 .f32) fullShare (ws0 m c)
    ∗ owns (c : Thread nD τ) (Memref.whole cc0_stg3_0 : Memref sig .tc .vmem S128x128 .f32) fullShare (wsh0 m c)
    ∗ owns (c : Thread nD τ) (Memref.whole cc0_stg4_0 : Memref sig .tc .vmem S4x256x128 .f32) fullShare (outAt m c))

set_option maxHeartbeats 4000000 in
theorem sound_body (c : Dev nD)
    (hland : ∀ (k : Fin 7) (fd : Buf (Elt F) ((slot k).view.loc (peer c k : Thread nD τ))) (i : Idx ((slot k).view.loc (peer c k : Thread nD τ))), i ∈ (slot k).view.set →
      (slot k).view.write (Elt F) fd ((sbM : Memref sig .tc .vmem S2x4x256 .f32).view.read (Elt F) (sendC m c)) Finset.univ i = recvAll m (peer c k) i)
    (hjoin : ∀ f, iprop(slotPts c 0 f ∗ slotPts c 1 f ∗ slotPts c 2 f ∗ slotPts c 3 f ∗ slotPts c 4 f ∗ slotPts c 5 f ∗ slotPts c 6 f)
      ⊢ ((rbM : Memref sig .tc .vmem S7x2x4x256 .f32).view.loc (c : Thread nD τ) ↦[(rbM : Memref sig .tc .vmem S7x2x4x256 .f32).view.set]{fullShare} f : sProp 𝕄))
    (hsplit : ∀ f, ((rbM : Memref sig .tc .vmem S7x2x4x256 .f32).view.loc (c : Thread nD τ) ↦[(rbM : Memref sig .tc .vmem S7x2x4x256 .f32).view.set]{fullShare} f : sProp 𝕄)
      ⊢ iprop(slotPts c 0 f ∗ slotPts c 1 f ∗ slotPts c 2 f ∗ slotPts c 3 f ∗ slotPts c 4 f ∗ slotPts c 5 f ∗ slotPts c 6 f)) :
    bodyPre' m c ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) cc0_scratch2 cc0_scratch3) (fun _ => bodyPost m c) := by
  unfold bodyPre' Φ₀ start ghost needs positions payToks
  simp only [bigSep_fin7]
  unfold sbAny rbAny sbPts owns
  iintro ⟨⟨⟨⟨⟨⟨%κB, #HIB⟩, ⟨⟨%κS0, #HIS0⟩, ⟨%κS1, #HIS1⟩, ⟨%κS2, #HIS2⟩, ⟨%κS3, #HIS3⟩, ⟨%κS4, #HIS4⟩, ⟨%κS5, #HIS5⟩, ⟨%κS6, #HIS6⟩⟩,
        ⟨⟨%κV0, #HIV0⟩, ⟨%κV1, #HIV1⟩, ⟨%κV2, #HIV2⟩, ⟨%κV3, #HIV3⟩, ⟨%κV4, #HIV4⟩, ⟨%κV5, #HIV5⟩, ⟨%κV6, #HIV6⟩⟩,
        ⟨⟨%κP0, #HIP0⟩, ⟨%κP1, #HIP1⟩, ⟨%κP2, #HIP2⟩, ⟨%κP3, #HIP3⟩, ⟨%κP4, #HIP4⟩, ⟨%κP5, #HIP5⟩, ⟨%κP6, #HIP6⟩⟩,
        ⟨⟨%κR0, #HIR0⟩, ⟨%κR1, #HIR1⟩, ⟨%κR2, #HIR2⟩, ⟨%κR3, #HIR3⟩, ⟨%κR4, #HIR4⟩, ⟨%κR5, #HIR5⟩, ⟨%κR6, #HIR6⟩⟩,
        ⟨#HrP0, #HrP1, #HrP2, #HrP3, #HrP4, #HrP5, #HrP6⟩,
        ⟨#HrR0, #HrR1, #HrR2, #HrR3, #HrR4, #HrR5, #HrR6⟩,
        ⟨#HrS0, #HrS1, #HrS2, #HrS3, #HrS4, #HrS5, #HrS6⟩,
        ⟨#HrV0, #HrV1, #HrV2, #HrV3, #HrV4, #HrV5, #HrV6⟩⟩,
      ⟨HatB, ⟨HatS0, HatS1, HatS2, HatS3, HatS4, HatS5, HatS6⟩, ⟨HatV0, HatV1, HatV2, HatV3, HatV4, HatV5, HatV6⟩⟩,
      ⟨⟨HtP0, HtP1, HtP2, HtP3, HtP4, HtP5, HtP6⟩, ⟨HtR0, HtR1, HtR2, HtR3, HtR4, HtR5, HtR6⟩, ⟨HtS0, HtS1, HtS2, HtS3, HtS4, HtS5, HtS6⟩⟩⟩,
      HcB, ⟨HcV0, HcV1, HcV2, HcV3, HcV4, HcV5, HcV6⟩, #Hlev⟩, ⟨%fsb, Hsb⟩, ⟨%frb, Hrb⟩⟩,
    Ho, ⟨%d0, %g0, %hg0, Hx⟩, ⟨%d1, %g1, %hg1, Ht⟩, ⟨%d2, %g2, %hg2, Hws⟩, ⟨%d3, %g3, %hg3, Hwsh⟩, ⟨%d4, %g4, %hg4, Hout⟩⟩
  ihave Hsl := (hsplit frb) $$ Hrb
  icases Hsl with ⟨Hs0, Hs1, Hs2, Hs3, Hs4, Hs5, Hs6⟩
  unfold Dat.owesAt Pipeline.owesWithin
  icases Ho with ⟨%W, %hW, HO⟩
  rw [show (dats m 0 c).owed t0_0.castSucc = OB c 7 from rfl]
  sl_unfold [cc0_body]
  sl_exec_parts
  iapply (signal_step m c 0 6 rfl 7 6 rfl rfl _ (dev1_eq c) frb W) $$ HIP0 HO HtP0 Hs6 HrV6 HrP0
  iintro HO
  sl_exec_parts
  iapply (signal_step m c 1 5 rfl 6 5 rfl rfl _ (dev2_eq c) frb W) $$ HIP1 HO HtP1 Hs5 HrV5 HrP1
  iintro HO
  sl_exec_parts
  iapply (signal_step m c 2 4 rfl 5 4 rfl rfl _ (dev3_eq c) frb W) $$ HIP2 HO HtP2 Hs4 HrV4 HrP2
  iintro HO
  sl_exec_parts
  iapply (signal_step m c 3 3 rfl 4 3 rfl rfl _ (dev4_eq c) frb W) $$ HIP3 HO HtP3 Hs3 HrV3 HrP3
  iintro HO
  sl_exec_parts
  iapply (signal_step m c 4 2 rfl 3 2 rfl rfl _ (dev5_eq c) frb W) $$ HIP4 HO HtP4 Hs2 HrV2 HrP4
  iintro HO
  sl_exec_parts
  iapply (signal_step m c 5 1 rfl 2 1 rfl rfl _ (dev6_eq c) frb W) $$ HIP5 HO HtP5 Hs1 HrV1 HrP5
  iintro HO
  sl_exec_parts
  iapply (signal_step m c 6 0 rfl 1 0 rfl rfl _ (dev7_eq c) frb W) $$ HIP6 HO HtP6 Hs0 HrV0 HrP6
  iintro HO
  sl_exec_parts
  iapply (wait_bar_step m c W) $$ HIB HcB HO Hlev HatB
  unfold barGot
  iintro ⟨HO, ⟨⟨%fn6, Hn6⟩, #Hq6⟩, ⟨⟨%fn5, Hn5⟩, #Hq5⟩, ⟨⟨%fn4, Hn4⟩, #Hq4⟩, ⟨⟨%fn3, Hn3⟩, #Hq3⟩, ⟨⟨%fn2, Hn2⟩, #Hq2⟩, ⟨⟨%fn1, Hn1⟩, #Hq1⟩, ⟨⟨%fn0, Hn0⟩, #Hq0⟩⟩
  -- the staged block of x is device c's block; the two stores over it are the block of partial sums c sends
  have hx : g0 = x0 m c := by
    have h : g0 = (dats m 0 c).before 0 t0_0 d0 := (View.read_whole (Val := Elt F) cc0_stg0_0 g0).symm.trans hg0
    rw [h]; unfold Dat.before; rw [if_pos (fetch0_0 t0_0)]; rfl
  have hv : sound_body.sl.v96 c g0 = v96 m c := by
    unfold sound_body.sl.v96 v96 k0_pay1
    have hr : (Memref.whole cc0_stg0_0 : Memref sig .tc .vmem S4x256x128 .f32).view.readAt (Elt F)
        (Rect.unit (s := S4x256x128) ![0, 0, 0] S4x256x128.size inb_S4x256x128_S4x256x128_0_0_0).toLoadRect g0 = g0 :=
      Memref.readAt_unit_zero (Elt F) cc0_stg0_0 hz3 _ g0
    rw [hr, hx]
  have hsb : (sbM : Memref sig .tc .vmem S2x4x256 .f32).view.writes (Elt F) fsb
      [⟨Rect.unit (s := S2x4x256) ![1, 0, 0] S1x4x256.size inb_S2x4x256_S1x4x256_1_0_0, k0_pay5 (sound_body.sl.v96 c g0)⟩,
       ⟨Rect.unit (s := S2x4x256) ![0, 0, 0] S1x4x256.size inb_S2x4x256_S1x4x256_0_0_0, k0_pay4 (sound_body.sl.v96 c g0)⟩] = sendC m c := by
    unfold sendC
    have e := Memref.writes_eq_junk_of_covChk (Val := Elt F) (m := (sbM : Memref sig .tc .vmem S2x4x256 .f32)) (Memref.isWhole_whole cc0_scratch0) fsb
      [⟨Rect.unit (s := S2x4x256) ![1, 0, 0] S1x4x256.size inb_S2x4x256_S1x4x256_1_0_0, k0_pay5 (sound_body.sl.v96 c g0)⟩,
       ⟨Rect.unit (s := S2x4x256) ![0, 0, 0] S1x4x256.size inb_S2x4x256_S1x4x256_0_0_0, k0_pay4 (sound_body.sl.v96 c g0)⟩]
      (.split 0 1 (.leaf 1) (.leaf 0)) (cov_rows _ _)
    rw [e, hv]
  ihave Hsb := (Entails.of_eq (congrArg (fun f => ((sbM : Memref sig .tc .vmem S2x4x256 .f32).view.loc (c : Thread nD τ) ↦[(sbM : Memref sig .tc .vmem S2x4x256 .f32).view.set]{fullShare} f : sProp 𝕄)) hsb)) $$ Hsb
  ihave Hsp := (toks_split7 c (sendC m c)) $$ Hsb
  icases Hsp with ⟨Hsbr, Hsb0, Hsb1, Hsb2, Hsb3, Hsb4, Hsb5, Hsb6⟩
  sl_exec_parts
  iapply (send_step m c 0 7 6 rfl rfl _ (dev8_eq c) (hland 0) fn0 _) $$ HIS0 HIR0 Hsb0 Hn0 HO HtS0 HrS0 HtR0 HrR0
  iintro ⟨HcS0, HO⟩
  sl_exec_parts
  iapply (send_step m c 1 6 5 rfl rfl _ (dev9_eq c) (hland 1) fn1 _) $$ HIS1 HIR1 Hsb1 Hn1 HO HtS1 HrS1 HtR1 HrR1
  iintro ⟨HcS1, HO⟩
  sl_exec_parts
  iapply (send_step m c 2 5 4 rfl rfl _ (dev10_eq c) (hland 2) fn2 _) $$ HIS2 HIR2 Hsb2 Hn2 HO HtS2 HrS2 HtR2 HrR2
  iintro ⟨HcS2, HO⟩
  sl_exec_parts
  iapply (send_step m c 3 4 3 rfl rfl _ (dev11_eq c) (hland 3) fn3 _) $$ HIS3 HIR3 Hsb3 Hn3 HO HtS3 HrS3 HtR3 HrR3
  iintro ⟨HcS3, HO⟩
  sl_exec_parts
  iapply (send_step m c 4 3 2 rfl rfl _ (dev12_eq c) (hland 4) fn4 _) $$ HIS4 HIR4 Hsb4 Hn4 HO HtS4 HrS4 HtR4 HrR4
  iintro ⟨HcS4, HO⟩
  sl_exec_parts
  iapply (send_step m c 5 2 1 rfl rfl _ (dev13_eq c) (hland 5) fn5 _) $$ HIS5 HIR5 Hsb5 Hn5 HO HtS5 HrS5 HtR5 HrR5
  iintro ⟨HcS5, HO⟩
  sl_exec_parts
  iapply (send_step m c 6 1 0 rfl rfl _ (dev14_eq c) (hland 6) fn6 _) $$ HIS6 HIR6 Hsb6 Hn6 HO HtS6 HrS6 HtR6 HrR6
  iintro ⟨HcS6, HO⟩
  sl_exec_parts
  ihave Hv0 := (Entails.of_eq (got_recv m c 0)) $$ HatV0_pay1
  ihave Hv1 := (Entails.of_eq (got_recv m c 1)) $$ HatV1_pay1
  ihave Hv2 := (Entails.of_eq (got_recv m c 2)) $$ HatV2_pay1
  ihave Hv3 := (Entails.of_eq (got_recv m c 3)) $$ HatV3_pay1
  ihave Hv4 := (Entails.of_eq (got_recv m c 4)) $$ HatV4_pay1
  ihave Hv5 := (Entails.of_eq (got_recv m c 5)) $$ HatV5_pay1
  ihave Hv6 := (Entails.of_eq (got_recv m c 6)) $$ HatV6_pay1
  ihave Hrb := (hjoin (recvAll m c)) $$ [Hv0 Hv1 Hv2 Hv3 Hv4 Hv5 Hv6]
  · isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    iexact Hv6
  sl_exec_parts
  -- the send cells' rounds, consumed: the seven sevenths of the read share come back and join
  ihave Hsb0 := (Entails.of_eq (got_send m c 0)) $$ HatS0_pay1
  ihave Hsb1 := (Entails.of_eq (got_send m c 1)) $$ HatS1_pay1
  ihave Hsb2 := (Entails.of_eq (got_send m c 2)) $$ HatS2_pay1
  ihave Hsb3 := (Entails.of_eq (got_send m c 3)) $$ HatS3_pay1
  ihave Hsb4 := (Entails.of_eq (got_send m c 4)) $$ HatS4_pay1
  ihave Hsb5 := (Entails.of_eq (got_send m c 5)) $$ HatS5_pay1
  ihave Hsb6 := (Entails.of_eq (got_send m c 6)) $$ HatS6_pay1
  ihave Hsb := (toks_join7 c (sendC m c)) $$ [Hsbr Hsb0 Hsb1 Hsb2 Hsb3 Hsb4 Hsb5 Hsb6]
  · isplitl [Hsbr]; · iexact Hsbr
    isplitl [Hsb0]; · iexact Hsb0
    isplitl [Hsb1]; · iexact Hsb1
    isplitl [Hsb2]; · iexact Hsb2
    isplitl [Hsb3]; · iexact Hsb3
    isplitl [Hsb4]; · iexact Hsb4
    isplitl [Hsb5]; · iexact Hsb5
    iexact Hsb6
  -- the fourteen own cells close: their counters at zero are the core's again
  imod (close_send m c 0) $$ [HatS0] with HzS0
  · isplitr; · iexact HIS0
    iexact HatS0
  imod (close_send m c 1) $$ [HatS1] with HzS1
  · isplitr; · iexact HIS1
    iexact HatS1
  imod (close_send m c 2) $$ [HatS2] with HzS2
  · isplitr; · iexact HIS2
    iexact HatS2
  imod (close_send m c 3) $$ [HatS3] with HzS3
  · isplitr; · iexact HIS3
    iexact HatS3
  imod (close_send m c 4) $$ [HatS4] with HzS4
  · isplitr; · iexact HIS4
    iexact HatS4
  imod (close_send m c 5) $$ [HatS5] with HzS5
  · isplitr; · iexact HIS5
    iexact HatS5
  imod (close_send m c 6) $$ [HatS6] with HzS6
  · isplitr; · iexact HIS6
    iexact HatS6
  imod (close_recv m c 0) $$ [HatV0] with HzV0
  · isplitr; · iexact HIV0
    iexact HatV0
  imod (close_recv m c 1) $$ [HatV1] with HzV1
  · isplitr; · iexact HIV1
    iexact HatV1
  imod (close_recv m c 2) $$ [HatV2] with HzV2
  · isplitr; · iexact HIV2
    iexact HatV2
  imod (close_recv m c 3) $$ [HatV3] with HzV3
  · isplitr; · iexact HIV3
    iexact HatV3
  imod (close_recv m c 4) $$ [HatV4] with HzV4
  · isplitr; · iexact HIV4
    iexact HatV4
  imod (close_recv m c 5) $$ [HatV5] with HzV5
  · isplitr; · iexact HIV5
    iexact HatV5
  imod (close_recv m c 6) $$ [HatV6] with HzV6
  · isplitr; · iexact HIV6
    iexact HatV6
  -- what the windows' staging buffers hold: the inputs as staged, the result block
  have hr0 : (Memref.whole cc0_stg0_0 : Memref sig .tc .vmem S4x256x128 .f32).view.read (Elt F) g0 = x0 m c :=
    (View.read_whole (Val := Elt F) cc0_stg0_0 g0).trans hx
  have hr1 : (Memref.whole cc0_stg1_0 : Memref sig .tc .vmem S4x128 .f32).view.read (Elt F) g1 = t0v m c :=
    hg1.trans (by unfold Dat.before; rw [if_pos (fetch0_1 t0_0)]; rfl)
  have hr2 : (Memref.whole cc0_stg2_0 : Memref sig .tc .vmem S128x128 .f32).view.read (Elt F) g2 = ws0 m c :=
    hg2.trans (by unfold Dat.before; rw [if_pos (fetch0_2 t0_0)]; rfl)
  have hr3 : (Memref.whole cc0_stg3_0 : Memref sig .tc .vmem S128x128 .f32).view.read (Elt F) g3 = wsh0 m c :=
    hg3.trans (by unfold Dat.before; rw [if_pos (fetch0_3 t0_0)]; rfl)
  have hr4 : (Memref.whole cc0_stg4_0 : Memref sig .tc .vmem S4x256x128 .f32).view.read (Elt F)
      ((Memref.whole cc0_stg4_0 : Memref sig .tc .vmem S4x256x128 .f32).view.writes (Elt F) g4
        [⟨Rect.unit (s := S4x256x128) ![0, 0, 0] S4x256x128.size inb_S4x256x128_S4x256x128_0_0_0,
          k0_pay11 (sound_body.sl.v96 c g0) (sound_body.sl.r_2 c g1 g2) (sound_body.sl.r_3 c g1 g3)
            (sound_body.sl.r_4 m c g0) (sound_body.sl.r_5 m c g0) k0_pay10⟩]) = outAt m c := by
    refine (View.read_whole (Val := Elt F) cc0_stg4_0 _).trans ?_
    refine (Memref.write_access_unit_zero_univ (Elt F) cc0_stg4_0 hz3 inb_S4x256x128_S4x256x128_0_0_0 g4 _).trans ?_
    unfold outAt sound_body.sl.r_2 sound_body.sl.r_3 sound_body.sl.r_4 sound_body.sl.r_5 sound_body.sl.r sound_body.sl.r_1 R0 R1
    have e1 : (Memref.whole cc0_stg1_0 : Memref sig .tc .vmem S4x128 .f32).view.readAt (Elt F)
        (Rect.unit (s := S4x128) ![0, 0] S4x128.size inb_S4x128_S4x128_0_0).toLoadRect g1 = t0v m c :=
      (Memref.readAt_unit_zero (Elt F) cc0_stg1_0 hz2 _ g1).trans ((View.read_whole (Val := Elt F) cc0_stg1_0 g1).symm.trans hr1)
    have e2 : (Memref.whole cc0_stg2_0 : Memref sig .tc .vmem S128x128 .f32).view.readAt (Elt F)
        (Rect.unit (s := S128x128) ![0, 0] S128x128.size inb_S128x128_S128x128_0_0).toLoadRect g2 = ws0 m c :=
      (Memref.readAt_unit_zero (Elt F) cc0_stg2_0 hz2 _ g2).trans ((View.read_whole (Val := Elt F) cc0_stg2_0 g2).symm.trans hr2)
    have e3 : (Memref.whole cc0_stg3_0 : Memref sig .tc .vmem S128x128 .f32).view.readAt (Elt F)
        (Rect.unit (s := S128x128) ![0, 0] S128x128.size inb_S128x128_S128x128_0_0).toLoadRect g3 = wsh0 m c :=
      (Memref.readAt_unit_zero (Elt F) cc0_stg3_0 hz2 _ g3).trans ((View.read_whole (Val := Elt F) cc0_stg3_0 g3).symm.trans hr3)
    show k0_pay11 _ _ _ _ _ _ = _
    rw [hv, e1, e2, e3]
  sl_step
  unfold bodyPost Φ₁ sbAny rbAny sbPts Dat.owesAt Pipeline.owesWithin owns
  rw [show (dats m 0 c).owed t0_0.succ = 0 from rfl]
  isplitl [Hsb Hrb HzS0 HzS1 HzS2 HzS3 HzS4 HzS5 HzS6 HzV0 HzV1 HzV2 HzV3 HzV4 HzV5 HzV6]
  · isplitl [Hsb]; · iexists (sendC m c); iexact Hsb
    isplitl [Hrb]; · iexists (recvAll m c); iexact Hrb
    isplitl [HzS0 HzS1 HzS2 HzS3 HzS4 HzS5 HzS6]
    · iapply (Entails.of_eq (bigSep_fin7 (fun j : Fin 7 => (semVal (sendCell c j) 0 : sProp 𝕄))).symm)
      isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    · iapply (Entails.of_eq (bigSep_fin7 (fun j : Fin 7 => (semVal (recvCell c j) 0 : sProp 𝕄))).symm)
      isplitl [HzV0]; · iexact HzV0
      isplitl [HzV1]; · iexact HzV1
      isplitl [HzV2]; · iexact HzV2
      isplitl [HzV3]; · iexact HzV3
      isplitl [HzV4]; · iexact HzV4
      isplitl [HzV5]; · iexact HzV5
      iexact HzV6
  isplitl [HO]
  · iexists _
    isplitr
    on_goal 2 => iexact HO
    ipureintro; exact fun _ _ => Or.inl trivial
  isplitl [Hx]
  · iexists g0; isplitr; · (ipureintro; exact hr0)
    iexact Hx
  isplitl [Ht]
  · iexists g1; isplitr; · (ipureintro; exact hr1)
    iexact Ht
  isplitl [Hws]
  · iexists g2; isplitr; · (ipureintro; exact hr2)
    iexact Hws
  isplitl [Hwsh]
  · iexists g3; isplitr; · (ipureintro; exact hr3)
    iexact Hwsh
  iexists _; isplitr; · (ipureintro; exact hr4)
  iexact Hout

end Cert.Kernel.Hand

end
-- ==== Proof.WGhostA.lean ====
/-
  The launch element of the protocol: the fifteen cells of every device at round 0 with their positions, and the 21
  duty tokens minted per device (seven of its barrier cell, one of each send cell, one of each receive cell);
  what funding it gives each device.
-/
import proofs.«900349_g7700000000000350_dist_diff_adaln_cshard_i_b4_s256_c128_v7x_i8_bf16_1_alg».proof.Proof.Gen.Kernel.Frame
import proofs.«900349_g7700000000000350_dist_diff_adaln_cshard_i_b4_s256_c128_v7x_i8_bf16_1_alg».proof.Proof.Gen.Kernel.Skeleton
import proofs.«900349_g7700000000000350_dist_diff_adaln_cshard_i_b4_s256_c128_v7x_i8_bf16_1_alg».proof.Proof.WProtoD
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens minted at launch -/

theorem ownSemFacts : Pipeline.OwnSemFacts cfg0.spec osem := by decide

def ringCells : Finset (GSem nD τ sig) := Finset.univ.map ⟨kcell, kcell_injective⟩

/-- A device's minted tokens: the seven duties of its barrier cell, the duty of each send cell, of each receive cell. -/
def tokOf (cj : Dev nD × (Fin 7 ⊕ Fin 7 ⊕ Fin 7)) : GSem nD τ sig × ℕ × Fin 7 := match cj.2 with
  | .inl d => (barCell cj.1, 0, d)
  | .inr (.inl j) => (sendCell cj.1 j, 0, 0)
  | .inr (.inr j) => (recvCell cj.1 j, 0, 0)

theorem tokOf_injective : Function.Injective (tokOf : Dev nD × (Fin 7 ⊕ Fin 7 ⊕ Fin 7) → GSem nD τ sig × ℕ × Fin 7) := by
  rintro ⟨c, j⟩ ⟨c', j'⟩ h
  have h1 : c = c' := by
    have := congrArg (fun x : GSem nD τ sig × ℕ × Fin 7 => x.1.1.1) h
    rcases j with d | j | j <;> rcases j' with d' | j' | j' <;> exact this
  subst h1
  have hs : (tokOf (c, j)).1.2 = (tokOf (c, j')).1.2 := congrArg (fun x : GSem nD τ sig × ℕ × Fin 7 => x.1.2) h
  have hd : (tokOf (c, j)).2.2 = (tokOf (c, j')).2.2 := congrArg (fun x : GSem nD τ sig × ℕ × Fin 7 => x.2.2) h
  rcases j with d | j | j <;> rcases j' with d' | j' | j'
  · have : d = d' := hd
    rw [this]
  · exact absurd hs.symm (send_ne_bar j')
  · exact absurd hs.symm (recv_ne_bar j')
  · exact absurd hs (send_ne_bar j)
  · have : j = j' := sendSem_inj (SemLoc.dma.inj hs)
    rw [this]
  · exact absurd hs (send_ne_recv j j')
  · exact absurd hs (recv_ne_bar j)
  · exact absurd hs.symm (send_ne_recv j' j)
  · have : j = j' := recvSem_inj (SemLoc.dma.inj hs)
    rw [this]

def ringToks : Finset (GSem nD τ sig × ℕ × Fin 7) := Finset.univ.map ⟨tokOf, tokOf_injective⟩

/-- The launch element: the pipeline's cells and tokens, and the protocol's. -/
def u₀ : UU :=
  (initOf (Pipeline.cells cfgs cellOf_inj) (Pipeline.launchToks cfgs cellOf_inj), initOf ringCells ringToks)

/-- The duty tokens of device c's own cells. -/
def toks (c : Dev nD) : sProp 𝕄 :=
  iprop((bigSep Finset.univ fun d : Fin 7 => dutyTok ER (barCell c) 0 d)
    ∗ (bigSep Finset.univ fun j : Fin 7 => dutyTok ER (sendCell c j) 0 0)
    ∗ (bigSep Finset.univ fun j : Fin 7 => dutyTok ER (recvCell c j) 0 0))

/-- What the launch element deals device c: the round states of its fifteen cells, its positions in them, that each
    is at round 0, and its minted tokens. -/
def G (c : Dev nD) : sProp 𝕄 :=
  iprop((bigSep Finset.univ fun k : Fin 15 => roundState ER (Rd m) (kcell (c, k)) 0)
    ∗ (bigSep Finset.univ fun k : Fin 15 => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element funds the pipeline's cells and deals every device its share of the protocol's. -/
theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

end Cert.Kernel.Hand

end
-- ==== Proof.WGhost.lean ====
/-
  From the launch's dealing to what each device's body starts from: the own semaphores are the fourteen DMA cells
  and the one unscoped semaphore the barrier cell; every cell's invariant is allocated for all devices at once;
  each minted token goes to the device that pays its duty.
-/
import proofs.«900349_g7700000000000350_dist_diff_adaln_cshard_i_b4_s256_c128_v7x_i8_bf16_1_alg».proof.Proof.Gen.Kernel.Frame
import proofs.«900349_g7700000000000350_dist_diff_adaln_cshard_i_b4_s256_c128_v7x_i8_bf16_1_alg».proof.Proof.Gen.Kernel.Skeleton
import proofs.«900349_g7700000000000350_dist_diff_adaln_cshard_i_b4_s256_c128_v7x_i8_bf16_1_alg».proof.Proof.WProtoD
import proofs.«900349_g7700000000000350_dist_diff_adaln_cshard_i_b4_s256_c128_v7x_i8_bf16_1_alg».proof.Proof.WGhostA
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The fifteen cells of a device as barrier, seven send, seven receive -/

def e15 : Fin 1 ⊕ (Fin 7 ⊕ Fin 7) ≃ Fin 15 :=
  (Equiv.sumCongr (Equiv.refl (Fin 1)) (finSumFinEquiv : Fin 7 ⊕ Fin 7 ≃ Fin 14)).trans (finSumFinEquiv : Fin 1 ⊕ Fin 14 ≃ Fin 15)
theorem e15_b : e15 (.inl 0) = 0 := by decide
theorem e15_s (j : Fin 7) : e15 (.inr (.inl j)) = sIdx j := by revert j; decide
theorem e15_r (j : Fin 7) : e15 (.inr (.inr j)) = rIdx j := by revert j; decide

omit [FloatOps F] in
theorem bigSep_fin15 (Φ : Fin 15 → sProp 𝕄) :
    bigSep Finset.univ Φ = iprop(Φ 0 ∗ (bigSep Finset.univ fun j : Fin 7 => Φ (sIdx j)) ∗ (bigSep Finset.univ fun j : Fin 7 => Φ (rIdx j))) := by
  rw [bigSep_univ_equiv e15 Φ, bigSep_univ_sum, bigSep_univ_sum, bigSep_univ_of_subsingleton (0 : Fin 1)]
  simp only [e15_b, e15_s, e15_r]
  rfl

theorem kcell_s (c : Dev nD) (j : Fin 7) : kcell (c, sIdx j) = sendCell c j := congrArg (Prod.mk (c : Thread nD τ)) (csem_s j)
theorem kcell_r (c : Dev nD) (j : Fin 7) : kcell (c, rIdx j) = recvCell c j := congrArg (Prod.mk (c : Thread nD τ)) (csem_r j)

omit [FloatOps F] in
/-- Anything said of a device's fifteen cells, said of its barrier cell, its send cells and its receive cells. -/
theorem cells15 (c : Dev nD) (Ψ : GSem nD τ sig → sProp 𝕄) :
    (bigSep Finset.univ fun k : Fin 15 => Ψ (kcell (c, k)))
      = iprop(Ψ (barCell c) ∗ (bigSep Finset.univ fun j : Fin 7 => Ψ (sendCell c j)) ∗ (bigSep Finset.univ fun j : Fin 7 => Ψ (recvCell c j))) := by
  rw [bigSep_fin15]
  simp only [kcell_s, kcell_r]
  rfl

/-! ## The semaphores the launch hands over -/

theorem osem_s (j : Fin 7) : osem ((finSumFinEquiv : Fin 7 ⊕ Fin 7 ≃ Fin 14) (.inl j)) = .dma (sendSem j) := by revert j; decide
theorem osem_r (j : Fin 7) : osem ((finSumFinEquiv : Fin 7 ⊕ Fin 7 ≃ Fin 14) (.inr j)) = .dma (recvSem j) := by revert j; decide

omit [FloatOps F] in
/-- The kernel's own semaphores are the seven send and the seven receive semaphores; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ (bigSep Finset.univ fun j : Fin 7 => semVal (recvCell c j) 0)) := by
  unfold Pipeline.ownSems0
  rw [bigSep_univ_equiv (finSumFinEquiv : Fin 7 ⊕ Fin 7 ≃ Fin 14), bigSep_univ_sum]
  simp only [osem_s, osem_r]
  rfl

omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 15 => semVal (kcell (c, k)) 0 : sProp 𝕄) := by
  rw [ownSems0_eq, unscopedSems0_eq, cells15 c (fun g => semVal g 0)]
  iintro ⟨⟨HS, HV⟩, HB⟩
  isplitl [HB]; · iexact HB
  isplitl [HS] <;> iassumption

/-- Every cell of device c gets its invariant: its counter at zero and its round state at zero go in. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 15 => semVal (kcell (c, k)) 0) ∗ bigSep Finset.univ fun k : Fin 15 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the tokens to their payers -/

/-- Duty d of device c's cells is paid by src c d; read the other way, device p pays duty k at peer p k. -/
def deal : Dev nD × Fin 7 ≃ Dev nD × Fin 7 where
  toFun pk := (peer pk.1 pk.2, pk.2)
  invFun cd := (src cd.1 cd.2, cd.2)
  left_inv pk := Prod.ext (src_peer pk.1 pk.2) rfl
  right_inv cd := Prod.ext (peer_src cd.1 cd.2) rfl

omit [FloatOps F] in
theorem deal_around (T : Dev nD → Fin 7 → sProp 𝕄) :
    (bigSep Finset.univ fun c : Dev nD => bigSep Finset.univ fun d : Fin 7 => T c d)
      = bigSep Finset.univ fun p : Dev nD => bigSep Finset.univ fun k : Fin 7 => T (peer p k) k :=
  calc (bigSep Finset.univ fun c : Dev nD => bigSep Finset.univ fun d : Fin 7 => T c d)
      = bigSep Finset.univ (fun cd : Dev nD × Fin 7 => T cd.1 cd.2) := (bigSep_univ_prod (fun cd : Dev nD × Fin 7 => T cd.1 cd.2)).symm
    _ = bigSep Finset.univ (fun pk : Dev nD × Fin 7 => T (deal pk).1 (deal pk).2) := bigSep_univ_equiv deal (fun cd : Dev nD × Fin 7 => T cd.1 cd.2)
    _ = _ := bigSep_univ_prod (fun pk : Dev nD × Fin 7 => T (deal pk).1 (deal pk).2)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal_around (fun c d => (dutyTok ER (barCell c) 0 d : sProp 𝕄)),
    deal_around (fun c j => (dutyTok ER (recvCell c j) 0 0 : sProp 𝕄))]
  iintro ⟨H1, H2, H3⟩
  isplitl [H1]; · iexact H1
  isplitl [H3]; · iexact H3
  iexact H2

/-! ## The global step -/

/-- What stays with device c: its positions, and the tokens of the duties it pays. -/
def linear (c : Dev nD) : sProp 𝕄 := iprop(positions c ∗ payToks c)

theorem ghost_intro (c : Dev nD) : iprop(records m ∗ linear c) ⊢ ghost m c := by
  unfold linear ghost
  iintro ⟨#HR, HL⟩
  isplitr
  · iapply (needs_of_records m c); iexact HR
  iexact HL

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (ghost m) := by
  rw [bigSep_sep', bigSep_sep', ← bigSep_univ_prod (fun ck : Dev nD × Fin 15 => iprop(∃ κ : ℕ, cellInv ER (Rd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨#HI, ⟨Hat, #HR⟩, Htok⟩
  ihave Htk := (toks_around (F := F)) $$ Htok
  iapply (bigSep_with_persistent (R := records m) fun c _ => ghost_intro m c)
  isplitr
  · unfold records; isplitl; · iexact HI
    iexact HR
  · iapply ((Entails.of_eq (bigSep_sep' Finset.univ (fun c : Dev nD => bigSep Finset.univ fun k : Fin 15 => (atPos ER (kcell (c, k)) 0 ∅ 0 : sProp 𝕄)) payToks).symm).trans
      (bigSep_mono fun c _ => show _ ⊢ linear c from Entails.of_eq (by unfold linear positions; rw [cells15 c (fun g => atPos ER g 0 ∅ 0)])))
    isplitl [Hat]; · iexact Hat
    iexact Htk

/-- The global step: the own and the unscoped semaphores of every device at once, every cell's invariant allocated,
    the tokens dealt to their payers. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

end Cert.Kernel.Hand

end
-- ==== Proof.WCredit.lean ====
/-
  The launch credit of the ring protocol: what each device owes each barrier and receive cell at
  launch, summed over the eight devices — seven units on a device's barrier cell (one from every
  other device) and one block's credit on each of its seven receive cells (from the device the
  same number of places before it) — and the level evidence for the pipeline's own staging waits.
-/
import proofs.«900349_g7700000000000350_dist_diff_adaln_cshard_i_b4_s256_c128_v7x_i8_bf16_1_alg».proof.Proof.Gen.Kernel.Frame
import proofs.«900349_g7700000000000350_dist_diff_adaln_cshard_i_b4_s256_c128_v7x_i8_bf16_1_alg».proof.Proof.Gen.Kernel.Skeleton
import proofs.«900349_g7700000000000350_dist_diff_adaln_cshard_i_b4_s256_c128_v7x_i8_bf16_1_alg».proof.Proof.WProtoD
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which cell is which -/

omit [FloatOps F] in
theorem bar_eq_iff {a b : Dev nD} : barCell a = barCell b ↔ a = b :=
  ⟨fun h => Fin.ext (congrArg (fun g : GSem nD τ sig => g.1.1.val) h), fun h => h ▸ rfl⟩

omit [FloatOps F] in
theorem recv_eq_iff {a b : Dev nD} {j j' : Fin 7} : recvCell a j = recvCell b j' ↔ a = b ∧ j = j' :=
  ⟨fun h => ⟨Fin.ext (congrArg (fun g : GSem nD τ sig => g.1.1.val) h), recvSem_inj (SemLoc.dma.inj (congrArg Prod.snd h))⟩,
    fun h => h.1 ▸ h.2 ▸ rfl⟩

omit [FloatOps F] in
theorem bar_ne_recv (c d : Dev nD) (j : Fin 7) : barCell c ≠ recvCell d j :=
  fun h => recv_ne_bar j (congrArg Prod.snd h).symm

/-! ## What a device owes a cell at launch -/

omit [FloatOps F] in
/-- What is owed at launch, cell by cell: the seven copies' credits and the seven signals' units. -/
theorem O₀_apply (d : Dev nD) (g : GSem nD τ sig) (u : Unit) :
    O₀ d g u = (∑ k : Fin 7, rT d k g u) + ∑ k : Fin 7, bT d k g u := by
  rw [Fin.sum_univ_seven, Fin.sum_univ_seven]
  show (0 + rT d 6 + rT d 5 + rT d 4 + rT d 3 + rT d 2 + rT d 1 + rT d 0
    + bT d 6 + bT d 5 + bT d 4 + bT d 3 + bT d 2 + bT d 1 + bT d 0 : CellTallies nD τ sig Unit) g u = _
  simp only [Pi.add_apply, Finsupp.add_apply, Pi.zero_apply, Finsupp.coe_zero]
  omega

/-- Among the seven peers of d at most one is c. -/
theorem sum_peer_eq (d c : Dev nD) :
    (∑ k : Fin 7, if peer d k = c then 1 else 0) = if ∃ k : Fin 7, peer d k = c then 1 else 0 := by
  revert d c; decide

/-- Every device is a peer of exactly seven. -/
theorem sum_dev_peer (c : Dev nD) : (∑ d : Dev nD, if ∃ k : Fin 7, peer d k = c then 1 else 0) = 7 := by
  revert c; decide

omit [FloatOps F] in
/-- Device d owes c's barrier cell one unit when c is one of its seven peers — every device but d itself — and nothing otherwise. -/
theorem owed_bar (d c : Dev nD) : O₀ d (barCell c) () = if ∃ k : Fin 7, peer d k = c then 1 else 0 := by
  rw [O₀_apply]
  have hr : ∀ k : Fin 7, rT d k (barCell c) () = 0 := fun k => by
    unfold rT; rw [tallyAt_apply, if_neg fun h => bar_ne_recv c _ _ h.1]
  have hb : ∀ k : Fin 7, bT d k (barCell c) () = if peer d k = c then 1 else 0 := fun k => by
    unfold bT; rw [tallyAt_apply]
    by_cases h : peer d k = c
    · rw [if_pos h, if_pos ⟨by rw [h], rfl⟩]
    · rw [if_neg h, if_neg fun h1 => h (bar_eq_iff.mp h1.1).symm]
  rw [Finset.sum_congr rfl fun k _ => hr k, Finset.sum_congr rfl fun k _ => hb k, Finset.sum_const_zero, Nat.zero_add]
  exact sum_peer_eq d c

omit [FloatOps F] in
/-- Device d owes c's receive cell j the block's credit when c is its peer at offset j, and nothing otherwise. -/
theorem owed_recv (d c : Dev nD) (j : Fin 7) : O₀ d (recvCell c j) () = if peer d j = c then N else 0 := by
  rw [O₀_apply]
  have hb : ∀ k : Fin 7, bT d k (recvCell c j) () = 0 := fun k => by
    unfold bT; rw [tallyAt_apply, if_neg fun h => bar_ne_recv _ c j h.1.symm]
  have hr : ∀ k : Fin 7, rT d k (recvCell c j) () = if k = j then (if peer d j = c then N else 0) else 0 := fun k => by
    unfold rT; rw [tallyAt_apply]
    by_cases hk : k = j
    · subst hk; rw [if_pos rfl]
      by_cases h : peer d k = c
      · rw [if_pos h, if_pos ⟨by rw [h], rfl⟩]
      · rw [if_neg h, if_neg fun h1 => h (recv_eq_iff.mp h1.1).1.symm]
    · rw [if_neg hk, if_neg fun h1 => hk (recv_eq_iff.mp h1.1).2.symm]
  rw [Finset.sum_congr rfl fun k _ => hr k, Finset.sum_congr rfl fun k _ => hb k, Finset.sum_const_zero, Nat.add_zero,
    Finset.sum_ite_eq' Finset.univ j, if_pos (Finset.mem_univ _)]

/-! ## The launch credit of a device's cells -/

omit [FloatOps F] in
/-- Seven devices owe a barrier cell one unit each. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  exact sum_dev_peer c

omit [FloatOps F] in
/-- One device, the one j+1 places before c, owes c's receive cell j the block's credit. -/
theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j]
  simp only [peer_eq_iff]
  rw [Finset.sum_ite_eq' Finset.univ (src c j) fun _ => N, if_pos (Finset.mem_univ _)]

omit [FloatOps F] in
/-- Out of a device's launch credit: the seven units of its barrier cell and the block's credit of each receive cell. -/
theorem creds (c : Dev nD) :
    (Pipeline.launchCred O₀ c : sProp 𝕄)
      ⊢ iprop(cred (tallyAt (barCell c) () 7) ∗ bigSep Finset.univ fun j : Fin 7 => cred (tallyAt (recvCell c j) () N)) := by
  unfold Pipeline.launchCred
  rw [bigSep_univ_at _ (SemLoc.reg barS), launch_bar]
  refine sep_mono_right ?_
  refine (bigSep_subset (t := Finset.univ.image fun j : Fin 7 => (SemLoc.dma (recvSem j) : SemLoc sig)) fun sm hsm => ?_).trans ?_
  · obtain ⟨j, -, rfl⟩ := Finset.mem_image.mp hsm
    exact Finset.mem_erase.mpr ⟨recv_ne_bar j, Finset.mem_univ _⟩
  · rw [bigSep_image_of_injOn fun a _ b _ h => recvSem_inj (SemLoc.dma.inj h)]
    refine bigSep_mono fun j _ => ?_
    rw [← launch_recv]
    exact BI.Entails.refl _

/-! ## The pipeline's own waits -/

/-- Every staging cell of the five windows is at level 0, below everything a device owes: before the one grid point
    what it owes at launch, after it nothing. -/
theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide +revert) _ (by
      rcases t with ⟨_ | _, ht⟩
      · exact Or.inl ⟨7, rfl⟩
      · exact Or.inr rfl)

end Cert.Kernel.Hand

end
-- ==== Proof.WViews.lean ====
/-
  Layout facts about the two scratch buffers of the protocol, for every float instance: which elements of the
  7×2×4×256 receive buffer slot j is (those whose first coordinate is j), where a write of a 2×4×256 block through
  slot j puts each element ((r, b, s) at (j, r, b, s)), that the seven slots partition the buffer, and that a copy of a
  device's block of partial sums into slot j of its peer leaves there what that peer's buffer is to hold.
-/
import proofs.«900349_g7700000000000350_dist_diff_adaln_cshard_i_b4_s256_c128_v7x_i8_bf16_1_alg».proof.Proof.WProtoB
import Idealize.ShloMosaic.Lib.ValueIdx
import Idealize.ShloMosaic.Lib.ValueLayout
import Idealize.ShloMosaic.Lib.Pipeline.Value

noncomputable section

namespace Cert.Kernel.Hand

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The elements of a slot -/

/-- The elements of slot j are those of the rectangle at offset (j, 0, 0, 0) of sizes 1×2×4×256: the squeeze keeps the
    elements, the slice of the whole buffer has the rectangle's. -/
theorem slot_set (j : Fin 7) : ((slot j).view.set : Finset S7x2x4x256.Idx) = (Rect.unit (s := S7x2x4x256) ![j.val, 0, 0, 0] S1x2x4x256.size (inb_slot j)).set := by
  unfold slot
  exact (View.set_reshape _ _).trans (View.set_slice_whole _ _)

/-- An index of the 7×2×4×256 buffer lies in that rectangle exactly when its first coordinate is j. -/
theorem mem_slotRect (j : Fin 7) (i : S7x2x4x256.Idx) :
    i ∈ (Rect.unit (s := S7x2x4x256) ![j.val, 0, 0, 0] S1x2x4x256.size (inb_slot j)).set ↔ (i 0).val = j.val := by
  rw [Rect.mem_set_unit]
  constructor
  · intro h
    have h0 := h 0
    simp only [Matrix.cons_val_zero] at h0
    have : S1x2x4x256.size 0 = 1 := rfl
    omega
  · intro h a
    match a with
    | ⟨0, _⟩ => exact ⟨by show j.val ≤ (i 0).val; omega, by show (i 0).val < j.val + 1; omega⟩
    | ⟨1, _⟩ => exact ⟨Nat.zero_le _, by show (i 1).val < 0 + 2; have : (i 1).val < 2 := (i 1).isLt; omega⟩
    | ⟨2, _⟩ => exact ⟨Nat.zero_le _, by show (i 2).val < 0 + 4; have : (i 2).val < 4 := (i 2).isLt; omega⟩
    | ⟨3, _⟩ => exact ⟨Nat.zero_le _, by show (i 3).val < 0 + 256; have : (i 3).val < 256 := (i 3).isLt; omega⟩

/-- The elements of slot j are the indices of the 7×2×4×256 buffer whose first coordinate is j (indices written at the
    buffer's literal shape). -/
theorem slot_mem' (j : Fin 7) (i : S7x2x4x256.Idx) : i ∈ ((slot j).view.set : Finset S7x2x4x256.Idx) ↔ (i 0).val = j.val := by
  rw [slot_set]; exact mem_slotRect j i

/-- The same, the index written at the location's type. -/
theorem slot_mem (j : Fin 7) (c : Dev nD) (i : Idx ((slot j).view.loc (c : Thread nD τ))) :
    i ∈ ((slot j).view.set : Finset (Idx ((slot j).view.loc (c : Thread nD τ)))) ↔ (i (0 : Fin 4)).val = j.val := slot_mem' j i

/-! ## Where a slot puts an element -/

/-- Slot j places element (r, b, s) of a 2×4×256 block at (j, r, b, s): the squeeze puts the unit axis back at
    coordinate 0, the rectangle adds its offsets (j, 0, 0, 0). -/
theorem slot_emb (j : Fin 7) (r : Fin 2) (b : Fin 4) (s : Fin 256) :
    ((slot j).view.emb (ValueIdx.ix3 r b s) : S7x2x4x256.Idx) = ValueIdx.ix4 (n0 := 7) (n1 := 2) (n2 := 4) (n3 := 256) ⟨j.val, j.isLt⟩ r b s := by
  show (Rect.unit (s := S7x2x4x256) ![j.val, 0, 0, 0] S1x2x4x256.size (inb_slot j)).emb
      (Shape.reshapeEquiv squeezes_S1x2x4x256_S2x4x256.numel_eq (ValueIdx.ix3 r b s)) = _
  rw [ValueIdx.reshapeEquiv_ix3_1abc]
  funext a
  match a with
  | ⟨0, _⟩ => exact Fin.ext (by show j.val + 1 * 0 = j.val; omega)
  | ⟨1, _⟩ => exact Fin.ext (by show 0 + 1 * r.val = r.val; omega)
  | ⟨2, _⟩ => exact Fin.ext (by show 0 + 1 * b.val = b.val; omega)
  | ⟨3, _⟩ => exact Fin.ext (by show 0 + 1 * s.val = s.val; omega)

/-- A write of a whole 2×4×256 block through slot j leaves, at (j, r, b, s), the block's element (r, b, s). -/
theorem slot_write_ix4 (j : Fin 7) (fd : (slot j).view.ty.Contents (Elt F)) (v : S2x4x256.Idx → Elt F .f32)
    (r : Fin 2) (b : Fin 4) (s : Fin 256) :
    (slot j).view.write (Elt F) fd v Finset.univ (ValueIdx.ix4 (n0 := 7) (n1 := 2) (n2 := 4) (n3 := 256) ⟨j.val, j.isLt⟩ r b s)
      = v (ValueIdx.ix3 r b s) := by
  have h := View.write_emb_of_mem (v := (slot j).view) fd v (Finset.mem_univ (ValueIdx.ix3 r b s))
  rw [slot_emb] at h
  exact h

/-- An index of the 7×2×4×256 buffer whose first coordinate is j, by its coordinates. -/
theorem eq_ix4_of_first (j : Fin 7) (i : S7x2x4x256.Idx) (h0 : (i 0).val = j.val) :
    i = ValueIdx.ix4 (n0 := 7) (n1 := 2) (n2 := 4) (n3 := 256) ⟨j.val, j.isLt⟩ (i 1) (i 2) (i 3) := by
  funext a
  match a with
  | ⟨0, _⟩ => exact Fin.ext h0
  | ⟨1, _⟩ => rfl
  | ⟨2, _⟩ => rfl
  | ⟨3, _⟩ => rfl

/-- A write of a whole 2×4×256 block through slot j puts element (r, b, s) at (j, r, b, s), whatever was there. -/
theorem slot_write (j : Fin 7) (c : Dev nD) (fd : Buf (Elt F) ((slot j).view.loc (c : Thread nD τ))) (v : S2x4x256.Idx → Elt F .f32)
    (i : S7x2x4x256.Idx) (hi : i ∈ ((slot j).view.set : Finset S7x2x4x256.Idx)) :
    (slot j).view.write (Elt F) fd v Finset.univ i = v (ValueIdx.ix3 (n0 := 2) (n1 := 4) (n2 := 256) (i 1) (i 2) (i 3)) := by
  have h := slot_write_ix4 j fd v (i 1) (i 2) (i 3)
  rwa [← eq_ix4_of_first j i ((slot_mem' j i).mp hi)] at h

/-- The receive buffer's intended contents at an index whose first coordinate is k: the block of src c k. -/
theorem recvAll_apply (c : Dev nD) (k : Fin 7) (i : S7x2x4x256.Idx) (hk : (i 0).val = k.val) :
    recvAll m c i = sendC m (src c k) (ValueIdx.ix3 (n0 := 2) (n1 := 4) (n2 := 256) (i 1) (i 2) (i 3)) :=
  congrArg (fun q => sendC m (src c q) (ValueIdx.ix3 (n0 := 2) (n1 := 4) (n2 := 256) (i 1) (i 2) (i 3)))
    (Fin.ext hk : (⟨(i 0).val, (i 0).isLt⟩ : Fin 7) = k)

/-- What a copy of device c's block of partial sums into slot j of its peer leaves there is what that peer's receive
    buffer is to hold: slot j of peer c j holds the block of src (peer c j) j = c. -/
theorem landed_congr (c : Dev nD) (j : Fin 7) (fd : Buf (Elt F) ((slot j).view.loc ((peer c j : Dev nD) : Thread nD τ)))
    (i : S7x2x4x256.Idx) (hi : i ∈ ((slot j).view.set : Finset S7x2x4x256.Idx)) :
    (slot j).view.write (Elt F) fd ((sbM : Memref sig .tc .vmem S2x4x256 .f32).view.read (Elt F) (sendC m c)) Finset.univ i
      = recvAll m (peer c j) i := by
  rw [slot_write j (peer c j) fd _ i hi, recvAll_apply m (peer c j) j i ((slot_mem' j i).mp hi), src_peer]
  exact congrFun (View.read_whole (Val := Elt F) cc0_scratch0 (sendC m c)) _

/-! ## The seven slots partition the receive buffer -/

/-- Different slots share no element: an element's first coordinate names its slot. -/
theorem slots_disjoint (c : Dev nD) (j j' : Fin 7) (h : j ≠ j') :
    Disjoint ((slot j).view.set : Finset (Idx ((rbM : Memref sig .tc .vmem S7x2x4x256 .f32).view.loc (c : Thread nD τ))))
      ((slot j').view.set : Finset (Idx ((rbM : Memref sig .tc .vmem S7x2x4x256 .f32).view.loc (c : Thread nD τ)))) :=
  Finset.disjoint_left.mpr fun (i : S7x2x4x256.Idx) hi hi' =>
    h (Fin.ext (((slot_mem' j i).mp hi).symm.trans ((slot_mem' j' i).mp hi')))

/-- Every element of the receive buffer is in the slot its first coordinate names. -/
theorem slots_union (c : Dev nD) :
    (Finset.univ : Finset (Fin 7)).biUnion
        (fun j => ((slot j).view.set : Finset (Idx ((rbM : Memref sig .tc .vmem S7x2x4x256 .f32).view.loc (c : Thread nD τ)))))
      = (rbM : Memref sig .tc .vmem S7x2x4x256 .f32).view.set :=
  Finset.ext fun (i : S7x2x4x256.Idx) =>
    ⟨fun _ => (View.set_whole (sig := sig) cc0_scratch1).symm ▸ Finset.mem_univ i,
     fun _ => Finset.mem_biUnion.mpr ⟨⟨(i 0).val, (i 0).isLt⟩, Finset.mem_univ _, (slot_mem' _ i).mpr rfl⟩⟩

end Cert.Kernel.Hand

end
-- ==== Proof.WSide.lean ====
/-
  The launch theorem's side conditions: what each device's ghost state and launch credit make of its start, how the
  scoped scratch buffers enter and leave the proof data, the receive buffer as its seven slots, what a copy leaves in a
  slot, and what the arrays hold after the run.
-/
import proofs.«900349_g7700000000000350_dist_diff_adaln_cshard_i_b4_s256_c128_v7x_i8_bf16_1_alg».proof.Proof.Gen.Kernel.Frame
import proofs.«900349_g7700000000000350_dist_diff_adaln_cshard_i_b4_s256_c128_v7x_i8_bf16_1_alg».proof.Proof.Gen.Kernel.Skeleton
import proofs.«900349_g7700000000000350_dist_diff_adaln_cshard_i_b4_s256_c128_v7x_i8_bf16_1_alg».proof.Proof.WProtoD
import proofs.«900349_g7700000000000350_dist_diff_adaln_cshard_i_b4_s256_c128_v7x_i8_bf16_1_alg».proof.Proof.WGhost
import proofs.«900349_g7700000000000350_dist_diff_adaln_cshard_i_b4_s256_c128_v7x_i8_bf16_1_alg».proof.Proof.WCredit
import proofs.«900349_g7700000000000350_dist_diff_adaln_cshard_i_b4_s256_c128_v7x_i8_bf16_1_alg».proof.Proof.WViews
import proofs.«900349_g7700000000000350_dist_diff_adaln_cshard_i_b4_s256_c128_v7x_i8_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data's shares -/

theorem share_eq (c : Dev nD) (w : Fin cfg0.W) : (dats m 0 c).share w = fullShare := by unfold Dat.share; split <;> rfl

/-! ## From the global step's ghost state and the launch credit to a device's start -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds (F := F) c) $$ Hcr
  icases Hc with ⟨H7, HN⟩
  imodintro
  unfold start
  isplitl
  · isplitl [HG]; · iexact HG
    isplitl [H7]; · iexact H7
    isplitl [HN]; · iexact HN
    iexact Hlev
  · iempintro

/-! ## The scratch buffers, whole -/

omit [FloatOps F] in
theorem sb_set : (sbM : Memref sig .tc .vmem S2x4x256 .f32).view.set = Finset.univ := View.set_whole _
omit [FloatOps F] in
theorem rb_set : (rbM : Memref sig .tc .vmem S7x2x4x256 .f32).view.set = Finset.univ := View.set_whole _

omit [FloatOps F] in
theorem sbPts_eq (c : Dev nD) (f : Buf (Elt F) ((c : Thread nD τ).loc cc0_scratch0)) :
    sbPts c fullShare f = (((c : Thread nD τ).loc cc0_scratch0) ↦{fullShare} f : sProp 𝕄) := by unfold sbPts; rw [sb_set]
omit [FloatOps F] in
theorem rbPts_eq (c : Dev nD) (f : Buf (Elt F) ((c : Thread nD τ).loc cc0_scratch1)) :
    ((rbM : Memref sig .tc .vmem S7x2x4x256 .f32).view.loc (c : Thread nD τ) ↦[(rbM : Memref sig .tc .vmem S7x2x4x256 .f32).view.set]{fullShare} f : sProp 𝕄)
      = (((c : Thread nD τ).loc cc0_scratch1) ↦{fullShare} f : sProp 𝕄) := by rw [rb_set]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ sbAny rbAny
  iintro ⟨Hs, -, ⟨%f, Hf⟩, ⟨%g, Hg⟩⟩
  isplitl [Hs]; · iexact Hs
  isplitl [Hf]
  · iexists f; rw [sbPts_eq]; iexact Hf
  · iexists g; rw [rbPts_eq]; iexact Hg

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ sbAny rbAny
  iintro ⟨⟨%f, Hf⟩, ⟨%g, Hg⟩, HzS, HzV⟩
  isplitr; · iempintro
  isplitl [HzS HzV]
  · isplitl [HzS] <;> iassumption
  isplitl [Hf]
  · iexists f; rw [← sbPts_eq]; iexact Hf
  · iexists g; rw [← rbPts_eq]; iexact Hg

/-! ## The receive buffer as its seven slots -/

theorem rb_eq (c : Dev nD) (f : Buf (Elt F) ((rbM : Memref sig .tc .vmem S7x2x4x256 .f32).view.loc (c : Thread nD τ))) :
    ((rbM : Memref sig .tc .vmem S7x2x4x256 .f32).view.loc (c : Thread nD τ) ↦[(rbM : Memref sig .tc .vmem S7x2x4x256 .f32).view.set]{fullShare} f : sProp 𝕄)
      = iprop(slotPts c 0 f ∗ slotPts c 1 f ∗ slotPts c 2 f ∗ slotPts c 3 f ∗ slotPts c 4 f ∗ slotPts c 5 f ∗ slotPts c 6 f) := by
  have h := pointsTo_biUnion (Ix := Unit) (Name := ℕ) (U := UU) (Lvl := ℕ) (Val := Elt F) (ℓ := (rbM : Memref sig .tc .vmem S7x2x4x256 .f32).view.loc (c : Thread nD τ)) (q := fullShare) (f := f) (Finset.univ : Finset (Fin 7))
    (fun j => ((slot j).view.set : Finset (Idx ((rbM : Memref sig .tc .vmem S7x2x4x256 .f32).view.loc (c : Thread nD τ)))))
    (fun j _ j' _ hjj => slots_disjoint c j j' hjj)
  rw [slots_union c] at h
  rw [h, bigSep_fin7]
  rfl

theorem rb_split (c : Dev nD) (f : Buf (Elt F) ((rbM : Memref sig .tc .vmem S7x2x4x256 .f32).view.loc (c : Thread nD τ))) :
    ((rbM : Memref sig .tc .vmem S7x2x4x256 .f32).view.loc (c : Thread nD τ) ↦[(rbM : Memref sig .tc .vmem S7x2x4x256 .f32).view.set]{fullShare} f : sProp 𝕄)
      ⊢ iprop(slotPts c 0 f ∗ slotPts c 1 f ∗ slotPts c 2 f ∗ slotPts c 3 f ∗ slotPts c 4 f ∗ slotPts c 5 f ∗ slotPts c 6 f) :=
  Entails.of_eq (rb_eq c f)

theorem rb_join (c : Dev nD) (f : Buf (Elt F) ((rbM : Memref sig .tc .vmem S7x2x4x256 .f32).view.loc (c : Thread nD τ))) :
    iprop(slotPts c 0 f ∗ slotPts c 1 f ∗ slotPts c 2 f ∗ slotPts c 3 f ∗ slotPts c 4 f ∗ slotPts c 5 f ∗ slotPts c 6 f)
      ⊢ ((rbM : Memref sig .tc .vmem S7x2x4x256 .f32).view.loc (c : Thread nD τ) ↦[(rbM : Memref sig .tc .vmem S7x2x4x256 .f32).view.set]{fullShare} f : sProp 𝕄) :=
  Entails.of_eq (rb_eq c f).symm

/-! ## What a copy leaves in a slot -/

/-- Device c's block of partial sums copied into slot k of its peer leaves there what that peer's buffer is to hold. -/
theorem landed (c : Dev nD) (k : Fin 7) (fd : Buf (Elt F) ((slot k).view.loc ((peer c k : Dev nD) : Thread nD τ)))
    (i : Idx ((slot k).view.loc ((peer c k : Dev nD) : Thread nD τ))) (hi : i ∈ (slot k).view.set) :
    (slot k).view.write (Elt F) fd ((sbM : Memref sig .tc .vmem S2x4x256 .f32).view.read (Elt F) (sendC m c)) Finset.univ i = recvAll m (peer c k) i :=
  landed_congr m c k fd i hi

/-! ## The arrays after the run -/

theorem arrAt_in0 (c : Dev nD) : (dats m 0 c).arrAt (0 : Fin 5) cfg0.N = m ((c : Thread nD τ).loc main_arg0) :=
  (dats m 0 c).arrAt_in (0 : Fin 5) rfl _
theorem arrAt_in1 (c : Dev nD) : (dats m 0 c).arrAt (1 : Fin 5) cfg0.N = m ((c : Thread nD τ).loc main_arg1) :=
  (dats m 0 c).arrAt_in (1 : Fin 5) rfl _
theorem arrAt_in2 (c : Dev nD) : (dats m 0 c).arrAt (2 : Fin 5) cfg0.N = m ((c : Thread nD τ).loc main_arg2) :=
  (dats m 0 c).arrAt_in (2 : Fin 5) rfl _
theorem arrAt_in3 (c : Dev nD) : (dats m 0 c).arrAt (3 : Fin 5) cfg0.N = m ((c : Thread nD τ).loc main_arg3) :=
  (dats m 0 c).arrAt_in (3 : Fin 5) rfl _

/-- The result array's one block, the whole array, read back is what the body left in the staging buffer. -/
theorem arrAt_out_read (c : Dev nD) :
    (win0_4.blk t0_0).view.read (Elt F) ((dats m 0 c).arrAt (4 : Fin 5) cfg0.N) = outAt m c := by
  rw [show cfg0.N = (t0_0 : Fin cfg0.N).val + 1 from rfl, (dats m 0 c).arrAt_succ (4 : Fin 5) t0_0, flush0_4, if_pos rfl]
  exact View.read_write_univ _ _

/-- The result array after the run is the kernel's result block. -/
theorem arrAt_out (c : Dev nD) : (dats m 0 c).arrAt (4 : Fin 5) cfg0.N = outAt m c := by
  have hz : (fun a => (win0_4.index t0_0) a * main_v1.ty.shape.size a) = fun _ => 0 :=
    funext fun a => by fin_cases a <;> decide
  have hr := Memref.read_access_unit_zero (Elt F) main_v1 hz (fun a => by fin_cases a <;> decide) ((dats m 0 c).arrAt (4 : Fin 5) cfg0.N)
  exact hr.symm.trans (arrAt_out_read m c)

end Cert.Kernel.Hand

end
-- ==== Proof.WLaunch.lean ====
/-
  The launch: every device's body obligation, the ghost state dealt at launch, and the run of @main on the eight
  devices — every weakly fair execution terminates, nothing faults, each device's result array ends at the body's
  arithmetic of its own blocks and its seven peers' partial sums, and the argument arrays end unchanged.
-/
import proofs.«900349_g7700000000000350_dist_diff_adaln_cshard_i_b4_s256_c128_v7x_i8_bf16_1_alg».proof.Proof.Gen.Kernel.Frame
import proofs.«900349_g7700000000000350_dist_diff_adaln_cshard_i_b4_s256_c128_v7x_i8_bf16_1_alg».proof.Proof.Gen.Kernel.Skeleton
import proofs.«900349_g7700000000000350_dist_diff_adaln_cshard_i_b4_s256_c128_v7x_i8_bf16_1_alg».proof.Proof.WBody
import proofs.«900349_g7700000000000350_dist_diff_adaln_cshard_i_b4_s256_c128_v7x_i8_bf16_1_alg».proof.Proof.WSide
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 8000 in
/-- The library's body obligation on device c. -/
theorem body_obligation (c : Dev nD) : BodyObligation (dats (F := F) m 0 c) (defs₀ (F := F)) 𝒱₀ () Set.univ := fun t => by
  rw [fin_N0 t]
  rw [bigSep_W0, bigSep_W0]
  exact sound_body m c (fun k fd i hi => landed m c k fd i hi) (rb_join c) (rb_split c)

set_option maxRecDepth 8000 in
/-- At the compiled mesh of eight devices, for any float values, from any memory with zero counters: every weakly fair
    execution of @main — the eight kernels handshaking on the runtime's barrier semaphore, then exchanging their
    partial sums — terminates, and every final state has each device's result array at the computed contents and the
    four argument arrays unchanged. -/
theorem run_main : θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := hu₀ m) (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c => ⟨((h c).1 4).trans (arrAt_out m c), ((h c).1 0).trans (arrAt_in0 m c), ((h c).1 1).trans (arrAt_in1 m c),
      ((h c).1 2).trans (arrAt_in2 m c), ((h c).1 3).trans (arrAt_in3 m c)⟩)

end Cert.Kernel.Hand

end
-- ==== Proof.KViews2.lean ====
/-
  The two scratch buffers read at an index, for every float instance: rows 0 and 1 of a device's block of partial sums
  are its per-row sums and sums of squares (the two stores of the body), the two loads of the filled receive buffer read
  those of the source device of each slot, and each of the four input windows' block at the one grid point is the whole
  array as launched.
-/
import proofs.«900349_g7700000000000350_dist_diff_adaln_cshard_i_b4_s256_c128_v7x_i8_bf16_1_alg».proof.Proof.KViews
import Idealize.ShloMosaic.Lib.ValueIdx
import Idealize.ShloMosaic.Lib.ValueLayout
import Idealize.ShloMosaic.Lib.Pipeline.Value
import Idealize.ShloMosaic.Lib.Writes

noncomputable section

namespace Cert.KernelIdeal.Hand

open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The block of partial sums at an index -/

/-- The second store's rectangle places its own index (0, b, s) at (1, b, s). -/
theorem rowRect1_emb (b : Fin 4) (s : Fin 256) :
    (Rect.unit (s := S2x4x256) ![1, 0, 0] S1x4x256.size inb_S2x4x256_S1x4x256_1_0_0).emb (ValueIdx.ix3 (0 : Fin 1) b s)
      = ValueIdx.ix3 (n0 := 2) (n1 := 4) (n2 := 256) (1 : Fin 2) b s := by
  funext a
  match a with
  | ⟨0, _⟩ => exact Fin.ext (by show 1 + 1 * 0 = 1; rfl)
  | ⟨1, _⟩ => exact Fin.ext (by show 0 + 1 * b.val = b.val; omega)
  | ⟨2, _⟩ => exact Fin.ext (by show 0 + 1 * s.val = s.val; omega)

/-- The first store's rectangle places its own index (0, b, s) at (0, b, s). -/
theorem rowRect0_emb (b : Fin 4) (s : Fin 256) :
    (Rect.unit (s := S2x4x256) ![0, 0, 0] S1x4x256.size inb_S2x4x256_S1x4x256_0_0_0).emb (ValueIdx.ix3 (0 : Fin 1) b s)
      = ValueIdx.ix3 (n0 := 2) (n1 := 4) (n2 := 256) (0 : Fin 2) b s := by
  funext a
  match a with
  | ⟨0, _⟩ => exact Fin.ext (by show 0 + 1 * 0 = 0; rfl)
  | ⟨1, _⟩ => exact Fin.ext (by show 0 + 1 * b.val = b.val; omega)
  | ⟨2, _⟩ => exact Fin.ext (by show 0 + 1 * s.val = s.val; omega)

/-- No element of row 0 is under the second store's rectangle (row 1). -/
theorem row0_not_mem_rowRect1 (b : Fin 4) (s : Fin 256) :
    ValueIdx.ix3 (n0 := 2) (n1 := 4) (n2 := 256) (0 : Fin 2) b s
      ∉ Finset.univ.map (Rect.unit (s := S2x4x256) ![1, 0, 0] S1x4x256.size inb_S2x4x256_S1x4x256_1_0_0).emb := by
  rw [Rect.map_emb_univ, Rect.mem_set_unit]
  intro h
  have h0 := (h 0).1
  exact absurd h0 (by show ¬ (1 ≤ 0); omega)

/-- Row 1 of a device's block of partial sums: its per-row sums of squares. -/
theorem sendC_row1 (p : Dev nD) (b : Fin 4) (s : Fin 256) :
    sendC m p (ValueIdx.ix3 (n0 := 2) (n1 := 4) (n2 := 256) (1 : Fin 2) b s) = k0_pay3 (v96 m p) (ValueIdx.ix2 b s) := by
  have h := View.read_writes_cons_emb (Val := Elt F) (sbM : Memref sig .tc .vmem S2x4x256 .f32).view
    (sbM : Memref sig .tc .vmem S2x4x256 .f32).view.junk
    (Rect.unit (s := S2x4x256) ![1, 0, 0] S1x4x256.size inb_S2x4x256_S1x4x256_1_0_0) (k0_pay5 (v96 m p))
    [⟨Rect.unit (s := S2x4x256) ![0, 0, 0] S1x4x256.size inb_S2x4x256_S1x4x256_0_0_0, k0_pay4 (v96 m p)⟩]
    (ValueIdx.ix3 (0 : Fin 1) b s)
  rw [rowRect1_emb] at h
  unfold sendC
  refine (congrFun (View.read_whole (Val := Elt F) cc0_scratch0 _) _).symm.trans (h.trans ?_)
  unfold k0_pay5
  exact ValueIdx.shapeCast_ab_1ab_apply _ _ 0 b s

/-- Row 0 of a device's block of partial sums: its per-row sums. -/
theorem sendC_row0 (p : Dev nD) (b : Fin 4) (s : Fin 256) :
    sendC m p (ValueIdx.ix3 (n0 := 2) (n1 := 4) (n2 := 256) (0 : Fin 2) b s) = k0_pay2 (v96 m p) (ValueIdx.ix2 b s) := by
  have h := View.read_writes_cons_emb (Val := Elt F) (sbM : Memref sig .tc .vmem S2x4x256 .f32).view
    (sbM : Memref sig .tc .vmem S2x4x256 .f32).view.junk
    (Rect.unit (s := S2x4x256) ![0, 0, 0] S1x4x256.size inb_S2x4x256_S1x4x256_0_0_0) (k0_pay4 (v96 m p)) []
    (ValueIdx.ix3 (0 : Fin 1) b s)
  rw [rowRect0_emb] at h
  have h1 := View.read_slice_write_of_not_mem (Val := Elt F) (v := (sbM : Memref sig .tc .vmem S2x4x256 .f32).view)
    (Rect.unit (s := S2x4x256) ![1, 0, 0] S1x4x256.size inb_S2x4x256_S1x4x256_1_0_0)
    ((sbM : Memref sig .tc .vmem S2x4x256 .f32).view.writes (Elt F) (sbM : Memref sig .tc .vmem S2x4x256 .f32).view.junk
      [⟨Rect.unit (s := S2x4x256) ![0, 0, 0] S1x4x256.size inb_S2x4x256_S1x4x256_0_0_0, k0_pay4 (v96 m p)⟩])
    (k0_pay5 (v96 m p)) Finset.univ (row0_not_mem_rowRect1 b s)
  unfold sendC
  refine (congrFun (View.read_whole (Val := Elt F) cc0_scratch0 _) _).symm.trans (h1.trans (h.trans ?_))
  unfold k0_pay4
  exact ValueIdx.shapeCast_ab_1ab_apply _ _ 0 b s

/-! ## The two loads of the receive buffer at an index -/

/-- The rectangle of the first load (all seven slots' row 0) places its own index (d, 0, b, s) at (d, 0, b, s). -/
theorem loadRect0_idx (d : Fin 7) (b : Fin 4) (s : Fin 256) :
    (Rect.unit (s := S7x2x4x256) ![0, 0, 0, 0] S7x1x4x256.size inb_S7x2x4x256_S7x1x4x256_0_0_0_0).toLoadRect.idx
        (ValueIdx.ix4 d (0 : Fin 1) b s)
      = ValueIdx.ix4 (n0 := 7) (n1 := 2) (n2 := 4) (n3 := 256) d (0 : Fin 2) b s := by
  funext a
  match a with
  | ⟨0, _⟩ => exact Fin.ext (by show 0 + 1 * d.val = d.val; omega)
  | ⟨1, _⟩ => exact Fin.ext (by show 0 + 1 * 0 = 0; rfl)
  | ⟨2, _⟩ => exact Fin.ext (by show 0 + 1 * b.val = b.val; omega)
  | ⟨3, _⟩ => exact Fin.ext (by show 0 + 1 * s.val = s.val; omega)

/-- The rectangle of the second load (all seven slots' row 1) places its own index (d, 0, b, s) at (d, 1, b, s). -/
theorem loadRect1_idx (d : Fin 7) (b : Fin 4) (s : Fin 256) :
    (Rect.unit (s := S7x2x4x256) ![0, 1, 0, 0] S7x1x4x256.size inb_S7x2x4x256_S7x1x4x256_0_1_0_0).toLoadRect.idx
        (ValueIdx.ix4 d (0 : Fin 1) b s)
      = ValueIdx.ix4 (n0 := 7) (n1 := 2) (n2 := 4) (n3 := 256) d (1 : Fin 2) b s := by
  funext a
  match a with
  | ⟨0, _⟩ => exact Fin.ext (by show 0 + 1 * d.val = d.val; omega)
  | ⟨1, _⟩ => exact Fin.ext (by show 1 + 1 * 0 = 1; rfl)
  | ⟨2, _⟩ => exact Fin.ext (by show 0 + 1 * b.val = b.val; omega)
  | ⟨3, _⟩ => exact Fin.ext (by show 0 + 1 * s.val = s.val; omega)

/-- The first load of the filled receive buffer reads, at (d, 0, b, s), the per-row sum (b, s) of src c d. -/
theorem recv_row0 (c : Dev nD) (d : Fin 7) (b : Fin 4) (s : Fin 256) :
    (rbM : Memref sig .tc .vmem S7x2x4x256 .f32).view.readAt (Elt F)
        (Rect.unit (s := S7x2x4x256) ![0, 0, 0, 0] S7x1x4x256.size inb_S7x2x4x256_S7x1x4x256_0_0_0_0).toLoadRect
        (recvAll m c) (ValueIdx.ix4 d (0 : Fin 1) b s)
      = k0_pay2 (v96 m (src c d)) (ValueIdx.ix2 b s) := by
  rw [View.readAt_apply, loadRect0_idx]
  refine (congrFun (View.read_whole (Val := Elt F) cc0_scratch1 (recvAll m c)) _).trans ?_
  rw [recvAll_apply m c d _ rfl]
  exact sendC_row0 m (src c d) b s

/-- The second load of the filled receive buffer reads, at (d, 0, b, s), the per-row sum of squares (b, s) of src c d. -/
theorem recv_row1 (c : Dev nD) (d : Fin 7) (b : Fin 4) (s : Fin 256) :
    (rbM : Memref sig .tc .vmem S7x2x4x256 .f32).view.readAt (Elt F)
        (Rect.unit (s := S7x2x4x256) ![0, 1, 0, 0] S7x1x4x256.size inb_S7x2x4x256_S7x1x4x256_0_1_0_0).toLoadRect
        (recvAll m c) (ValueIdx.ix4 d (0 : Fin 1) b s)
      = k0_pay3 (v96 m (src c d)) (ValueIdx.ix2 b s) := by
  rw [View.readAt_apply, loadRect1_idx]
  refine (congrFun (View.read_whole (Val := Elt F) cc0_scratch1 (recvAll m c)) _).trans ?_
  rw [recvAll_apply m c d _ rfl]
  exact sendC_row1 m (src c d) b s

/-! ## The four input windows are the whole arrays -/

/-- Window 0's block at the one grid point is the device's whole array x as launched. -/
theorem x0_eq (c : Dev nD) : x0 m c = m ((c : Thread nD τ).loc main_arg0) := by
  have hz : (fun a => (win0_0.index t0_0) a * main_arg0.ty.shape.size a) = fun _ => 0 := funext fun a => by fin_cases a <;> decide
  have hr := fun f => Memref.read_access_unit_zero (Elt F) main_arg0 hz (fun a => by fin_cases a <;> decide) f
  unfold x0 iblk
  rw [hr]

/-- Window 1's block is the whole array t. -/
theorem iblk1_eq (c : Dev nD) : iblk m c 1 t0_0 = m ((c : Thread nD τ).loc main_arg1) := by
  have hz : (fun a => (win0_1.index t0_0) a * main_arg1.ty.shape.size a) = fun _ => 0 := funext fun a => by fin_cases a <;> decide
  have hr := fun f => Memref.read_access_unit_zero (Elt F) main_arg1 hz (fun a => by fin_cases a <;> decide) f
  unfold iblk
  rw [hr]

/-- Window 2's block is the device's whole array of scale weights. -/
theorem iblk2_eq (c : Dev nD) : iblk m c 2 t0_0 = m ((c : Thread nD τ).loc main_arg2) := by
  have hz : (fun a => (win0_2.index t0_0) a * main_arg2.ty.shape.size a) = fun _ => 0 := funext fun a => by fin_cases a <;> decide
  have hr := fun f => Memref.read_access_unit_zero (Elt F) main_arg2 hz (fun a => by fin_cases a <;> decide) f
  unfold iblk
  rw [hr]

/-- Window 3's block is the device's whole array of shift weights. -/
theorem iblk3_eq (c : Dev nD) : iblk m c 3 t0_0 = m ((c : Thread nD τ).loc main_arg3) := by
  have hz : (fun a => (win0_3.index t0_0) a * main_arg3.ty.shape.size a) = fun _ => 0 := funext fun a => by fin_cases a <;> decide
  have hr := fun f => Memref.read_access_unit_zero (Elt F) main_arg3 hz (fun a => by fin_cases a <;> decide) f
  unfold iblk
  rw [hr]

end Cert.KernelIdeal.Hand

end
-- ==== Proof.Spec.lean ====
/-
  The reference computation as one function of the whole arrays, index by index, on the extended reals:
  per row (b, s) of x the mean and the variance over the 1024 channels, the row normalised by the square root
  of variance plus epsilon, then modulated per (b, channel) by 1 + t·W_scale and shifted by t·W_shift.
-/
import Idealize.ShloMosaic.PureOps.Ideal
import Idealize.ShloMosaic.Lib.ValueIdx

noncomputable section

open scoped BigOperators

namespace Cert.Spec

open Idealize.ShloMosaic Idealize.ShloMosaic.ValueIdx

/-- The mean of row (b, s): the sum of its 1024 channels divided by 1024. -/
def mean (X : (⟨3, ![4, 256, 1024]⟩ : Shape).Idx → EReal) (b : Fin 4) (s : Fin 256) : EReal :=
  Ideal.div (∑ j : Fin 1024, X (ix3 b s j)) (Ideal.ofBits .f32 0x44800000#32)

/-- The variance of row (b, s): the mean of the squared deviations from the row's mean. -/
def var (X : (⟨3, ![4, 256, 1024]⟩ : Shape).Idx → EReal) (b : Fin 4) (s : Fin 256) : EReal :=
  Ideal.div (∑ j : Fin 1024, (X (ix3 b s j) - mean X b s) * (X (ix3 b s j) - mean X b s))
    (Ideal.ofBits .f32 0x44800000#32)

/-- Entry (b, j) of the product t · W: the contraction over the 128 embedding coordinates. -/
def proj (t : (⟨2, ![4, 128]⟩ : Shape).Idx → EReal) (W : (⟨2, ![128, 1024]⟩ : Shape).Idx → EReal)
    (b : Fin 4) (j : Fin 1024) : EReal :=
  ∑ k : Fin 128, t (ix2 b k) * W (ix2 k j)

/-- The whole result at (b, s, j): (x − mean) / √(var + ε) · (1 + (t·W_scale)(b, j)) + (t·W_shift)(b, j). -/
def G (X : (⟨3, ![4, 256, 1024]⟩ : Shape).Idx → EReal) (t : (⟨2, ![4, 128]⟩ : Shape).Idx → EReal)
    (Ws Wsh : (⟨2, ![128, 1024]⟩ : Shape).Idx → EReal) : (⟨3, ![4, 256, 1024]⟩ : Shape).Idx → EReal :=
  fun i =>
    Ideal.div (X i - mean X (i 0) (i 1))
        (Ideal.sqrt (var X (i 0) (i 1) + Ideal.ofBits .f32 0x3727C5AC#32))
      * (Ideal.ofBits .f32 0x3F800000#32 + proj t Ws (i 0) (i 2))
    + proj t Wsh (i 0) (i 2)

/-- `G` at explicit coordinates. -/
theorem G_ix3 (X : (⟨3, ![4, 256, 1024]⟩ : Shape).Idx → EReal) (t : (⟨2, ![4, 128]⟩ : Shape).Idx → EReal)
    (Ws Wsh : (⟨2, ![128, 1024]⟩ : Shape).Idx → EReal) (b : Fin 4) (s : Fin 256) (j : Fin 1024) :
    G X t Ws Wsh (ix3 b s j) =
      Ideal.div (X (ix3 b s j) - mean X b s) (Ideal.sqrt (var X b s + Ideal.ofBits .f32 0x3727C5AC#32))
        * (Ideal.ofBits .f32 0x3F800000#32 + proj t Ws b j) + proj t Wsh b j := rfl

end Cert.Spec

end
-- ==== Proof.BridgeLaw.lean ====
/-
  The algebra behind the normalisation, with no program in sight: finite extended reals are reals; over the
  reals the mean of the squares minus the square of the mean is the mean of the squared deviations, and it is
  not negative; and multiplying by the reciprocal square root of a positive real is dividing by its square root.
-/
import Idealize.ShloMosaic.PureOps.Ideal

noncomputable section

open scoped BigOperators

namespace Cert.Bridge

open Idealize.ShloMosaic

/-- An extended real that is neither infinity is a real. -/
theorem exists_real {x : EReal} (h : x ≠ ⊤ ∧ x ≠ ⊥) : ∃ r : ℝ, x = (r : EReal) :=
  ⟨x.toReal, (EReal.coe_toReal h.1 h.2).symm⟩

/-- A real, read as an extended real, is neither infinity. -/
theorem coe_finite (r : ℝ) : (r : EReal) ≠ ⊤ ∧ (r : EReal) ≠ ⊥ := ⟨EReal.coe_ne_top r, EReal.coe_ne_bot r⟩

/-- The sum of reals read as extended reals is the real sum. -/
theorem coe_sum {ι : Type*} (s : Finset ι) (f : ι → ℝ) :
    ∑ j ∈ s, (f j : EReal) = ((∑ j ∈ s, f j : ℝ) : EReal) := by
  classical
  induction s using Finset.induction_on with
  | empty => simp
  | insert a s ha ih => rw [Finset.sum_insert ha, Finset.sum_insert ha, ih, EReal.coe_add]

/-- The quotient of two reals, the divisor not zero, read on the extended reals. -/
theorem div_coe_coe (r n : ℝ) (hn : n ≠ 0) : Ideal.div (r : EReal) (n : EReal) = ((r / n : ℝ) : EReal) := by
  rw [Ideal.div_coe hn, ← EReal.coe_mul, mul_one_div]

/-- Over the reals: E[f²] − (E f)² = E[(f − E f)²], the means over a finite index set of n elements. -/
theorem var_real {ι : Type*} [Fintype ι] (f : ι → ℝ) (n : ℝ) (hn : (Fintype.card ι : ℝ) = n) (hn0 : n ≠ 0) :
    (∑ j, f j * f j) / n - (∑ j, f j) / n * ((∑ j, f j) / n)
      = (∑ j, (f j - (∑ j, f j) / n) * (f j - (∑ j, f j) / n)) / n := by
  have h : ∑ j, (f j - (∑ j, f j) / n) * (f j - (∑ j, f j) / n)
      = (∑ j, f j * f j) - 2 * ((∑ j, f j) / n) * (∑ j, f j) + n * ((∑ j, f j) / n * ((∑ j, f j) / n)) := by
    have e : ∀ j, (f j - (∑ j, f j) / n) * (f j - (∑ j, f j) / n)
        = f j * f j - 2 * ((∑ j, f j) / n) * f j + (∑ j, f j) / n * ((∑ j, f j) / n) := fun j => by ring
    simp only [e, Finset.sum_add_distrib, Finset.sum_sub_distrib, ← Finset.mul_sum, Finset.sum_const,
      Finset.card_univ, nsmul_eq_mul, hn]
    ring
  rw [h]
  field_simp
  ring

/-- The row statistics of finitely many finite extended reals, n > 0 of them: the mean is a real m, and
    the mean of the squares minus m² and the mean of the squared deviations from m are one real v ≥ 0. -/
theorem var_law {ι : Type*} [Fintype ι] (x : ι → EReal) (hx : ∀ j, x j ≠ ⊤ ∧ x j ≠ ⊥) (n : ℝ)
    (hn : (Fintype.card ι : ℝ) = n) (hn0 : 0 < n) :
    ∃ m v : ℝ, 0 ≤ v ∧ Ideal.div (∑ j, x j) (n : EReal) = (m : EReal) ∧
      Ideal.div (∑ j, x j * x j) (n : EReal) - (m : EReal) * (m : EReal) = (v : EReal) ∧
      Ideal.div (∑ j, (x j - (m : EReal)) * (x j - (m : EReal))) (n : EReal) = (v : EReal) := by
  choose f hf using fun j => exists_real (hx j)
  obtain rfl : x = fun j => (f j : EReal) := funext hf
  refine ⟨(∑ j, f j) / n, (∑ j, (f j - (∑ j, f j) / n) * (f j - (∑ j, f j) / n)) / n,
    div_nonneg (Finset.sum_nonneg fun j _ => mul_self_nonneg _) hn0.le, ?_, ?_, ?_⟩
  · rw [coe_sum, div_coe_coe _ _ hn0.ne']
  · simp only [← EReal.coe_mul]
    rw [coe_sum, div_coe_coe _ _ hn0.ne', ← EReal.coe_sub, var_real f n hn hn0.ne']
  · simp only [← EReal.coe_sub, ← EReal.coe_mul]
    rw [coe_sum, div_coe_coe _ _ hn0.ne']

/-- For a real v ≥ 0 and a real e > 0: times the reciprocal square root of v + e is divided by its square root. -/
theorem rsqrt_law (v e : ℝ) (hv : 0 ≤ v) (he : 0 < e) (y : EReal) :
    y * Ideal.rsqrt ((v : EReal) + (e : EReal)) = Ideal.div y (Ideal.sqrt ((v : EReal) + (e : EReal))) := by
  have hpos : 0 < v + e := by linarith
  rw [← EReal.coe_add, Ideal.rsqrt_coe, Ideal.sqrt_coe, if_neg (not_lt.mpr hpos.le), if_neg hpos.ne',
    if_neg (not_lt.mpr hpos.le), Ideal.div_coe (Real.sqrt_pos.mpr hpos).ne', one_div]

end Cert.Bridge
-- ==== Proof.BridgeSum.lean ====
/-
  How the eight devices' blocks make up the whole arrays: where a block's element lies (channel = 128 · device
  + local channel), a sum over the 1024 channels as the eight devices' sums over their 128, a device together
  with the seven it receives from being all eight, and finiteness of every block giving finiteness of the whole.
-/
import Idealize.ShloMosaic.Lib.Layout
import Idealize.ShloMosaic.Lib.ValueIdx
import Idealize.ShloMosaic.Signature.Static
import Mathlib.Algebra.BigOperators.Fin
import Mathlib.Logic.Equiv.Fin.Basic

noncomputable section

open scoped BigOperators

namespace Cert.Bridge

open Idealize.ShloMosaic Idealize.ShloMosaic.ValueIdx

/-- The device whose partial sums arrive in slot d of device c's receive buffer: c − 1 − d, modulo 8. -/
def src (c : Dev 8) (d : Fin 7) : Dev 8 := ⟨(c.val + 7 - d.val) % 8, Nat.mod_lt _ (by decide)⟩

/-- The whole-array channel of device k's local channel l. -/
def chan (k : Fin 8) (l : Fin 128) : Fin 1024 := ⟨k.val * 128 + l.val, by omega⟩

/-- Every channel is some device's local channel. -/
theorem chan_onto (j : Fin 1024) : ∃ (k : Fin 8) (l : Fin 128), chan k l = j :=
  ⟨⟨j.val / 128, by omega⟩, ⟨j.val % 128, Nat.mod_lt _ (by decide)⟩, Fin.ext (by
    show j.val / 128 * 128 + j.val % 128 = j.val
    omega)⟩

/-! ## Where a block's element lies -/

/-- Device k's block of an array [4,256,1024] cut along the channels, at (b, s, l): the array at (b, s, chan k l). -/
theorem block_x_apply {α : Type} (X : (⟨3, ![4, 256, 1024]⟩ : Shape).Idx → α) (k : Dev 8) (b : Fin 4) (s : Fin 256) (l : Fin 128) :
    (Layout.block ⟨3, ![4, 256, 128]⟩ ⟨3, ![4, 256, 1024]⟩ 2 8 k X) (ix3 b s l) = X (ix3 b s (chan k l)) := by
  show X _ = X _
  refine congrArg X (funext fun a => Fin.ext ?_)
  match a with
  | ⟨0, _⟩ => rfl
  | ⟨1, _⟩ => rfl
  | ⟨2, _⟩ => rfl

/-- Device k's block of a matrix [128,1024] cut along the columns, at (r, l): the matrix at (r, chan k l). -/
theorem block_w_apply {α : Type} (W : (⟨2, ![128, 1024]⟩ : Shape).Idx → α) (k : Dev 8) (r : Fin 128) (l : Fin 128) :
    (Layout.block ⟨2, ![128, 128]⟩ ⟨2, ![128, 1024]⟩ 1 8 k W) (ix2 r l) = W (ix2 r (chan k l)) := by
  show W _ = W _
  refine congrArg W (funext fun a => Fin.ext ?_)
  match a with
  | ⟨0, _⟩ => rfl
  | ⟨1, _⟩ => rfl

/-! ## Sums -/

/-- A sum over the 1024 channels is the sum over the eight devices of the sums over their 128 local channels. -/
theorem sum_chan {M : Type*} [AddCommMonoid M] (g : Fin 1024 → M) :
    ∑ j : Fin 1024, g j = ∑ k : Fin 8, ∑ l : Fin 128, g (chan k l) := by
  rw [← Equiv.sum_comp (finProdFinEquiv : Fin 8 × Fin 128 ≃ Fin 1024) g, Fintype.sum_prod_type]
  refine Finset.sum_congr rfl fun k _ => Finset.sum_congr rfl fun l _ => congrArg g (Fin.ext ?_)
  show l.val + 128 * k.val = k.val * 128 + l.val
  omega

/-- Device c and then the seven devices it receives from, in slot order: c, c − 1, …, c − 7 modulo 8. -/
def ring (c : Dev 8) (k : Fin 8) : Dev 8 := ⟨(c.val + 8 - k.val) % 8, Nat.mod_lt _ (by decide)⟩

theorem ring_zero (c : Dev 8) : ring c 0 = c := by revert c; decide

theorem ring_succ (c : Dev 8) (d : Fin 7) : ring c d.succ = src c d := by revert c d; decide

theorem ring_bijective (c : Dev 8) : Function.Bijective (ring c) := by revert c; decide

/-- A device's own term plus those of the seven devices it receives from: the sum over all eight devices. -/
theorem sum_ring {M : Type*} [AddCommMonoid M] (P : Dev 8 → M) (c : Dev 8) :
    P c + ∑ d : Fin 7, P (src c d) = ∑ k : Dev 8, P k := by
  rw [← (ring_bijective c).sum_comp P, Fin.sum_univ_succ (fun k => P (ring c k)), ring_zero]
  simp only [ring_succ]

/-- A device's own partial sum plus the seven it receives is the sum over all 1024 channels, when each device's
    partial sum is the sum over its 128 local channels. -/
theorem sum_total {M : Type*} [AddCommMonoid M] (g : Fin 1024 → M) (P : Dev 8 → M)
    (hP : ∀ k, P k = ∑ l : Fin 128, g (chan k l)) (c : Dev 8) (R : Fin 7 → M) (hR : ∀ d, R d = P (src c d)) :
    P c + ∑ d : Fin 7, R d = ∑ j : Fin 1024, g j :=
  calc P c + ∑ d : Fin 7, R d = P c + ∑ d : Fin 7, P (src c d) :=
        congrArg (P c + ·) (Finset.sum_congr rfl fun d _ => hR d)
    _ = ∑ k : Dev 8, P k := sum_ring P c
    _ = ∑ k : Dev 8, ∑ l : Fin 128, g (chan k l) := Finset.sum_congr rfl fun k _ => hP k
    _ = ∑ j : Fin 1024, g j := (sum_chan g).symm

/-! ## Finiteness of the whole from finiteness of the blocks -/

theorem finite_whole_x (V : (⟨3, ![4, 256, 1024]⟩ : Shape).Idx → EReal)
    (h : ∀ c : Dev 8, ∀ i, (Layout.block ⟨3, ![4, 256, 128]⟩ ⟨3, ![4, 256, 1024]⟩ 2 8 c V) i ≠ ⊤
      ∧ (Layout.block ⟨3, ![4, 256, 128]⟩ ⟨3, ![4, 256, 1024]⟩ 2 8 c V) i ≠ ⊥) :
    ∀ i, V i ≠ ⊤ ∧ V i ≠ ⊥ := by
  intro i
  obtain ⟨k, l, hj⟩ := chan_onto (i 2)
  have hi : ix3 (i 0) (i 1) (chan k l) = i := by rw [hj]; exact (eq_ix3 i).symm
  have hb : (Layout.block ⟨3, ![4, 256, 128]⟩ ⟨3, ![4, 256, 1024]⟩ 2 8 k V) (ix3 (i 0) (i 1) l) = V i :=
    (block_x_apply V k (i 0) (i 1) l).trans (congrArg V hi)
  exact ⟨fun ht => (h k _).1 (hb.trans ht), fun ht => (h k _).2 (hb.trans ht)⟩

theorem finite_whole_w (V : (⟨2, ![128, 1024]⟩ : Shape).Idx → EReal)
    (h : ∀ c : Dev 8, ∀ i, (Layout.block ⟨2, ![128, 128]⟩ ⟨2, ![128, 1024]⟩ 1 8 c V) i ≠ ⊤
      ∧ (Layout.block ⟨2, ![128, 128]⟩ ⟨2, ![128, 1024]⟩ 1 8 c V) i ≠ ⊥) :
    ∀ i, V i ≠ ⊤ ∧ V i ≠ ⊥ := by
  intro i
  obtain ⟨k, l, hj⟩ := chan_onto (i 1)
  have hi : ix2 (i 0) (chan k l) = i := by rw [hj]; exact (eq_ix2 i).symm
  have hb : (Layout.block ⟨2, ![128, 128]⟩ ⟨2, ![128, 1024]⟩ 1 8 k V) (ix2 (i 0) l) = V i :=
    (block_w_apply V k (i 0) l).trans (congrArg V hi)
  exact ⟨fun ht => (h k _).1 (hb.trans ht), fun ht => (h k _).2 (hb.trans ht)⟩

end Cert.Bridge
-- ==== Proof.BridgePayloads.lean ====
/-
  Each named value of the kernel's arithmetic, read at one index on the extended reals: the row sums over the
  128 local channels, the sums of the seven received partial sums, the two projections as sums over the 128
  embedding coordinates, the mean, the variance, and the output element.
-/
import proofs.«900349_g7700000000000350_dist_diff_adaln_cshard_i_b4_s256_c128_v7x_i8_bf16_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.Bridge

open Idealize.ShloMosaic Idealize.ShloMosaic.ValueIdx Idealize.SL.Sem Cert.KernelIdeal Cert.KernelIdeal.Facts₀

/-! ## Layout steps at an index -/

/-- A per-row value [4,256], viewed [4,256,1] and spread over the 128 channels, reads the row's value. -/
theorem colBcast_apply {α : Type} (v : S4x256.Idx → α) (b : Fin 4) (s : Fin 256) (l : Fin 128) :
    broadcastTo S4x256x128 (shapeCast S4x256x1 v shapeCasts_S4x256_S4x256x1) broadcasts_S4x256x1_S4x256x128 (ix3 b s l)
      = v (ix2 b s) := by
  refine (broadcastTo_apply _ _ (ix3 b s l) (ix3 b s (0 : Fin 1)) fun a => ?_).trans ?_
  · match a with
    | ⟨0, _⟩ => rfl
    | ⟨1, _⟩ => rfl
    | ⟨2, _⟩ => rfl
  · exact shapeCast_apply v _ (ix3 b s (0 : Fin 1)) (ix2 b s) (by
      rw [Shape.rowMajor_val_two, Shape.rowMajor_val_three]
      show b.val * 256 + s.val = (b.val * 256 + s.val) * 1 + 0
      omega)

/-- A [4,1,128] value spread over the 256 rows reads its one row. -/
theorem rowBcast_apply {α : Type} (w : S4x1x128.Idx → α) (b : Fin 4) (s : Fin 256) (l : Fin 128) :
    broadcastTo S4x256x128 w broadcasts_S4x1x128_S4x256x128 (ix3 b s l) = w (ix3 b (0 : Fin 1) l) := by
  refine broadcastTo_apply _ _ (ix3 b s l) (ix3 b (0 : Fin 1) l) fun a => ?_
  match a with
  | ⟨0, _⟩ => rfl
  | ⟨1, _⟩ => rfl
  | ⟨2, _⟩ => rfl

/-- A [4,128] value viewed [4,1,128] reads the same element. -/
theorem rowCast_apply {α : Type} (v : S4x128.Idx → α) (b : Fin 4) (u : Fin 1) (l : Fin 128) :
    shapeCast S4x1x128 v shapeCasts_S4x128_S4x1x128 (ix3 b u l) = v (ix2 b l) :=
  shapeCast_apply v _ (ix3 b u l) (ix2 b l) (by
    have hu : u.val = 0 := by omega
    rw [Shape.rowMajor_val_two, Shape.rowMajor_val_three]
    show b.val * 128 + l.val = (b.val * 1 + u.val) * 128 + l.val
    rw [hu]; omega)

/-! ## The loaded block and its row sums -/

/-- The loaded block, cast to its own shape, is itself. -/
theorem pay1_eq (v : Vec Ideal S4x256x128 .f32) : Gen.k0_pay1 (F := Ideal) v = v := shapeCast_self v _

/-- The row sum at (b, s): the sum over the 128 local channels. -/
theorem pay2_apply (v : FVec Ideal S4x256x128 .f32) (b : Fin 4) (s : Fin 256) :
    Gen.k0_pay2 (F := Ideal) v (ix2 b s) = ∑ l : Fin 128, v (ix3 b s l) := by
  unfold Gen.k0_pay2
  refine (Ideal.multiReduction_add_single v 0x00000000#32 reduces_S4x256x128_S4x256 (.inl rfl) rfl (ix2 b s)).trans ?_
  refine Finset.sum_congr rfl fun l _ => congrArg v (funext fun a => ?_)
  match a with
  | ⟨0, _⟩ => rfl
  | ⟨1, _⟩ => rfl
  | ⟨2, _⟩ => rfl

/-- The row sum of squares at (b, s). -/
theorem pay3_apply (v : FVec Ideal S4x256x128 .f32) (b : Fin 4) (s : Fin 256) :
    Gen.k0_pay3 (F := Ideal) v (ix2 b s) = ∑ l : Fin 128, v (ix3 b s l) * v (ix3 b s l) := by
  unfold Gen.k0_pay3
  refine (Ideal.multiReduction_add_single (mulf v v) 0x00000000#32 reduces_S4x256x128_S4x256 (.inl rfl) rfl (ix2 b s)).trans ?_
  refine Finset.sum_congr rfl fun l _ => ?_
  have hl : reduces_S4x256x128_S4x256.lift (ix2 b s) l = ix3 b s l := funext fun a => by
    match a with
    | ⟨0, _⟩ => rfl
    | ⟨1, _⟩ => rfl
    | ⟨2, _⟩ => rfl
  rw [hl]
  rfl

/-! ## The seven received partial sums, added -/

/-- The sum over the seven slots of a received buffer [7,1,4,256], at (b, s). -/
theorem recvSum_apply (R : Vec Ideal S7x1x4x256 .f32) (b : Fin 4) (s : Fin 256) :
    multiReduction (F := Ideal) .add [0] S4x256 (shapeCast S7x4x256 R shapeCasts_S7x1x4x256_S7x4x256) 0x00000000#32
        reduces_S7x4x256_S4x256 (.inl rfl) rfl (ix2 b s)
      = ∑ d : Fin 7, R (ix4 d (0 : Fin 1) b s) := by
  refine (Ideal.multiReduction_add_single _ 0x00000000#32 reduces_S7x4x256_S4x256 (.inl rfl) rfl (ix2 b s)).trans ?_
  refine Finset.sum_congr rfl fun d _ => ?_
  have hl : reduces_S7x4x256_S4x256.lift (ix2 b s) d = ix3 d b s := funext fun a => by
    match a with
    | ⟨0, _⟩ => rfl
    | ⟨1, _⟩ => rfl
    | ⟨2, _⟩ => rfl
  rw [hl]
  exact shapeCast_apply R _ (ix3 d b s) (ix4 d (0 : Fin 1) b s) (by
    rw [Shape.rowMajor_val_four, Shape.rowMajor_val_three]
    show ((d.val * 1 + 0) * 4 + b.val) * 256 + s.val = (d.val * 4 + b.val) * 256 + s.val
    omega)

/-- The mean at (b, s): own row sum plus the seven received, over the word 1024. -/
theorem pay8_apply (v97 : FVec Ideal S4x256 .f32) (R : Vec Ideal S7x1x4x256 .f32) (b : Fin 4) (s : Fin 256) :
    Gen.k0_pay8 (F := Ideal) v97 R (ix2 b s)
      = Ideal.div (v97 (ix2 b s) + ∑ d : Fin 7, R (ix4 d (0 : Fin 1) b s)) (Ideal.ofBits .f32 0x44800000#32) := by
  unfold Gen.k0_pay8
  exact congrArg (fun z => Ideal.div (v97 (ix2 b s) + z) (Ideal.ofBits .f32 0x44800000#32)) (recvSum_apply R b s)

/-- The variance at (b, s): the total of the squares over the word 1024, minus the mean squared. -/
theorem pay9_apply (v97 v99 : FVec Ideal S4x256 .f32) (R0 R1 : Vec Ideal S7x1x4x256 .f32) (b : Fin 4) (s : Fin 256) :
    Gen.k0_pay9 (F := Ideal) v97 v99 R0 R1 (ix2 b s)
      = Ideal.div (v99 (ix2 b s) + ∑ d : Fin 7, R1 (ix4 d (0 : Fin 1) b s)) (Ideal.ofBits .f32 0x44800000#32)
        - Gen.k0_pay8 (F := Ideal) v97 R0 (ix2 b s) * Gen.k0_pay8 (F := Ideal) v97 R0 (ix2 b s) := by
  unfold Gen.k0_pay9
  exact congrArg (fun z => Ideal.div (v99 (ix2 b s) + z) (Ideal.ofBits .f32 0x44800000#32)
    - Gen.k0_pay8 (F := Ideal) v97 R0 (ix2 b s) * Gen.k0_pay8 (F := Ideal) v97 R0 (ix2 b s)) (recvSum_apply R1 b s)

/-- The epsilon splat reads the word everywhere. -/
theorem pay10_apply (i : S4x256.Idx) : Gen.k0_pay10 (F := Ideal) i = Ideal.ofBits .f32 0x3727C5AC#32 := rfl

/-! ## The two projections -/

theorem lhs_0 (i : S4x128.Idx) (q : dot_S4x128_S128x128_S4x128_1_0_0_1_n_n.contr.Idx) : (dot_S4x128_S128x128_S4x128_1_0_0_1_n_n.lhsIdx i q 0).val = (i 0).val := by
  unfold DotDims.lhsIdx
  rw [dif_neg (show ¬(0 : Fin S4x128.rank) ∈ dot_S4x128_S128x128_S4x128_1_0_0_1_n_n.lhsBatch by decide),
    dif_pos (show (0 : Fin S4x128.rank) ∈ dot_S4x128_S128x128_S4x128_1_0_0_1_n_n.lhsNonContracting by decide)]
  rfl

theorem lhs_1 (i : S4x128.Idx) (q : dot_S4x128_S128x128_S4x128_1_0_0_1_n_n.contr.Idx) : (dot_S4x128_S128x128_S4x128_1_0_0_1_n_n.lhsIdx i q 1).val = (q ⟨0, by decide⟩).val :=
  dot_S4x128_S128x128_S4x128_1_0_0_1_n_n.lhsIdx_val_of_single rfl i q

theorem rhs_0 (i : S4x128.Idx) (q : dot_S4x128_S128x128_S4x128_1_0_0_1_n_n.contr.Idx) : (dot_S4x128_S128x128_S4x128_1_0_0_1_n_n.rhsIdx i q 0).val = (q ⟨0, by decide⟩).val :=
  dot_S4x128_S128x128_S4x128_1_0_0_1_n_n.rhsIdx_val_of_single rfl i q

theorem rhs_1 (i : S4x128.Idx) (q : dot_S4x128_S128x128_S4x128_1_0_0_1_n_n.contr.Idx) : (dot_S4x128_S128x128_S4x128_1_0_0_1_n_n.rhsIdx i q 1).val = (i 1).val := by
  unfold DotDims.rhsIdx
  rw [dif_neg (show ¬(1 : Fin S128x128.rank) ∈ dot_S4x128_S128x128_S4x128_1_0_0_1_n_n.rhsBatch by decide),
    dif_pos (show (1 : Fin S128x128.rank) ∈ dot_S4x128_S128x128_S4x128_1_0_0_1_n_n.rhsNonContracting by decide)]
  rfl

/-- The matrix product into a zero accumulator at (b, l): the sum over the 128 embedding coordinates. -/
theorem matmul_apply (t : FVec Ideal S4x128 .f32) (W : FVec Ideal S128x128 .f32) (b : Fin 4) (l : Fin 128) :
    matmul (F := Ideal) dot_S4x128_S128x128_S4x128_1_0_0_1_n_n none t W (constant S4x128 .f32 0x00000000#32) (ix2 b l)
      = ∑ k : Fin 128, t (ix2 b k) * W (ix2 k l) := by
  refine (Ideal.matmul_constant_zero_apply dot_S4x128_S128x128_S4x128_1_0_0_1_n_n none t W (ix2 b l)).trans ?_
  rw [← Equiv.sum_comp (contrEquiv1 dot_S4x128_S128x128_S4x128_1_0_0_1_n_n 128 rfl rfl).symm]
  refine Finset.sum_congr rfl fun k _ => ?_
  have hk := contrEquiv1_symm_val dot_S4x128_S128x128_S4x128_1_0_0_1_n_n 128 rfl rfl k
  have el : dot_S4x128_S128x128_S4x128_1_0_0_1_n_n.lhsIdx (ix2 b l) ((contrEquiv1 dot_S4x128_S128x128_S4x128_1_0_0_1_n_n 128 rfl rfl).symm k) = ix2 b k :=
    funext fun a => Fin.ext (by
      match a with
      | ⟨0, _⟩ => exact lhs_0 _ _
      | ⟨1, _⟩ => exact (lhs_1 _ _).trans hk)
  have er : dot_S4x128_S128x128_S4x128_1_0_0_1_n_n.rhsIdx (ix2 b l) ((contrEquiv1 dot_S4x128_S128x128_S4x128_1_0_0_1_n_n 128 rfl rfl).symm k) = ix2 k l :=
    funext fun a => Fin.ext (by
      match a with
      | ⟨0, _⟩ => exact (rhs_0 _ _).trans hk
      | ⟨1, _⟩ => exact rhs_1 _ _)
  rw [el, er]

theorem pay6_apply (t : Vec Ideal S4x128 .f32) (W : Vec Ideal S128x128 .f32) (b : Fin 4) (l : Fin 128) :
    Gen.k0_pay6 (F := Ideal) t W (ix2 b l) = ∑ k : Fin 128, t (ix2 b k) * W (ix2 k l) := by
  unfold Gen.k0_pay6
  rw [shapeCast_self, shapeCast_self]
  exact matmul_apply t W b l

theorem pay7_apply (t : Vec Ideal S4x128 .f32) (W : Vec Ideal S128x128 .f32) (b : Fin 4) (l : Fin 128) :
    Gen.k0_pay7 (F := Ideal) t W (ix2 b l) = ∑ k : Fin 128, t (ix2 b k) * W (ix2 k l) := by
  unfold Gen.k0_pay7
  rw [shapeCast_self, shapeCast_self]
  exact matmul_apply t W b l

/-! ## The output element -/

theorem pay11_apply (v96 : FVec Ideal S4x256x128 .f32) (v243 v248 : FVec Ideal S4x128 .f32)
    (v300 v304 v305 : FVec Ideal S4x256 .f32) (b : Fin 4) (s : Fin 256) (l : Fin 128) :
    Gen.k0_pay11 (F := Ideal) v96 v243 v248 v300 v304 v305 (ix3 b s l)
      = (v96 (ix3 b s l) - v300 (ix2 b s)) * Ideal.rsqrt (v304 (ix2 b s) + v305 (ix2 b s))
          * (Ideal.ofBits .f32 0x3F800000#32 + v243 (ix2 b l)) + v248 (ix2 b l) := by
  unfold Gen.k0_pay11
  simp only [addf_apply, mulf_apply, subf_apply]
  rw [colBcast_apply, colBcast_apply, rowBcast_apply, rowBcast_apply, rowCast_apply]
  simp only [addf_apply, broadcast_apply]
  rw [rowCast_apply]
  rfl

end Cert.Bridge
-- ==== Proof.BridgeFinite.lean ====
/-
  From the printed precondition (every entry of each of the four per-device arrays has absolute value below
  +infinity) to: every entry is neither infinity.
-/
import proofs.«900349_g7700000000000350_dist_diff_adaln_cshard_i_b4_s256_c128_v7x_i8_bf16_1_alg».proof.KernelIdeal
import proofs.«900349_g7700000000000350_dist_diff_adaln_cshard_i_b4_s256_c128_v7x_i8_bf16_1_alg».proof.Pre_finite_inputs_Kernel
import proofs.«900349_g7700000000000350_dist_diff_adaln_cshard_i_b4_s256_c128_v7x_i8_bf16_1_alg».proof.Proof.BridgeLaw
import Idealize.ShloMosaic.Lib.ReduceAll
import Idealize.ShloMosaic.Lib.ValueIdx

noncomputable section

namespace Cert.Bridge

open Idealize.ShloMosaic Idealize.ShloMosaic.ValueIdx

instance : Subsingleton Cert.Pre_finite_inputs_Kernel.S_.Idx := ⟨fun a b => funext fun d => d.elim0⟩

/-- An extended real whose absolute value compares below the word for +infinity is neither infinity. -/
theorem finite_of_cmp (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact coe_finite r

theorem finite_of_pre [Cert.Pre_finite_inputs_Kernel.Facts] (x : FVec Ideal Cert.KernelIdeal.S4x256x128 .f32)
    (t : FVec Ideal Cert.KernelIdeal.S4x128 .f32) (ws wsh : FVec Ideal Cert.KernelIdeal.S128x128 .f32)
    (h : Cert.Pre_finite_inputs_Kernel.fn (F := Ideal) x t ws wsh = (fun _ => 1#1)) :
    (∀ i, x i ≠ ⊤ ∧ x i ≠ ⊥) ∧ (∀ i, t i ≠ ⊤ ∧ t i ≠ ⊥) ∧ (∀ i, ws i ≠ ⊤ ∧ ws i ≠ ⊥) ∧ (∀ i, wsh i ≠ ⊤ ∧ wsh i ≠ ⊥) := by
  have h0 := congrFun h ix0
  dsimp only [Cert.Pre_finite_inputs_Kernel.fn, Cert.Pre_finite_inputs_Kernel.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => finite_of_cmp (x i) (Host.reduce_andi_all _ _ _ _ ix0 h1 i),
    fun i => finite_of_cmp (t i) (Host.reduce_andi_all _ _ _ _ ix0 h2 i),
    fun i => finite_of_cmp (ws i) (Host.reduce_andi_all _ _ _ _ ix0 h3 i),
    fun i => finite_of_cmp (wsh i) (Host.reduce_andi_all _ _ _ _ ix0 h4 i)⟩

end Cert.Bridge
-- ==== Proof.Bridge.lean ====
/-
  The kernel's arithmetic on device c is block c of the reference function: each device's row sums over its 128
  channels, together with the seven received partial sums, are the row sums over all 1024 channels; the
  variance as mean of squares minus squared mean is the mean of the squared deviations, the inputs being
  finite; the reciprocal square root times the deviation is the deviation over the square root; and the two
  projections against a device's block of columns are the reference's projections at the device's channels.
-/
import proofs.«900349_g7700000000000350_dist_diff_adaln_cshard_i_b4_s256_c128_v7x_i8_bf16_1_alg».proof.Proof.Spec
import proofs.«900349_g7700000000000350_dist_diff_adaln_cshard_i_b4_s256_c128_v7x_i8_bf16_1_alg».proof.Proof.BridgeLaw
import proofs.«900349_g7700000000000350_dist_diff_adaln_cshard_i_b4_s256_c128_v7x_i8_bf16_1_alg».proof.Proof.BridgeSum
import proofs.«900349_g7700000000000350_dist_diff_adaln_cshard_i_b4_s256_c128_v7x_i8_bf16_1_alg».proof.Proof.BridgePayloads
import proofs.«900349_g7700000000000350_dist_diff_adaln_cshard_i_b4_s256_c128_v7x_i8_bf16_1_alg».proof.Proof.BridgeFinite

noncomputable section

open scoped BigOperators

namespace Cert.Bridge

open Idealize.ShloMosaic Idealize.ShloMosaic.ValueIdx Idealize.SL.Sem Cert.KernelIdeal

/-! ## The three words -/

/-- The word 0x44800000 is 1024. -/
theorem word_1024 : Ideal.ofBits .f32 0x44800000#32 = ((1024 : ℝ) : EReal) := by
  simp [Ideal.ofBits, Ideal.ieee, -EReal.coe_mul]; norm_num

/-- The word 0x3727C5AC (epsilon) is a positive real. -/
theorem eps_pos : ∃ e : ℝ, 0 < e ∧ Ideal.ofBits .f32 0x3727C5AC#32 = (e : EReal) := by
  have h : Ideal.ofBits .f32 0x3727C5AC#32 = (((10995116 : ℝ) * (2 : ℝ) ^ (-40 : ℤ) : ℝ) : EReal) := by
    simp [Ideal.ofBits, Ideal.ieee, -EReal.coe_mul]
  exact ⟨_, by positivity, h⟩

/-! ## The projections against a device's block of columns -/

theorem proj_scale (t : (⟨2, ![4, 128]⟩ : Shape).Idx → EReal) (W : (⟨2, ![128, 1024]⟩ : Shape).Idx → EReal)
    (c : Dev 8) (b : Fin 4) (l : Fin 128) :
    Cert.KernelIdeal.Gen.k0_pay6 (F := Ideal) t (Layout.block ⟨2, ![128, 128]⟩ ⟨2, ![128, 1024]⟩ 1 8 c W) (ix2 b l) = Cert.Spec.proj t W b (chan c l) := by
  rw [pay6_apply]
  exact Finset.sum_congr rfl fun k _ => congrArg (t (ix2 b k) * ·) (block_w_apply W c k l)

theorem proj_shift (t : (⟨2, ![4, 128]⟩ : Shape).Idx → EReal) (W : (⟨2, ![128, 1024]⟩ : Shape).Idx → EReal)
    (c : Dev 8) (b : Fin 4) (l : Fin 128) :
    Cert.KernelIdeal.Gen.k0_pay7 (F := Ideal) t (Layout.block ⟨2, ![128, 128]⟩ ⟨2, ![128, 1024]⟩ 1 8 c W) (ix2 b l) = Cert.Spec.proj t W b (chan c l) := by
  rw [pay7_apply]
  exact Finset.sum_congr rfl fun k _ => congrArg (t (ix2 b k) * ·) (block_w_apply W c k l)

/-! ## A device's row sums -/

/-- Device k's row sum at (b, s): the sum of the row over k's 128 channels. -/
theorem rowsum_block (X : (⟨3, ![4, 256, 1024]⟩ : Shape).Idx → EReal) (k : Dev 8) (b : Fin 4) (s : Fin 256) :
    Cert.KernelIdeal.Gen.k0_pay2 (F := Ideal) (Cert.KernelIdeal.Gen.k0_pay1 (Layout.block ⟨3, ![4, 256, 128]⟩ ⟨3, ![4, 256, 1024]⟩ 2 8 k X)) (ix2 b s) = ∑ l : Fin 128, X (ix3 b s (chan k l)) := by
  rw [pay1_eq, pay2_apply]
  exact Finset.sum_congr rfl fun l _ => block_x_apply X k b s l

/-- Device k's row sum of squares at (b, s). -/
theorem rowsq_block (X : (⟨3, ![4, 256, 1024]⟩ : Shape).Idx → EReal) (k : Dev 8) (b : Fin 4) (s : Fin 256) :
    Cert.KernelIdeal.Gen.k0_pay3 (F := Ideal) (Cert.KernelIdeal.Gen.k0_pay1 (Layout.block ⟨3, ![4, 256, 128]⟩ ⟨3, ![4, 256, 1024]⟩ 2 8 k X)) (ix2 b s)
      = ∑ l : Fin 128, X (ix3 b s (chan k l)) * X (ix3 b s (chan k l)) := by
  rw [pay1_eq, pay3_apply]
  exact Finset.sum_congr rfl fun l _ => by rw [block_x_apply X k b s l]

/-! ## The bridge -/

theorem out_eq (X : (⟨3, ![4, 256, 1024]⟩ : Shape).Idx → EReal) (t : (⟨2, ![4, 128]⟩ : Shape).Idx → EReal) (Ws Wsh : (⟨2, ![128, 1024]⟩ : Shape).Idx → EReal)
    (hX : ∀ i, X i ≠ ⊤ ∧ X i ≠ ⊥) (ht : ∀ i, t i ≠ ⊤ ∧ t i ≠ ⊥) (hWs : ∀ i, Ws i ≠ ⊤ ∧ Ws i ≠ ⊥) (hWsh : ∀ i, Wsh i ≠ ⊤ ∧ Wsh i ≠ ⊥)
    (c : Dev 8) (R0 R1 : Vec Ideal Cert.KernelIdeal.S7x1x4x256 .f32)
    (hR0 : ∀ (d : Fin 7) (b : Fin 4) (s : Fin 256), R0 (ValueIdx.ix4 d 0 b s) = Cert.KernelIdeal.Gen.k0_pay2 (F := Ideal) (Cert.KernelIdeal.Gen.k0_pay1 (Layout.block ⟨3, ![4, 256, 128]⟩ ⟨3, ![4, 256, 1024]⟩ 2 8 (src c d) X)) (ValueIdx.ix2 b s))
    (hR1 : ∀ (d : Fin 7) (b : Fin 4) (s : Fin 256), R1 (ValueIdx.ix4 d 0 b s) = Cert.KernelIdeal.Gen.k0_pay3 (F := Ideal) (Cert.KernelIdeal.Gen.k0_pay1 (Layout.block ⟨3, ![4, 256, 128]⟩ ⟨3, ![4, 256, 1024]⟩ 2 8 (src c d) X)) (ValueIdx.ix2 b s)) :
    let xc := Layout.block ⟨3, ![4, 256, 128]⟩ ⟨3, ![4, 256, 1024]⟩ 2 8 c X
    let v96 := Cert.KernelIdeal.Gen.k0_pay1 (F := Ideal) xc
    Cert.KernelIdeal.Gen.k0_pay11 v96 (Cert.KernelIdeal.Gen.k0_pay6 t (Layout.block ⟨2, ![128, 128]⟩ ⟨2, ![128, 1024]⟩ 1 8 c Ws)) (Cert.KernelIdeal.Gen.k0_pay7 t (Layout.block ⟨2, ![128, 128]⟩ ⟨2, ![128, 1024]⟩ 1 8 c Wsh))
        (Cert.KernelIdeal.Gen.k0_pay8 (Cert.KernelIdeal.Gen.k0_pay2 v96) R0) (Cert.KernelIdeal.Gen.k0_pay9 (Cert.KernelIdeal.Gen.k0_pay2 v96) (Cert.KernelIdeal.Gen.k0_pay3 v96) R0 R1) Cert.KernelIdeal.Gen.k0_pay10
      = Layout.block ⟨3, ![4, 256, 128]⟩ ⟨3, ![4, 256, 1024]⟩ 2 8 c (Cert.Spec.G X t Ws Wsh) := by
  intro xc v96
  funext i
  obtain ⟨b, s, l, rfl⟩ : ∃ (b : Fin 4) (s : Fin 256) (l : Fin 128), i = ix3 b s l := ⟨i 0, i 1, i 2, eq_ix3 i⟩
  -- the row totals over all eight devices
  have hsum : Cert.KernelIdeal.Gen.k0_pay2 (F := Ideal) v96 (ix2 b s) + ∑ d : Fin 7, R0 (ix4 d (0 : Fin 1) b s)
      = ∑ j : Fin 1024, X (ix3 b s j) :=
    sum_total (fun j => X (ix3 b s j)) (fun k => Cert.KernelIdeal.Gen.k0_pay2 (F := Ideal) (Cert.KernelIdeal.Gen.k0_pay1 (Layout.block ⟨3, ![4, 256, 128]⟩ ⟨3, ![4, 256, 1024]⟩ 2 8 k X)) (ix2 b s))
      (fun k => rowsum_block X k b s) c (fun d => R0 (ix4 d (0 : Fin 1) b s)) (fun d => hR0 d b s)
  have hsq : Cert.KernelIdeal.Gen.k0_pay3 (F := Ideal) v96 (ix2 b s) + ∑ d : Fin 7, R1 (ix4 d (0 : Fin 1) b s)
      = ∑ j : Fin 1024, X (ix3 b s j) * X (ix3 b s j) :=
    sum_total (fun j => X (ix3 b s j) * X (ix3 b s j))
      (fun k => Cert.KernelIdeal.Gen.k0_pay3 (F := Ideal) (Cert.KernelIdeal.Gen.k0_pay1 (Layout.block ⟨3, ![4, 256, 128]⟩ ⟨3, ![4, 256, 1024]⟩ 2 8 k X)) (ix2 b s))
      (fun k => rowsq_block X k b s) c (fun d => R1 (ix4 d (0 : Fin 1) b s)) (fun d => hR1 d b s)
  -- the row statistics as reals
  obtain ⟨m, v, hv, hm, hk, hs⟩ := var_law (fun j : Fin 1024 => X (ix3 b s j)) (fun j => hX _) 1024
    (by simp) (by norm_num)
  obtain ⟨e, he, hε⟩ := eps_pos
  have hmean : Cert.KernelIdeal.Gen.k0_pay8 (F := Ideal) (Cert.KernelIdeal.Gen.k0_pay2 v96) R0 (ix2 b s) = (m : EReal) := by
    rw [pay8_apply, hsum, word_1024]; exact hm
  have hkvar : Cert.KernelIdeal.Gen.k0_pay9 (F := Ideal) (Cert.KernelIdeal.Gen.k0_pay2 v96) (Cert.KernelIdeal.Gen.k0_pay3 v96) R0 R1 (ix2 b s) = (v : EReal) := by
    rw [pay9_apply, hmean, hsq, word_1024]; exact hk
  have hsmean : Cert.Spec.mean X b s = (m : EReal) := by
    unfold Cert.Spec.mean; rw [word_1024]; exact hm
  have hsvar : Cert.Spec.var X b s = (v : EReal) := by
    unfold Cert.Spec.var; rw [hsmean, word_1024]; exact hs
  have hx : v96 (ix3 b s l) = X (ix3 b s (chan c l)) := by
    show Cert.KernelIdeal.Gen.k0_pay1 (F := Ideal) (Layout.block ⟨3, ![4, 256, 128]⟩ ⟨3, ![4, 256, 1024]⟩ 2 8 c X) (ix3 b s l) = _
    rw [pay1_eq]; exact block_x_apply X c b s l
  rw [pay11_apply, hx, hmean, hkvar, pay10_apply, hε, proj_scale, proj_shift, rsqrt_law v e hv he,
    block_x_apply (Cert.Spec.G X t Ws Wsh) c b s l, Cert.Spec.G_ix3, hsmean, hsvar, hε]

end Cert.Bridge
-- ==== Proof.KValue.lean ====
/-
  The kernel's result block on device c, at the ideal values, is block c of the specification's function of the
  reference's four arrays: the staged blocks are the launched arrays, which are the blocks of the reference's arrays; the
  two loads of the filled receive buffer are the seven other devices' row sums and sums of squares; the launched arrays
  are finite by the precondition, and a whole array is finite when each device's block of it is.
-/
import proofs.«900349_g7700000000000350_dist_diff_adaln_cshard_i_b4_s256_c128_v7x_i8_bf16_1_alg».proof.Defs
import proofs.«900349_g7700000000000350_dist_diff_adaln_cshard_i_b4_s256_c128_v7x_i8_bf16_1_alg».proof.Proof.Gen.Pre_finite_inputs_Kernel
import proofs.«900349_g7700000000000350_dist_diff_adaln_cshard_i_b4_s256_c128_v7x_i8_bf16_1_alg».proof.Proof.KProtoD
import proofs.«900349_g7700000000000350_dist_diff_adaln_cshard_i_b4_s256_c128_v7x_i8_bf16_1_alg».proof.Proof.KViews2
import proofs.«900349_g7700000000000350_dist_diff_adaln_cshard_i_b4_s256_c128_v7x_i8_bf16_1_alg».proof.Proof.Bridge

noncomputable section

namespace Cert.KernelIdeal.Hand

open Cert.KernelIdeal Cert.KernelIdeal.Gen
open Idealize.ShloMosaic
open Idealize.ShloMosaic.TcCoe
open Idealize.SL.Sem

/-- The two rings of offsets are one function. -/
theorem src_eq_bridge (c : Dev nD) (d : Fin 7) : src c d = Cert.Bridge.src c d := rfl

theorem outAt_block [Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨3, ![4, 256, 128]⟩ ⟨3, ![4, 256, 1024]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 128]⟩ ⟨2, ![128, 1024]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 128]⟩ ⟨2, ![128, 1024]⟩ 1 8 c (m' (((0 : Dev Cert.ReferenceIdeal.nD).tc : Thread Cert.ReferenceIdeal.nD Cert.ReferenceIdeal.τ).loc Cert.ReferenceIdeal.main_arg3)))
    (c : Dev Cert.KernelIdeal.nD) :
    Cert.KernelIdeal.Hand.outAt (F := Ideal) m c = Layout.block ⟨3, ![4, 256, 128]⟩ ⟨3, ![4, 256, 1024]⟩ 2 8 c
      (Cert.Spec.G (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) := by
  -- every device's staged blocks are its blocks of the reference's arrays
  have hx : ∀ d : Dev nD, x0 (F := Ideal) m d = Layout.block ⟨3, ![4, 256, 128]⟩ ⟨3, ![4, 256, 1024]⟩ 2 8 d (m' (((0 : Dev Cert.ReferenceIdeal.nD).tc : Thread Cert.ReferenceIdeal.nD Cert.ReferenceIdeal.τ).loc Cert.ReferenceIdeal.main_arg0)) :=
    fun d => (x0_eq m d).trans (hagree d).1
  have ht : ∀ d : Dev nD, t0v (F := Ideal) m d = m' (((0 : Dev Cert.ReferenceIdeal.nD).tc : Thread Cert.ReferenceIdeal.nD Cert.ReferenceIdeal.τ).loc Cert.ReferenceIdeal.main_arg1) :=
    fun d => (iblk1_eq m d).trans (hagree d).2.1
  have hws : ∀ d : Dev nD, ws0 (F := Ideal) m d = Layout.block ⟨2, ![128, 128]⟩ ⟨2, ![128, 1024]⟩ 1 8 d (m' (((0 : Dev Cert.ReferenceIdeal.nD).tc : Thread Cert.ReferenceIdeal.nD Cert.ReferenceIdeal.τ).loc Cert.ReferenceIdeal.main_arg2)) :=
    fun d => (iblk2_eq m d).trans (hagree d).2.2.1
  have hwsh : ∀ d : Dev nD, wsh0 (F := Ideal) m d = Layout.block ⟨2, ![128, 128]⟩ ⟨2, ![128, 1024]⟩ 1 8 d (m' (((0 : Dev Cert.ReferenceIdeal.nD).tc : Thread Cert.ReferenceIdeal.nD Cert.ReferenceIdeal.τ).loc Cert.ReferenceIdeal.main_arg3)) :=
    fun d => (iblk3_eq m d).trans (hagree d).2.2.2
  -- the launched arrays are finite, so the reference's arrays are
  have hfin := fun d : Dev nD => Cert.Bridge.finite_of_pre _ _ _ _ (hpre d)
  have hX := Cert.Bridge.finite_whole_x (m' (((0 : Dev Cert.ReferenceIdeal.nD).tc : Thread Cert.ReferenceIdeal.nD Cert.ReferenceIdeal.τ).loc Cert.ReferenceIdeal.main_arg0)) fun d => by
    have h := (hfin d).1; rw [(hagree d).1] at h; exact h
  have hT := (hfin c).2.1
  rw [(hagree c).2.1] at hT
  have hWs := Cert.Bridge.finite_whole_w (m' (((0 : Dev Cert.ReferenceIdeal.nD).tc : Thread Cert.ReferenceIdeal.nD Cert.ReferenceIdeal.τ).loc Cert.ReferenceIdeal.main_arg2)) fun d => by
    have h := (hfin d).2.2.1; rw [(hagree d).2.2.1] at h; exact h
  have hWsh := Cert.Bridge.finite_whole_w (m' (((0 : Dev Cert.ReferenceIdeal.nD).tc : Thread Cert.ReferenceIdeal.nD Cert.ReferenceIdeal.τ).loc Cert.ReferenceIdeal.main_arg3)) fun d => by
    have h := (hfin d).2.2.2; rw [(hagree d).2.2.2] at h; exact h
  -- the two loads of the receive buffer
  have hR0 : ∀ (d : Fin 7) (b : Fin 4) (s : Fin 256), R0 (F := Ideal) m c (ValueIdx.ix4 d 0 b s)
      = k0_pay2 (F := Ideal) (k0_pay1 (Layout.block ⟨3, ![4, 256, 128]⟩ ⟨3, ![4, 256, 1024]⟩ 2 8 (Cert.Bridge.src c d) (m' (((0 : Dev Cert.ReferenceIdeal.nD).tc : Thread Cert.ReferenceIdeal.nD Cert.ReferenceIdeal.τ).loc Cert.ReferenceIdeal.main_arg0)))) (ValueIdx.ix2 b s) := fun d b s => by
    rw [← src_eq_bridge, ← hx (src c d)]; exact recv_row0 m c d b s
  have hR1 : ∀ (d : Fin 7) (b : Fin 4) (s : Fin 256), R1 (F := Ideal) m c (ValueIdx.ix4 d 0 b s)
      = k0_pay3 (F := Ideal) (k0_pay1 (Layout.block ⟨3, ![4, 256, 128]⟩ ⟨3, ![4, 256, 1024]⟩ 2 8 (Cert.Bridge.src c d) (m' (((0 : Dev Cert.ReferenceIdeal.nD).tc : Thread Cert.ReferenceIdeal.nD Cert.ReferenceIdeal.τ).loc Cert.ReferenceIdeal.main_arg0)))) (ValueIdx.ix2 b s) := fun d b s => by
    rw [← src_eq_bridge, ← hx (src c d)]; exact recv_row1 m c d b s
  have key := Cert.Bridge.out_eq _ _ _ _ hX hT hWs hWsh c (R0 (F := Ideal) m c) (R1 (F := Ideal) m c) hR0 hR1
  unfold outAt v96
  rw [hx c, ht c, hws c, hwsh c]
  exact key

end Cert.KernelIdeal.Hand

end
-- ==== Proof.RefTerm.lean ====
/-
  The reference's result as one pure term of its four arguments, for any float values:
  the row mean (sum over the 1024 channels, divided by 1024), the row variance as the callee
  computes it (the mean of the squared deviations, divided by 1024 − convert(0), selected against
  a NaN constant by the comparison 1024 − convert(0) > 0), the normalisation, and the two
  projections t·W_scale and t·W_shift broadcast along the rows.
-/
import proofs.«900349_g7700000000000350_dist_diff_adaln_cshard_i_b4_s256_c128_v7x_i8_bf16_1_alg».proof.ReferenceIdeal

noncomputable section

namespace Cert.ReferenceIdeal.HandRun

open Cert.ReferenceIdeal Idealize.ShloMosaic

variable {F : FTy → Type} [FloatOps F] [Facts]
open Facts₀ Facts

/-- The scalar 1024, broadcast to a column per row. -/
def cntCol : (⟨S4x256x1, .f32⟩ : BufTy).Contents (Elt F) :=
  broadcastInDim S4x256x1 ![] bcast_S_S4x256x1 (constant S_ .f32 0x44800000#32)

/-- The row sums of `X` over the channels, from the zero initial value, as a column per row. -/
def sumCol (X : (⟨S4x256x1024, .f32⟩ : BufTy).Contents (Elt F)) : (⟨S4x256x1, .f32⟩ : BufTy).Contents (Elt F) :=
  broadcastInDim S4x256x1 ![0, 1] bcast_S4x256_S4x256x1_0_1
    (Host.reduceAdd X (constant S_ .f32 0x00000000#32) reducesTo_S4x256x1024_S4x256_d2 h_S_)

/-- The row means: the row sums divided by 1024. -/
def meanCol (X : (⟨S4x256x1024, .f32⟩ : BufTy).Contents (Elt F)) : (⟨S4x256x1, .f32⟩ : BufTy).Contents (Elt F) :=
  Host.divf (sumCol X) cntCol

/-- `X` minus its row means. -/
def centred (X : (⟨S4x256x1024, .f32⟩ : BufTy).Contents (Elt F)) : (⟨S4x256x1024, .f32⟩ : BufTy).Contents (Elt F) :=
  subf X (broadcastInDim S4x256x1024 ![0, 1, 2] bcast_S4x256x1_S4x256x1024_0_1_2 (meanCol X))

/-- The divisor of the variance: 1024 minus the integer 0 converted to a float. -/
def ddofCnt : (⟨S_, .f32⟩ : BufTy).Contents (Elt F) :=
  subf (constant S_ .f32 0x44800000#32) (sitofp .f32 (constantI S_ 32 0#32))

/-- The row variances as the callee states them: the sums of the squared deviations divided by the
    divisor where the divisor is positive, the NaN constant elsewhere. -/
def varCol (X : (⟨S4x256x1024, .f32⟩ : BufTy).Contents (Elt F)) : (⟨S4x256x1, .f32⟩ : BufTy).Contents (Elt F) :=
  select (broadcastInDim S4x256x1 ![] bcast_S_S4x256x1 (cmpf .ogt (ddofCnt (F := F)) (constant S_ .f32 0x00000000#32)))
    (Host.divf (sumCol (mulf (centred X) (centred X))) (broadcastInDim S4x256x1 ![] bcast_S_S4x256x1 ddofCnt))
    (broadcastInDim S4x256x1 ![] bcast_S_S4x256x1 (id (constant S_ .f32 0x7FC00000#32)))

/-- The normalised rows: the centred rows divided by the square root of the variance plus ε. -/
def normed (X : (⟨S4x256x1024, .f32⟩ : BufTy).Contents (Elt F)) : (⟨S4x256x1024, .f32⟩ : BufTy).Contents (Elt F) :=
  Host.divf (centred X)
    (broadcastInDim S4x256x1024 ![0, 1, 2] bcast_S4x256x1_S4x256x1024_0_1_2
      (Host.sqrt (addf (varCol X) (broadcastInDim S4x256x1 ![] bcast_S_S4x256x1 (constant S_ .f32 0x3727C5AC#32)))))

/-- The product t · W. -/
def projMat (t : (⟨S4x128, .f32⟩ : BufTy).Contents (Elt F)) (W : (⟨S128x1024, .f32⟩ : BufTy).Contents (Elt F)) :
    (⟨S4x1024, .f32⟩ : BufTy).Contents (Elt F) :=
  Host.dotGeneral dot_S4x128_S128x1024_S4x1024_1_0_0_1_n_n none t W

/-- The reference's result: normalised rows times (1 + t·W_scale) plus t·W_shift, the projections
    broadcast along the rows. -/
def refOut (X : (⟨S4x256x1024, .f32⟩ : BufTy).Contents (Elt F)) (t : (⟨S4x128, .f32⟩ : BufTy).Contents (Elt F))
    (Ws Wsh : (⟨S128x1024, .f32⟩ : BufTy).Contents (Elt F)) : (⟨S4x256x1024, .f32⟩ : BufTy).Contents (Elt F) :=
  addf
    (mulf (normed X)
      (broadcastInDim S4x256x1024 ![0, 1, 2] bcast_S4x1x1024_S4x256x1024_0_1_2
        (addf (broadcastInDim S4x1x1024 ![] bcast_S_S4x1x1024 (constant S_ .f32 0x3F800000#32))
          (broadcastInDim S4x1x1024 ![0, 2] bcast_S4x1024_S4x1x1024_0_2 (projMat t Ws)))))
    (broadcastInDim S4x256x1024 ![0, 1, 2] bcast_S4x1x1024_S4x256x1024_0_1_2
      (broadcastInDim S4x1x1024 ![0, 2] bcast_S4x1024_S4x1x1024_0_2 (projMat t Wsh)))

end Cert.ReferenceIdeal.HandRun

end
-- ==== Proof.RefOps.lean ====
/-
  The reference program's @main as the list of its 49 host operations — its own 26 and, inlined at
  the call site over the call's buffers, the 20 of the variance function and the 3 of the select
  function that one calls — and its run: every weakly fair execution terminates with every buffer
  at the operations' fold over the launch contents. For any float values.
-/
import proofs.«900349_g7700000000000350_dist_diff_adaln_cshard_i_b4_s256_c128_v7x_i8_bf16_1_alg».proof.Proof.RefTerm
import Idealize.ShloMosaic.Lib.StableHlo.Run

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- @main's operations in order, the two calls unfolded at their sites. -/
abbrev ops : List (HloOp τ sig (Elt F)) :=
  [ nullary main_cst (constant S_ .f32 0x00000000#32),
    binary main_arg0 main_cst main_v0 ((fun x v => Host.reduceAdd x v reducesTo_S4x256x1024_S4x256_d2 h_S_) : (⟨S4x256x1024, .f32⟩ : BufTy).Contents (Elt F) → (⟨S_, .f32⟩ : BufTy).Contents (Elt F) → (⟨S4x256, .f32⟩ : BufTy).Contents (Elt F)),
    unary main_v0 main_v1 (broadcastInDim S4x256x1 ![0, 1] bcast_S4x256_S4x256x1_0_1 : (⟨S4x256, .f32⟩ : BufTy).Contents (Elt F) → (⟨S4x256x1, .f32⟩ : BufTy).Contents (Elt F)),
    nullary main_cst_0 (constant S_ .f32 0x44800000#32),
    unary main_cst_0 main_v2 (broadcastInDim S4x256x1 ![] bcast_S_S4x256x1 : (⟨S_, .f32⟩ : BufTy).Contents (Elt F) → (⟨S4x256x1, .f32⟩ : BufTy).Contents (Elt F)),
    binary main_v1 main_v2 main_v3 (Host.divf : (⟨S4x256x1, .f32⟩ : BufTy).Contents (Elt F) → (⟨S4x256x1, .f32⟩ : BufTy).Contents (Elt F) → (⟨S4x256x1, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S4x256x1024_S4x256_d2 h_S_),
    TRef.unary main_call0.v0 main_call0.v1 (broadcastInDim S4x256x1 ![0, 1] bcast_S4x256_S4x256x1_0_1),
    TRef.nullary main_call0.cst_0 (constant S_ .f32 0x44800000#32),
    TRef.unary main_call0.cst_0 main_call0.v2 (broadcastInDim S4x256x1 ![] bcast_S_S4x256x1),
    TRef.binary main_call0.v1 main_call0.v2 main_call0.v3 Host.divf,
    TRef.unary main_call0.v3 main_call0.v4 (broadcastInDim S4x256x1024 ![0, 1, 2] bcast_S4x256x1_S4x256x1024_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x256x1024_S4x256_d2 h_S_),
    TRef.unary main_call0.v9 main_call0.v10 (broadcastInDim S4x256x1 ![0, 1] bcast_S4x256_S4x256x1_0_1),
    TRef.unary main_call0.v8 main_call0.v11 (broadcastInDim S4x256x1 ![] bcast_S_S4x256x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4x256x1 ![] bcast_S_S4x256x1),
    TRef.ternary main_call0.v13 main_call0.v12 main_call0.call0.v1 main_call0.call0.v2 (fun p a b => select (broadcastInDim S4x256x1 ![] bcast_S_S4x256x1 p) a b),
    unary main_v3 main_v5 (broadcastInDim S4x256x1024 ![0, 1, 2] bcast_S4x256x1_S4x256x1024_0_1_2 : (⟨S4x256x1, .f32⟩ : BufTy).Contents (Elt F) → (⟨S4x256x1024, .f32⟩ : BufTy).Contents (Elt F)),
    binary main_arg0 main_v5 main_v6 (subf : (⟨S4x256x1024, .f32⟩ : BufTy).Contents (Elt F) → (⟨S4x256x1024, .f32⟩ : BufTy).Contents (Elt F) → (⟨S4x256x1024, .f32⟩ : BufTy).Contents (Elt F)),
    nullary main_cst_1 (constant S_ .f32 0x3727C5AC#32),
    unary main_cst_1 main_v7 (broadcastInDim S4x256x1 ![] bcast_S_S4x256x1 : (⟨S_, .f32⟩ : BufTy).Contents (Elt F) → (⟨S4x256x1, .f32⟩ : BufTy).Contents (Elt F)),
    binary main_v4 main_v7 main_v8 (addf : (⟨S4x256x1, .f32⟩ : BufTy).Contents (Elt F) → (⟨S4x256x1, .f32⟩ : BufTy).Contents (Elt F) → (⟨S4x256x1, .f32⟩ : BufTy).Contents (Elt F)),
    unary main_v8 main_v9 (Host.sqrt : (⟨S4x256x1, .f32⟩ : BufTy).Contents (Elt F) → (⟨S4x256x1, .f32⟩ : BufTy).Contents (Elt F)),
    unary main_v9 main_v10 (broadcastInDim S4x256x1024 ![0, 1, 2] bcast_S4x256x1_S4x256x1024_0_1_2 : (⟨S4x256x1, .f32⟩ : BufTy).Contents (Elt F) → (⟨S4x256x1024, .f32⟩ : BufTy).Contents (Elt F)),
    binary main_v6 main_v10 main_v11 (Host.divf : (⟨S4x256x1024, .f32⟩ : BufTy).Contents (Elt F) → (⟨S4x256x1024, .f32⟩ : BufTy).Contents (Elt F) → (⟨S4x256x1024, .f32⟩ : BufTy).Contents (Elt F)),
    binary main_arg1 main_arg2 main_v12 ((fun l r => Host.dotGeneral dot_S4x128_S128x1024_S4x1024_1_0_0_1_n_n none l r) : (⟨S4x128, .f32⟩ : BufTy).Contents (Elt F) → (⟨S128x1024, .f32⟩ : BufTy).Contents (Elt F) → (⟨S4x1024, .f32⟩ : BufTy).Contents (Elt F)),
    binary main_arg1 main_arg3 main_v13 ((fun l r => Host.dotGeneral dot_S4x128_S128x1024_S4x1024_1_0_0_1_n_n none l r) : (⟨S4x128, .f32⟩ : BufTy).Contents (Elt F) → (⟨S128x1024, .f32⟩ : BufTy).Contents (Elt F) → (⟨S4x1024, .f32⟩ : BufTy).Contents (Elt F)),
    unary main_v12 main_v14 (broadcastInDim S4x1x1024 ![0, 2] bcast_S4x1024_S4x1x1024_0_2 : (⟨S4x1024, .f32⟩ : BufTy).Contents (Elt F) → (⟨S4x1x1024, .f32⟩ : BufTy).Contents (Elt F)),
    nullary main_cst_2 (constant S_ .f32 0x3F800000#32),
    unary main_cst_2 main_v15 (broadcastInDim S4x1x1024 ![] bcast_S_S4x1x1024 : (⟨S_, .f32⟩ : BufTy).Contents (Elt F) → (⟨S4x1x1024, .f32⟩ : BufTy).Contents (Elt F)),
    binary main_v15 main_v14 main_v16 (addf : (⟨S4x1x1024, .f32⟩ : BufTy).Contents (Elt F) → (⟨S4x1x1024, .f32⟩ : BufTy).Contents (Elt F) → (⟨S4x1x1024, .f32⟩ : BufTy).Contents (Elt F)),
    unary main_v16 main_v17 (broadcastInDim S4x256x1024 ![0, 1, 2] bcast_S4x1x1024_S4x256x1024_0_1_2 : (⟨S4x1x1024, .f32⟩ : BufTy).Contents (Elt F) → (⟨S4x256x1024, .f32⟩ : BufTy).Contents (Elt F)),
    binary main_v11 main_v17 main_v18 (mulf : (⟨S4x256x1024, .f32⟩ : BufTy).Contents (Elt F) → (⟨S4x256x1024, .f32⟩ : BufTy).Contents (Elt F) → (⟨S4x256x1024, .f32⟩ : BufTy).Contents (Elt F)),
    unary main_v13 main_v19 (broadcastInDim S4x1x1024 ![0, 2] bcast_S4x1024_S4x1x1024_0_2 : (⟨S4x1024, .f32⟩ : BufTy).Contents (Elt F) → (⟨S4x1x1024, .f32⟩ : BufTy).Contents (Elt F)),
    unary main_v19 main_v20 (broadcastInDim S4x256x1024 ![0, 1, 2] bcast_S4x1x1024_S4x256x1024_0_1_2 : (⟨S4x1x1024, .f32⟩ : BufTy).Contents (Elt F) → (⟨S4x256x1024, .f32⟩ : BufTy).Contents (Elt F)),
    binary main_v18 main_v20 main_v21 (addf : (⟨S4x256x1024, .f32⟩ : BufTy).Contents (Elt F) → (⟨S4x256x1024, .f32⟩ : BufTy).Contents (Elt F) → (⟨S4x256x1024, .f32⟩ : BufTy).Contents (Elt F)) ]

set_option maxRecDepth 2048 in
/-- @main is that straight line: the two functions' definitions unfolded at their calls, both sides
    are one chain of steps once sequencing is reassociated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., binary_bufs_sub .., binary_bufs_sub .., unary_bufs_sub .., nullary_bufs_sub .., unary_bufs_sub .., binary_bufs_sub .., unary_bufs_sub .., binary_bufs_sub .., unary_bufs_sub .., unary_bufs_sub .., binary_bufs_sub ..⟩

/-- From any memory with zero counters, every weakly fair execution of @main terminates and every
    buffer ends at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefFold.lean ====
/-
  What the result buffer and the argument buffers hold after the reference's 49 operations: the fold
  of the operations' results read at each of those buffers. The result buffer holds `refOut` of the
  arguments' contents; no operation writes an argument.
-/
import proofs.«900349_g7700000000000350_dist_diff_adaln_cshard_i_b4_s256_c128_v7x_i8_bf16_1_alg».proof.Proof.RefOps

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem out_eq (V : Valuation τ sig (Elt F)) :
    after ops V (main_v21 : DevRef τ sig)
      = refOut (V (main_arg0 : DevRef τ sig)) (V (main_arg1 : DevRef τ sig)) (V (main_arg2 : DevRef τ sig))
          (V (main_arg3 : DevRef τ sig)) := by
  after_results_simp
  rfl

end Cert.ReferenceIdeal.HandRun

end
-- ==== Proof.RefValue.lean ====
/-
  The reference's composed term, read at the ideal values index by index: the row sums as finite sums
  over the 1024 channels, the callee's divisor 1024 − convert(0) = 1024 and its comparison 1024 > 0
  (so the select takes the quotient and the NaN constant is never read), the broadcasts as
  re-indexings, the two host contractions as sums over the 128 embedding coordinates. Together: the
  term is the specification's function of the four arguments.
-/
import proofs.«900349_g7700000000000350_dist_diff_adaln_cshard_i_b4_s256_c128_v7x_i8_bf16_1_alg».proof.Proof.RefTerm
import proofs.«900349_g7700000000000350_dist_diff_adaln_cshard_i_b4_s256_c128_v7x_i8_bf16_1_alg».proof.Proof.Spec
import Idealize.ShloMosaic.PureOps.Ideal.Laws
import Idealize.ShloMosaic.Lib.ValueLayout

noncomputable section

open scoped BigOperators

namespace Cert.ReferenceIdeal.HandRun

open Cert.ReferenceIdeal Idealize.ShloMosaic Idealize.ShloMosaic.ValueIdx

variable [Facts]
open Facts₀ Facts

/-! ## The float words the comparison and the subtraction read -/

/-- The word 0x44800000 denotes the real 1024. -/
theorem ofBits_1024 : Ideal.ofBits .f32 0x44800000#32 = ((1024 : ℝ) : EReal) := by
  simp [Ideal.ofBits, Ideal.ieee]
  exact_mod_cast (by norm_num : (8388608 : ℝ) * ((2 : ℝ) ^ 13)⁻¹ = 1024)

/-- The divisor of the variance is 1024: the integer zero converts to the real zero. -/
theorem ddofCnt_apply (i : S_.Idx) : ddofCnt (F := Ideal) i = Ideal.ofBits .f32 0x44800000#32 := by
  show Ideal.ofBits .f32 0x44800000#32 - (((0#32 : BitVec 32).toInt : ℝ) : EReal) = _
  simp

/-- 1024 is above zero, so the callee's comparison holds. -/
theorem cmp_ddof (i : S_.Idx) :
    cmpf (F := Ideal) .ogt (ddofCnt (F := Ideal)) (constant (F := Ideal) S_ .f32 0x00000000#32) i = 1#1 := by
  show Ideal.cmp .ogt (ddofCnt (F := Ideal) i) (Ideal.ofBits .f32 0x00000000#32) = 1#1
  rw [ddofCnt_apply, ofBits_1024, Ideal.ofBits_zero_f32]
  simp [Ideal.cmp]

/-! ## The broadcasts read at an index -/

section Reads
variable {α : Type}

theorem bc_scalar_col (x : S_.Idx → α) (i : S4x256x1.Idx) :
    broadcastInDim S4x256x1 ![] bcast_S_S4x256x1 x i = x ix0 :=
  broadcastInDim_apply _ _ _ _ _ fun a => a.elim0

theorem bc_scalar_row (x : S_.Idx → α) (i : S4x1x1024.Idx) :
    broadcastInDim S4x1x1024 ![] bcast_S_S4x1x1024 x i = x ix0 :=
  broadcastInDim_apply _ _ _ _ _ fun a => a.elim0

theorem bc_rows_col (x : S4x256.Idx → α) (b : Fin 4) (s : Fin 256) (z : Fin 1) :
    broadcastInDim S4x256x1 ![0, 1] bcast_S4x256_S4x256x1_0_1 x (ix3 b s z) = x (ix2 b s) :=
  broadcastInDim_apply _ _ _ _ _ fun a => by match a with | ⟨0, _⟩ => rfl | ⟨1, _⟩ => rfl

theorem bc_col_full (x : S4x256x1.Idx → α) (b : Fin 4) (s : Fin 256) (j : Fin 1024) :
    broadcastInDim S4x256x1024 ![0, 1, 2] bcast_S4x256x1_S4x256x1024_0_1_2 x (ix3 b s j) = x (ix3 b s 0) :=
  broadcastInDim_apply _ _ _ _ _ fun a => by match a with | ⟨0, _⟩ => rfl | ⟨1, _⟩ => rfl | ⟨2, _⟩ => rfl

theorem bc_mat_row (x : S4x1024.Idx → α) (b : Fin 4) (z : Fin 1) (j : Fin 1024) :
    broadcastInDim S4x1x1024 ![0, 2] bcast_S4x1024_S4x1x1024_0_2 x (ix3 b z j) = x (ix2 b j) :=
  broadcastInDim_apply _ _ _ _ _ fun a => by match a with | ⟨0, _⟩ => rfl | ⟨1, _⟩ => rfl

theorem bc_row_full (x : S4x1x1024.Idx → α) (b : Fin 4) (s : Fin 256) (j : Fin 1024) :
    broadcastInDim S4x256x1024 ![0, 1, 2] bcast_S4x1x1024_S4x256x1024_0_1_2 x (ix3 b s j) = x (ix3 b 0 j) :=
  broadcastInDim_apply _ _ _ _ _ fun a => by match a with | ⟨0, _⟩ => rfl | ⟨1, _⟩ => rfl | ⟨2, _⟩ => rfl

end Reads

/-! ## The host's division and square root at an index -/

theorem hostDivf_apply {s : Shape} {φ : FTy} (a b : FVec Ideal s φ) (i : s.Idx) :
    Host.divf a b i = Ideal.div (a i) (b i) := rfl

theorem hostSqrt_apply {s : Shape} {φ : FTy} (a : FVec Ideal s φ) (i : s.Idx) :
    Host.sqrt a i = Ideal.sqrt (a i) := rfl

/-! ## The reference's intermediate values at an index -/

/-- A row's sum over the channels, the zero initial value dropped. -/
theorem sumCol_apply (X : (⟨S4x256x1024, .f32⟩ : BufTy).Contents (Elt Ideal)) (b : Fin 4) (s : Fin 256) (z : Fin 1) :
    sumCol (F := Ideal) X (ix3 b s z) = ∑ j : Fin 1024, X (ix3 b s j) := by
  unfold sumCol
  rw [bc_rows_col]
  show Ideal.hostReduceAdd reducesTo_S4x256x1024_S4x256_d2 X (Ideal.ofBits .f32 0x00000000#32) (ix2 b s) = _
  rw [Ideal.hostReduceAdd_single _ (by decide : S4x256x1024.Reduces [2] S4x256), Ideal.ofBits_zero_f32, zero_add]
  refine Finset.sum_congr rfl fun j _ => congrArg X ?_
  funext c
  match c with | ⟨0, _⟩ => rfl | ⟨1, _⟩ => rfl | ⟨2, _⟩ => rfl

theorem cntCol_apply (i : S4x256x1.Idx) : cntCol (F := Ideal) i = Ideal.ofBits .f32 0x44800000#32 := by
  unfold cntCol; rw [bc_scalar_col]; rfl

theorem meanCol_apply (X : (⟨S4x256x1024, .f32⟩ : BufTy).Contents (Elt Ideal)) (b : Fin 4) (s : Fin 256) (z : Fin 1) :
    meanCol (F := Ideal) X (ix3 b s z) = Cert.Spec.mean X b s := by
  unfold meanCol
  rw [hostDivf_apply, sumCol_apply, cntCol_apply]; rfl

theorem centred_apply (X : (⟨S4x256x1024, .f32⟩ : BufTy).Contents (Elt Ideal)) (b : Fin 4) (s : Fin 256) (j : Fin 1024) :
    centred (F := Ideal) X (ix3 b s j) = X (ix3 b s j) - Cert.Spec.mean X b s := by
  unfold centred
  rw [subf_apply, bc_col_full, meanCol_apply]

theorem varCol_apply (X : (⟨S4x256x1024, .f32⟩ : BufTy).Contents (Elt Ideal)) (b : Fin 4) (s : Fin 256) (z : Fin 1) :
    varCol (F := Ideal) X (ix3 b s z) = Cert.Spec.var X b s := by
  unfold varCol
  rw [select_apply, bc_scalar_col, cmp_ddof, select_one]
  rw [hostDivf_apply, sumCol_apply, bc_scalar_col, ddofCnt_apply]
  show Ideal.div _ _ = Ideal.div (∑ j : Fin 1024, (X (ix3 b s j) - Cert.Spec.mean X b s) * (X (ix3 b s j) - Cert.Spec.mean X b s)) _
  congr 1
  refine Finset.sum_congr rfl fun j _ => ?_
  rw [mulf_apply, centred_apply]

theorem normed_apply (X : (⟨S4x256x1024, .f32⟩ : BufTy).Contents (Elt Ideal)) (b : Fin 4) (s : Fin 256) (j : Fin 1024) :
    normed (F := Ideal) X (ix3 b s j)
      = Ideal.div (X (ix3 b s j) - Cert.Spec.mean X b s)
          (Ideal.sqrt (Cert.Spec.var X b s + Ideal.ofBits .f32 0x3727C5AC#32)) := by
  unfold normed
  rw [hostDivf_apply, centred_apply, bc_col_full, hostSqrt_apply, addf_apply, varCol_apply, bc_scalar_col]
  rfl

/-- The host contraction at (b, j): the sum over the 128 embedding coordinates. -/
theorem projMat_apply (t : (⟨S4x128, .f32⟩ : BufTy).Contents (Elt Ideal)) (W : (⟨S128x1024, .f32⟩ : BufTy).Contents (Elt Ideal))
    (b : Fin 4) (j : Fin 1024) :
    projMat (F := Ideal) t W (ix2 b j) = Cert.Spec.proj t W b j := by
  show FloatOps.dotGeneral (F := Ideal) (φ₁ := .f32) (φ₂ := .f32) dot_S4x128_S128x1024_S4x1024_1_0_0_1_n_n none .single t W (ix2 b j)
    = ∑ k : Fin 128, t (ix2 b k) * W (ix2 k j)
  rw [Ideal.dotGeneral_apply, ← Equiv.sum_comp (contrEquiv1 dot_S4x128_S128x1024_S4x1024_1_0_0_1_n_n 128 rfl rfl).symm]
  refine Finset.sum_congr rfl fun k _ => ?_
  have hl : (dot_S4x128_S128x1024_S4x1024_1_0_0_1_n_n).lhsIdx (ix2 b j) ((contrEquiv1 dot_S4x128_S128x1024_S4x1024_1_0_0_1_n_n 128 rfl rfl).symm k) = ix2 b k := by
    funext a; apply Fin.ext
    match a with | ⟨0, _⟩ => rfl | ⟨1, _⟩ => rfl
  have hr : (dot_S4x128_S128x1024_S4x1024_1_0_0_1_n_n).rhsIdx (ix2 b j) ((contrEquiv1 dot_S4x128_S128x1024_S4x1024_1_0_0_1_n_n 128 rfl rfl).symm k) = ix2 k j := by
    funext a; apply Fin.ext
    match a with | ⟨0, _⟩ => rfl | ⟨1, _⟩ => rfl
  rw [hl, hr]

/-! ## The reference's result is the specification -/

theorem refOut_eq_G (X : (⟨S4x256x1024, .f32⟩ : BufTy).Contents (Elt Ideal)) (t : (⟨S4x128, .f32⟩ : BufTy).Contents (Elt Ideal))
    (Ws Wsh : (⟨S128x1024, .f32⟩ : BufTy).Contents (Elt Ideal)) :
    refOut (F := Ideal) X t Ws Wsh = Cert.Spec.G X t Ws Wsh := by
  funext i
  obtain ⟨b, s, j, rfl⟩ : ∃ (b : Fin 4) (s : Fin 256) (j : Fin 1024), i = ix3 b s j := ⟨i 0, i 1, i 2, eq_ix3 i⟩
  rw [Cert.Spec.G_ix3]
  unfold refOut
  rw [addf_apply, mulf_apply, normed_apply, bc_row_full, bc_row_full, addf_apply, bc_scalar_row, bc_mat_row, bc_mat_row,
    projMat_apply, projMat_apply]
  rfl

end Cert.ReferenceIdeal.HandRun

end
-- ==== Proof.RefRun.lean ====
/-
  The reference's run at the ideal values: from any memory with zero counters, every weakly fair
  execution of @main terminates with the result buffer holding the specification's function of the
  four argument arrays' launch contents, and the argument arrays unchanged. The fold of the 49
  operations read at the result buffer is the composed term, and that term is the specification
  index by index.
-/
import proofs.«900349_g7700000000000350_dist_diff_adaln_cshard_i_b4_s256_c128_v7x_i8_bf16_1_alg».proof.Proof.RefFold
import proofs.«900349_g7700000000000350_dist_diff_adaln_cshard_i_b4_s256_c128_v7x_i8_bf16_1_alg».proof.Proof.RefValue

noncomputable section

namespace Cert.ReferenceIdeal.HandRun

open Cert.ReferenceIdeal Idealize.ShloMosaic Idealize.ShloMosaic.TcCoe Idealize.SL.Sem Idealize.ShloMosaic.StableHlo

/-- For any float values: the result buffer ends at the composed term of the arguments' launch
    contents, the arguments unchanged. -/
theorem run_refOut {F : FTy → Type} [FloatOps F] [Cert.ReferenceIdeal.Facts]
    (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v21).trans (out_eq _),
      (h c main_arg0).trans (arg0_eq _), (h c main_arg1).trans (arg1_eq _),
      (h c main_arg2).trans (arg2_eq _), (h c main_arg3).trans (arg3_eq _)⟩)
    (run_after m ρ)

/-- At the ideal values the result is the specification's function `Cert.Spec.G` of the arguments. -/
theorem run [Cert.ReferenceIdeal.Facts]
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v21) = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono (fun _ h c => ⟨((h c).1).trans (refOut_eq_G _ _ _ _), (h c).2⟩) (run_refOut m ρ)

end Cert.ReferenceIdeal.HandRun

end
-- ==== Proof.lean ====
/-
  The certificate of a layer normalisation with a learned modulation, its 1024 channels cut over eight devices.

  WHAT IS COMPUTED. The arrays are x : [4, 256, 1024], t : [4, 128], W_scale and W_shift : [128, 1024]. For each
  row (b, s) of x the reference takes the mean and the variance over the 1024 channels,

      mean = (Σ_j x_j) / 1024,      var = (Σ_j (x_j − mean)²) / 1024,

  and returns  (x − mean) / √(var + ε) · (1 + (t · W_scale)(b, j)) + (t · W_shift)(b, j)  at (b, s, j); this function of
  the four arrays is `Cert.Spec.G` (Proof/Spec.lean). Device c of the kernel holds the 128 channels
  128·c … 128·c + 127 of x, W_scale and W_shift and all of t. It sums its part of every row and its part of every
  row's squares, hands the two partial sums to the seven other devices and receives theirs, so that it has

      S = Σ_j x_j      and      Q = Σ_j x_j²      over all 1024 channels,

  and writes  (x − S/1024) · rsqrt(Q/1024 − (S/1024)² + ε) · (1 + t · W_scale) + t · W_shift  on its own 128 channels.

  THE PROTOCOL. The devices stand on a ring of offsets: device c first signals the barrier semaphore of each of the
  seven others and waits for seven units on its own, so that every peer has entered the kernel before anything is
  written into its buffers; it then copies its 2 × 4 × 256 block of partial sums into slot k of the receive buffer of
  the device k + 1 places after it, k = 0 … 6, waits for its seven receive semaphores (slot k then holds the partial
  sums of the device k + 1 places before it), computes, and last waits for its seven send semaphores. Every weakly
  fair execution of the eight threads terminates and the four argument arrays of every device end unchanged: the
  three frame claims (the reference has no kernel: it is a straight line of 49 host operations).

  THE LAW THAT JOINS THE TWO SIDES. Over the reals, for finite x_1 … x_n with mean μ,

      (Σ x_j²)/n − μ²  =  (Σ (x_j − μ)²)/n  ≥ 0,

  so the kernel's variance is the reference's; the precondition (every entry of the four arrays is finite) is what
  makes the sums real numbers, on which the identity holds — on the extended reals it fails at an infinity. With
  var ≥ 0 and ε > 0 the reciprocal square root of var + ε times a deviation is that deviation divided by the square
  root. The eight devices' partial sums add up to the whole row's sum because the channel blocks partition the 1024
  channels and the seven ring offsets from c, with c itself, are all eight devices. The two projections against a
  device's block of columns are the reference's projections at that device's channels. Hence what device c writes is
  block c, along the channels, of `Cert.Spec.G` of the reference's arrays (Proof/KValue.lean over Proof/Bridge.lean),
  and the reference's run ends with its result buffer holding `Cert.Spec.G` of them (Proof/RefRun.lean): the
  algebraic claim's shared value.

  The idealized kernel is the printed kernel's own text read at the ideal values (no operation was rewritten), so the
  claim that the one preserves the other is the trivial proposition.
-/
import proofs.«900349_g7700000000000350_dist_diff_adaln_cshard_i_b4_s256_c128_v7x_i8_bf16_1_alg».proof.Defs
import proofs.«900349_g7700000000000350_dist_diff_adaln_cshard_i_b4_s256_c128_v7x_i8_bf16_1_alg».proof.Proof.Gen.Kernel
import proofs.«900349_g7700000000000350_dist_diff_adaln_cshard_i_b4_s256_c128_v7x_i8_bf16_1_alg».proof.Proof.Gen.Kernel.Skeleton
import proofs.«900349_g7700000000000350_dist_diff_adaln_cshard_i_b4_s256_c128_v7x_i8_bf16_1_alg».proof.Proof.Gen.Kernel.Launch
import proofs.«900349_g7700000000000350_dist_diff_adaln_cshard_i_b4_s256_c128_v7x_i8_bf16_1_alg».proof.Proof.Gen.Kernel.Points
import proofs.«900349_g7700000000000350_dist_diff_adaln_cshard_i_b4_s256_c128_v7x_i8_bf16_1_alg».proof.Proof.Gen.Kernel.Frame
import proofs.«900349_g7700000000000350_dist_diff_adaln_cshard_i_b4_s256_c128_v7x_i8_bf16_1_alg».proof.Proof.Gen.KernelIdeal
import proofs.«900349_g7700000000000350_dist_diff_adaln_cshard_i_b4_s256_c128_v7x_i8_bf16_1_alg».proof.Proof.Gen.KernelIdeal.Skeleton
import proofs.«900349_g7700000000000350_dist_diff_adaln_cshard_i_b4_s256_c128_v7x_i8_bf16_1_alg».proof.Proof.Gen.KernelIdeal.Launch
import proofs.«900349_g7700000000000350_dist_diff_adaln_cshard_i_b4_s256_c128_v7x_i8_bf16_1_alg».proof.Proof.Gen.KernelIdeal.Points
import proofs.«900349_g7700000000000350_dist_diff_adaln_cshard_i_b4_s256_c128_v7x_i8_bf16_1_alg».proof.Proof.Gen.KernelIdeal.Frame
import proofs.«900349_g7700000000000350_dist_diff_adaln_cshard_i_b4_s256_c128_v7x_i8_bf16_1_alg».proof.Proof.Gen.ReferenceIdeal
import proofs.«900349_g7700000000000350_dist_diff_adaln_cshard_i_b4_s256_c128_v7x_i8_bf16_1_alg».proof.Proof.Gen.Pre_finite_inputs_Kernel
import proofs.«900349_g7700000000000350_dist_diff_adaln_cshard_i_b4_s256_c128_v7x_i8_bf16_1_alg».proof.Proof.Gen.Pre_finite_inputs_ReferenceIdeal
import proofs.«900349_g7700000000000350_dist_diff_adaln_cshard_i_b4_s256_c128_v7x_i8_bf16_1_alg».proof.Proof.KLaunch
import proofs.«900349_g7700000000000350_dist_diff_adaln_cshard_i_b4_s256_c128_v7x_i8_bf16_1_alg».proof.Proof.WLaunch
import proofs.«900349_g7700000000000350_dist_diff_adaln_cshard_i_b4_s256_c128_v7x_i8_bf16_1_alg».proof.Proof.KValue
import proofs.«900349_g7700000000000350_dist_diff_adaln_cshard_i_b4_s256_c128_v7x_i8_bf16_1_alg».proof.Proof.RefRun
import Idealize.ShloMosaic.Adequacy
import Idealize.ShloMosaic.Init

noncomputable section

namespace Cert.Proof

open Idealize.ShloMosaic Idealize.SL.Sem

/-- The kernel as printed runs to the end on the eight devices and leaves its four argument arrays unchanged. -/
theorem frame_Kernel : Cert.frame_Kernel (hKernel := Cert.Kernel.Gen.facts) (hPre_finite_inputs_Kernel := Cert.Pre_finite_inputs_Kernel.Gen.facts) :=
  fun m g _ => (θ_run _ _ _).mono (fun _ h c => (h c).2) (Cert.Kernel.Hand.run_main (F := Bits) m g)

/-- So does the kernel read at the ideal values. -/
theorem frame_KernelIdeal : Cert.frame_KernelIdeal (hKernelIdeal := Cert.KernelIdeal.Gen.facts) (hPre_finite_inputs_Kernel := Cert.Pre_finite_inputs_Kernel.Gen.facts) :=
  fun m g _ => (θ_run _ _ _).mono (fun _ h c => (h c).2) (Cert.KernelIdeal.Hand.run_main (F := Ideal) m g)

/-- And the reference, on its one device. -/
theorem frame_ReferenceIdeal : Cert.frame_ReferenceIdeal (hReferenceIdeal := Cert.ReferenceIdeal.Gen.facts) (hPre_finite_inputs_ReferenceIdeal := Cert.Pre_finite_inputs_ReferenceIdeal.Gen.facts) :=
  fun m g _ => (θ_run _ _ _).mono (fun _ h c => (h c).2) (Cert.ReferenceIdeal.HandRun.run m g)

/-- From memories that agree on the inputs — each device holding its block of the reference's arrays — both run, the
    reference's result ends holding the specification's function of its arrays and each device's result its block of it. -/
theorem algebraic : Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) :=
  fun m g m' g' hpre hagree =>
    ⟨Cert.Spec.G (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)),
      (θ_run _ _ _).mono (fun _ h c => ⟨(h c).1.trans (Cert.KernelIdeal.Hand.outAt_block m m' hpre hagree c), (h c).2⟩)
        (Cert.KernelIdeal.Hand.run_main (F := Ideal) m g),
      (θ_run _ _ _).mono (fun _ h => h 0) (Cert.ReferenceIdeal.HandRun.run m' g')⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_Kernel, frame_KernelIdeal, frame_ReferenceIdeal, trivial, algebraic⟩

end Cert.Proof

end
